-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S16384x2048 : Shape := ⟨2, ![16384, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x2048x2048 .f32) (main_arg1 : FVec F S16384x2048 .f32) (main_arg2 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x2048x2048 : Shape := ⟨3, ![4, 2048, 2048]⟩
abbrev S16384x2048 : Shape := ⟨2, ![16384, 2048]⟩
abbrev S2048x8192 : Shape := ⟨2, ![2048, 8192]⟩
abbrev S8192x2048 : Shape := ⟨2, ![8192, 2048]⟩
abbrev S_ : Shape := ⟨0, ![]⟩
abbrev S8192x8192 : Shape := ⟨2, ![8192, 8192]⟩
abbrev S1024x2048 : Shape := ⟨2, ![1024, 2048]⟩
abbrev S256x2048 : Shape := ⟨2, ![256, 2048]⟩
abbrev S1024x256 : Shape := ⟨2, ![1024, 256]⟩
abbrev S1024 : Shape := ⟨1, ![1024]⟩
abbrev S1024x1 : Shape := ⟨2, ![1024, 1]⟩
abbrev S64x8192 : Shape := ⟨2, ![64, 8192]⟩
abbrev S64x2048 : Shape := ⟨2, ![64, 2048]⟩
abbrev S64 : Shape := ⟨1, ![64]⟩
abbrev S64x1 : Shape := ⟨2, ![64, 1]⟩

abbrev nBuf : Space → Nat
  | .hbm => 55
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S16384x2048, .f32⟩
  | .hbm, ⟨2, _⟩ => ⟨S2048x8192, .f32⟩
  | .hbm, ⟨3, _⟩ => ⟨S8192x2048, .f32⟩
  | .hbm, ⟨4, _⟩ => ⟨S16384x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | .hbm, ⟨28, _⟩ => ⟨S2048x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048x8192, .f32⟩
  | .hbm, ⟨39, _⟩ => ⟨S2048x8192, .f32⟩
  | .hbm, ⟨40, _⟩ => ⟨S2048x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x8192, .f32⟩
  | .hbm, ⟨45, _⟩ => ⟨S2048x8192, .f32⟩
  | .hbm, ⟨46, _⟩ => ⟨S_, .f32⟩
  | .hbm, ⟨47, _⟩ => ⟨S2048x8192, .f32⟩
  | .hbm, ⟨48, _⟩ => ⟨S2048x8192, .f32⟩
  | .hbm, ⟨49, _⟩ => ⟨S2048x8192, .f32⟩
  | .hbm, ⟨50, _⟩ => ⟨S2048x8192, .f32⟩
  | .hbm, ⟨51, _⟩ => ⟨S2048x8192, .bf16⟩
  | .hbm, ⟨52, _⟩ => ⟨S8192x8192, .bf16⟩
  | .hbm, ⟨53, _⟩ => ⟨S8192x2048, .f32⟩
  | .hbm, ⟨54, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x256, .bf16⟩
  | .local _ .vmem, ⟨7, _⟩ => ⟨S1024x256, .bf16⟩
  | .local _ .vmem, ⟨8, _⟩ => ⟨S64x8192, .bf16⟩
  | .local _ .vmem, ⟨9, _⟩ => ⟨S64x8192, .bf16⟩
  | .local _ .vmem, ⟨10, _⟩ => ⟨S2048x8192, .bf16⟩
  | .local _ .vmem, ⟨11, _⟩ => ⟨S64x2048, .f32⟩
  | .local _ .vmem, ⟨12, _⟩ => ⟨S64x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_cst_7 : Ref sig .tc := ⟨.hbm, 33, rfl⟩
abbrev main_call3_v0 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_9 : Ref sig .tc := ⟨.hbm, 41, rfl⟩
abbrev main_cst_10 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x2048_S8192x2048 : S4x2048x2048.ShapeCasts S8192x2048
  reducesTo_S16384x2048_S_d0_1 : S16384x2048.ReducesTo [0, 1] S_
  h_S_ : 0 < S_.numel
  bcast_S_S16384x2048 : S_.BroadcastsInDim S16384x2048 (![] : Fin 0 → Fin S16384x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  broadcasts_S64x1_S64x8192 : S64x1.Broadcasts S64x8192
  inb_S2048x8192_S2048x8192_0_0 : ∀ a, (![0, 0] : Fin 2 → Nat) a + S2048x8192.size a ≤ S2048x8192.size a
  h_S2048x8192 : 0 < S2048x8192.numel
  shapeCasts_S2048x8192_S2048x8192 : S2048x8192.ShapeCasts S2048x8192
  inb_S64x2048_S64x2048_0_0 : ∀ a, (![0, 0] : Fin 2 → Nat) a + S64x2048.size a ≤ S64x2048.size a
  h_S64x2048 : 0 < S64x2048.numel
  shapeCasts_S8192x2048_S4x2048x2048 : S8192x2048.ShapeCasts S4x2048x2048
  dot_S1024x2048_S256x2048_S1024x256_1_1_0_0_n_n_wf : DotDims.WF S1024x2048 S256x2048 S1024x256 [1] [1] [0] [0] [] []
  dot_S64x8192_S2048x8192_S64x2048_1_1_0_0_n_n_wf : DotDims.WF S64x8192 S2048x8192 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .bf16 = 32 ∨ (Rect.block (s := S16384x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .bf16 = 32 ∨ (Rect.block (s := S16384x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x8192.size a
  hwx0_3 : ∀ i : grid0.Coords, EltTy.bits .bf16 = 32 ∨ (Rect.block (s := S8192x8192) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S8192x8192.size a
  hwx1_0 : ∀ i : grid1.Coords, EltTy.bits .bf16 = 32 ∨ (Rect.block (s := S8192x8192) S64x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x8192.size a ≤ S2048x8192.size a
  hwx1_1 : ∀ i : grid1.Coords, EltTy.bits .bf16 = 32 ∨ (Rect.block (s := S2048x8192) S2048x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S8192x2048.size a
  hwx1_2 : ∀ i : grid1.Coords, EltTy.bits .f32 = 32 ∨ (Rect.block (s := S8192x2048) S64x2048.size (cc1_transform_2 i) (hinb1_2 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S64x8192_S2048x8192_S64x2048_1_1_0_0_n_n : DotDims S64x8192 S2048x8192 S64x2048 where
  lhsContracting := [1]
  rhsContracting := [1]
  lhsNonContracting := [0]
  rhsNonContracting := [0]
  lhsBatch := []
  rhsBatch := []
  wf := dot_S64x8192_S2048x8192_S64x2048_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S16384x2048 : Shape := ⟨2, ![16384, 2048]⟩
abbrev S2048x8192 : Shape := ⟨2, ![2048, 8192]⟩
abbrev S_ : Shape := ⟨0, ![]⟩
abbrev S4x2048 : Shape := ⟨2, ![4, 2048]⟩
abbrev S4x2048x1 : Shape := ⟨3, ![4, 2048, 1]⟩
abbrev S4x2048x16384 : Shape := ⟨3, ![4, 2048, 16384]⟩
abbrev S4x2048x8192 : Shape := ⟨3, ![4, 2048, 8192]⟩

abbrev nBuf : Space → Nat
  | .hbm => 145
  | .vmem => 0
  | .smem => 0
  | _ => 0

abbrev hbmTy0_0 (i : Nat) : BufTy := match i % 128 with
  | 0 => ⟨S4x2048x2048, .f32⟩
  | 1 => ⟨S16384x2048, .f32⟩
  | 2 => ⟨S2048x8192, .f32⟩
  | 3 => ⟨S4x2048x2048, .f32⟩
  | 4 => ⟨S_, .f32⟩
  | 5 => ⟨S4x2048, .f32⟩
  | 6 => ⟨S4x2048x1, .f32⟩
  | 7 => ⟨S_, .f32⟩
  | 8 => ⟨S4x2048x1, .f32⟩
  | 9 => ⟨S4x2048x1, .f32⟩
  | 10 => ⟨S_, .f32⟩
  | 11 => ⟨S4x2048x1, .f32⟩
  | 12 => ⟨S4x2048x1, .f32⟩
  | 13 => ⟨S4x2048x1, .f32⟩
  | 14 => ⟨S4x2048x2048, .f32⟩
  | 15 => ⟨S4x2048x2048, .f32⟩
  | 16 => ⟨S4x2048x2048, .f32⟩
  | 17 => ⟨S_, .f32⟩
  | 18 => ⟨S4x2048, .f32⟩
  | 19 => ⟨S4x2048x1, .f32⟩
  | 20 => ⟨S_, .f32⟩
  | 21 => ⟨S_, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x2048, .f32⟩
  | 28 => ⟨S4x2048x2048, .f32⟩
  | 29 => ⟨S4x2048x2048, .f32⟩
  | 30 => ⟨S_, .i32⟩
  | 31 => ⟨S_, .i32⟩
  | 32 => ⟨S_, .f32⟩
  | 33 => ⟨S4x2048x2048, .f32⟩
  | 34 => ⟨S4x2048x2048, .f32⟩
  | 35 => ⟨S_, .f32⟩
  | 36 => ⟨S4x2048x2048, .f32⟩
  | 37 => ⟨S4x2048x2048, .f32⟩
  | 38 => ⟨S4x2048x2048, .f32⟩
  | 39 => ⟨S4x2048x2048, .f32⟩
  | 40 => ⟨S4x2048x2048, .f32⟩
  | 41 => ⟨S4x2048x2048, .f32⟩
  | 42 => ⟨S16384x2048, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S16384x2048, .f32⟩
  | 53 => ⟨S16384x2048, .f32⟩
  | 54 => ⟨S16384x2048, .f32⟩
  | 55 => ⟨S_, .i32⟩
  | 56 => ⟨S_, .i32⟩
  | 57 => ⟨S_, .f32⟩
  | 58 => ⟨S16384x2048, .f32⟩
  | 59 => ⟨S16384x2048, .f32⟩
  | 60 => ⟨S_, .f32⟩
  | 61 => ⟨S16384x2048, .f32⟩
  | 62 => ⟨S16384x2048, .f32⟩
  | 63 => ⟨S16384x2048, .f32⟩
  | 64 => ⟨S16384x2048, .f32⟩
  | 65 => ⟨S16384x2048, .f32⟩
  | 66 => ⟨S16384x2048, .f32⟩
  | 67 => ⟨S4x2048x16384, .f32⟩
  | 68 => ⟨S4x2048x8192, .f32⟩
  | 69 => ⟨S4x2048x8192, .f32⟩
  | 70 => ⟨S4x2048x8192, .f32⟩
  | 71 => ⟨S4x2048x8192, .f32⟩
  | 72 => ⟨S_, .f32⟩
  | 73 => ⟨S4x2048x8192, .f32⟩
  | 74 => ⟨S4x2048x8192, .f32⟩
  | 75 => ⟨S_, .f32⟩
  | 76 => ⟨S4x2048x8192, .f32⟩
  | 77 => ⟨S4x2048x8192, .f32⟩
  | 78 => ⟨S4x2048x8192, .f32⟩
  | 79 => ⟨S4x2048x8192, .f32⟩
  | 80 => ⟨S4x2048x8192, .f32⟩
  | 81 => ⟨S_, .f32⟩
  | 82 => ⟨S4x2048, .f32⟩
  | 83 => ⟨S4x2048x1, .f32⟩
  | 84 => ⟨S_, .f32⟩
  | 85 => ⟨S4x2048x1, .f32⟩
  | 86 => ⟨S4x2048x1, .f32⟩
  | 87 => ⟨S_, .f32⟩
  | 88 => ⟨S4x2048x1, .f32⟩
  | 89 => ⟨S4x2048x1, .f32⟩
  | 90 => ⟨S4x2048x1, .f32⟩
  | 91 => ⟨S4x2048x8192, .f32⟩
  | 92 => ⟨S4x2048x8192, .f32⟩
  | 93 => ⟨S4x2048x8192, .f32⟩
  | 94 => ⟨S_, .f32⟩
  | 95 => ⟨S4x2048, .f32⟩
  | 96 => ⟨S4x2048x1, .f32⟩
  | 97 => ⟨S_, .f32⟩
  | 98 => ⟨S_, .f32⟩
  | 99 => ⟨S4x2048x1, .f32⟩
  | 100 => ⟨S4x2048x1, .f32⟩
  | 101 => ⟨S_, .f32⟩
  | 102 => ⟨S4x2048x1, .f32⟩
  | 103 => ⟨S4x2048x1, .f32⟩
  | 104 => ⟨S4x2048x8192, .f32⟩
  | 105 => ⟨S4x2048x8192, .f32⟩
  | 106 => ⟨S4x2048x8192, .f32⟩
  | 107 => ⟨S_, .i32⟩
  | 108 => ⟨S_, .i32⟩
  | 109 => ⟨S_, .f32⟩
  | 110 => ⟨S4x2048x8192, .f32⟩
  | 111 => ⟨S4x2048x8192, .f32⟩
  | 112 => ⟨S_, .f32⟩
  | 113 => ⟨S4x2048x8192, .f32⟩
  | 114 => ⟨S4x2048x8192, .f32⟩
  | 115 => ⟨S4x2048x8192, .f32⟩
  | 116 => ⟨S4x2048x8192, .f32⟩
  | 117 => ⟨S4x2048x8192, .f32⟩
  | 118 => ⟨S4x2048x8192, .f32⟩
  | 119 => ⟨S2048x8192, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x2048x2048, .f32⟩

abbrev hbmTy0_1 (i : Nat) : BufTy := match i % 128 with
  | 0 => ⟨S_, .f32⟩
  | 1 => ⟨S2048x8192, .f32⟩
  | 2 => ⟨S2048x8192, .f32⟩
  | 3 => ⟨S2048x8192, .f32⟩
  | 4 => ⟨S_, .i32⟩
  | 5 => ⟨S_, .i32⟩
  | 6 => ⟨S_, .f32⟩
  | 7 => ⟨S2048x8192, .f32⟩
  | 8 => ⟨S2048x8192, .f32⟩
  | 9 => ⟨S_, .f32⟩
  | 10 => ⟨S2048x8192, .f32⟩
  | 11 => ⟨S2048x8192, .f32⟩
  | 12 => ⟨S2048x8192, .f32⟩
  | 13 => ⟨S2048x8192, .f32⟩
  | 14 => ⟨S2048x8192, .f32⟩
  | 15 => ⟨S2048x8192, .f32⟩
  | 16 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_c_5 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_call3_v0 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_c_11 : Ref sig .tc := ⟨.hbm, 56, rfl⟩
abbrev main_call5_v0 : Ref sig .tc := ⟨.hbm, 57, rfl⟩
abbrev main_call5_v1 : Ref sig .tc := ⟨.hbm, 58, rfl⟩
abbrev main_call5_v2 : Ref sig .tc := ⟨.hbm, 59, rfl⟩
abbrev main_call5_v3 : Ref sig .tc := ⟨.hbm, 60, rfl⟩
abbrev main_call5_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call6_v0 : Ref sig .tc := ⟨.hbm, 70, rfl⟩
abbrev main_call6_v1 : Ref sig .tc := ⟨.hbm, 71, rfl⟩
abbrev main_call6_cst : Ref sig .tc := ⟨.hbm, 72, rfl⟩
abbrev main_call6_v2 : Ref sig .tc := ⟨.hbm, 73, rfl⟩
abbrev main_call6_v3 : Ref sig .tc := ⟨.hbm, 74, rfl⟩
abbrev main_call6_cst_0 : Ref sig .tc := ⟨.hbm, 75, rfl⟩
abbrev main_call6_v4 : Ref sig .tc := ⟨.hbm, 76, rfl⟩
abbrev main_call6_v5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_12 : Ref sig .tc := ⟨.hbm, 81, rfl⟩
abbrev main_v43 : Ref sig .tc := ⟨.hbm, 82, rfl⟩
abbrev main_v44 : Ref sig .tc := ⟨.hbm, 83, rfl⟩
abbrev main_cst_13 : Ref sig .tc := ⟨.hbm, 84, rfl⟩
abbrev main_v45 : Ref sig .tc := ⟨.hbm, 85, rfl⟩
abbrev main_v46 : Ref sig .tc := ⟨.hbm, 86, rfl⟩
abbrev main_cst_14 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_15 : Ref sig .tc := ⟨.hbm, 94, rfl⟩
abbrev main_v53 : Ref sig .tc := ⟨.hbm, 95, rfl⟩
abbrev main_v54 : Ref sig .tc := ⟨.hbm, 96, rfl⟩
abbrev main_cst_16 : Ref sig .tc := ⟨.hbm, 97, rfl⟩
abbrev main_call7_v0 : Ref sig .tc := ⟨.hbm, 98, rfl⟩
abbrev main_call7_v1 : Ref sig .tc := ⟨.hbm, 99, rfl⟩
abbrev main_v55 : Ref sig .tc := ⟨.hbm, 100, rfl⟩
abbrev main_cst_17 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_18 : Ref sig .tc := ⟨.hbm, 107, rfl⟩
abbrev main_c_19 : Ref sig .tc := ⟨.hbm, 108, rfl⟩
abbrev main_call9_v0 : Ref sig .tc := ⟨.hbm, 109, rfl⟩
abbrev main_call9_v1 : Ref sig .tc := ⟨.hbm, 110, rfl⟩
abbrev main_call9_v2 : Ref sig .tc := ⟨.hbm, 111, rfl⟩
abbrev main_call9_v3 : Ref sig .tc := ⟨.hbm, 112, rfl⟩
abbrev main_call9_v4 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_20 : Ref sig .tc := ⟨.hbm, 120, rfl⟩
abbrev main_v67 : Ref sig .tc := ⟨.hbm, 121, rfl⟩
abbrev main_cst_21 : Ref sig .tc := ⟨.hbm, 122, rfl⟩
abbrev main_v68 : Ref sig .tc := ⟨.hbm, 123, rfl⟩
abbrev main_cst_22 : Ref sig .tc := ⟨.hbm, 124, rfl⟩
abbrev main_call10_v0 : Ref sig .tc := ⟨.hbm, 125, rfl⟩
abbrev main_v69 : Ref sig .tc := ⟨.hbm, 126, rfl⟩
abbrev main_cst_23 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_c_24 : Ref sig .tc := ⟨.hbm, 132, rfl⟩
abbrev main_c_25 : Ref sig .tc := ⟨.hbm, 133, rfl⟩
abbrev main_call12_v0 : Ref sig .tc := ⟨.hbm, 134, rfl⟩
abbrev main_call12_v1 : Ref sig .tc := ⟨.hbm, 135, rfl⟩
abbrev main_call12_v2 : Ref sig .tc := ⟨.hbm, 136, rfl⟩
abbrev main_call12_v3 : Ref sig .tc := ⟨.hbm, 137, rfl⟩
abbrev main_call12_v4 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S16384x2048_S_d0_1 : S16384x2048.ReducesTo [0, 1] S_
  bcast_S_S16384x2048 : S_.BroadcastsInDim S16384x2048 (![] : Fin 0 → Fin S16384x2048.rank)
  slices_S4x2048x16384_S4x2048x8192_0_0_0 : S4x2048x16384.Slices ![0, 0, 0] S4x2048x8192
  slices_S4x2048x16384_S4x2048x8192_0_0_8192 : S4x2048x16384.Slices ![0, 0, 8192] S4x2048x8192
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  reducesTo_S2048x8192_S_d0_1 : S2048x8192.ReducesTo [0, 1] S_
  bcast_S_S2048x8192 : S_.BroadcastsInDim S2048x8192 (![] : Fin 0 → Fin S2048x8192.rank)
  dot_S4x2048x2048_S16384x2048_S4x2048x16384_2_1_01_0_n_n_wf : DotDims.WF S4x2048x2048 S16384x2048 S4x2048x16384 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S16384x2048_S4x2048x16384_2_1_01_0_n_n : DotDims S4x2048x2048 S16384x2048 S4x2048x16384 where
  lhsContracting := [2]
  rhsContracting := [1]
  lhsNonContracting := [0, 1]
  rhsNonContracting := [0]
  lhsBatch := []
  rhsBatch := []
  wf := dot_S4x2048x2048_S16384x2048_S4x2048x16384_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KbR0.lean ====
/-
  The first launch of the kernel (the gate / value products and their gated product), point by point.

  At grid point t = (m, n) the body reads three blocks — rows [1024 m, 1024 (m+1)) of the token matrix, rows
  [256 n, 256 (n+1)) and [256 (n + 32), 256 (n + 33)) of the quantised gate weights (two windows onto ONE array) —
  and stores one block, rows [1024 m, …) × lanes [256 n, …) of the hidden matrix, whole. So what the output window's
  buffer holds after the body is the store's value over the three input blocks, and each input window's buffer holds
  its block whether it was fetched at this point or kept from an earlier one.
-/
import proofs.«143887_j14474039787742_1_alg».proof.Proof.Gen.Kernel.Launch
import proofs.«143887_j14474039787742_1_alg».proof.Proof.Gen.Kernel.Skeleton
import proofs.«143887_j14474039787742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or kept: the token rows. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the gate rows of the weights, -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and for the value rows. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev rx0 : Rect S1024x2048 := Rect.unit (s := S1024x2048) ![0, 0] S1024x2048.size Facts₀.inb_S1024x2048_S1024x2048_0_0
abbrev rw0 : Rect S256x2048 := Rect.unit (s := S256x2048) ![0, 0] S256x2048.size Facts₀.inb_S256x2048_S256x2048_0_0
abbrev ro0 : Rect S1024x256 := Rect.unit (s := S1024x256) ![0, 0] S1024x256.size Facts₀.inb_S1024x256_S1024x256_0_0

/-- What the output window's buffer holds after the body: its one store, over the three input blocks. -/
def out0_3 (x0 : Vec F S1024x2048 .f32) (w1 w2 : Vec F S256x2048 .bf16) : Vec F S1024x256 .bf16 :=
  View.canon [⟨ro0, k0_pay1 (View.ld x0 rx0) (View.ld w1 rw0) (View.ld w2 rw0)⟩]

/-- The store covers the buffer. -/
theorem cover0_3 (p0 : Vec F S1024x256 .bf16) (y : S1024x256.Idx) :
    ∃ pc ∈ ([⟨ro0, p0⟩] : List (View.Piece (Elt F) S1024x256 .bf16)), y ∈ pc.1.set :=
  View.cover_of_tiled [⟨ro0, p0⟩] S1024x256.size (by rfl) y

set_option maxHeartbeats 1000000 in
/-- The body on whole staging buffers: the inputs' at their contents and the output's at anything, it runs to the
    continuation with the inputs' as they were and the output's at the store's value. -/
theorem sound_kernel0 (c : Dev nD) (E : Set ℕ) (i : grid0.Coords)
    (arg2 : Memref sig .tc .vmem S1024x2048 .f32) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S1024x256 .bf16) (harg5 : arg5.IsWhole)
    (x0 : Vec F S1024x2048 .f32) (w1 w2 : Vec F S256x2048 .bf16) (K : PUnit → sProp 𝕄) :
    iprop(owns (c : Thread nD τ) arg2 fullShare x0 ∗ owns (c : Thread nD τ) arg3 fullShare w1 ∗ owns (c : Thread nD τ) arg4 fullShare w2
        ∗ (∃ d, owns (c : Thread nD τ) arg5 fullShare d)
        ∗ (iprop(owns (c : Thread nD τ) arg2 fullShare x0 ∗ owns (c : Thread nD τ) arg3 fullShare w1 ∗ owns (c : Thread nD τ) arg4 fullShare w2
            ∗ owns (c : Thread nD τ) arg5 fullShare (out0_3 x0 w1 w2)) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Hand

end
-- ==== Proof.KbD0.lean ====
/-
  The first launch's bookkeeping: what each window's buffer holds after the body at each point, and that the body,
  called at any point with the windows' buffers as the pipeline hands them, leaves them so.

  The two weight windows read ONE array, so the array is held in two halves, one per window; the token matrix and the
  hidden matrix are held whole.
-/
import proofs.«143887_j14474039787742_1_alg».proof.Proof.KbR0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- After the body at point t each input's buffer is at its block and the output's at the store's value of the three
    blocks; the two weight windows hold a half of their common array each. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbS0.lean ====
/-
  The first launch's arrays, split out of the core's buffers and put back.

  Its four windows stand on three buffers: the token matrix, the quantised gate weights (read by two windows) and the
  hidden matrix. Entering, the weights' buffer, held whole, is split into the two halves the two windows hold; leaving,
  the halves — both still at the contents they were split at, since no window writes them — are joined again, and the
  hidden matrix is held at what the write-backs made of it.
-/
import proofs.«143887_j14474039787742_1_alg».proof.Proof.KbD0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- The buffers behind the windows, one by one. -/
theorem arrBufs0_eq (c : Dev nD) (W : (b : Ref sig .tc) → Buf (Elt F) ((c : Thread nD τ).loc b)) :
    (Pipeline.arrBufs (Ix := Unit) (Name := ℕ) (U := Pipeline.UD sig nD τ) (Lvl := ℕ) spec0 c W : sProp 𝕄)
      = iprop((((c : Thread nD τ).loc main_v0) ↦{fullShare} W main_v0) ∗ (((c : Thread nD τ).loc main_v12) ↦{fullShare} W main_v12)
          ∗ (((c : Thread nD τ).loc main_v25) ↦{fullShare} W main_v25)) := by
  unfold Pipeline.arrBufs
  exact bigSep_eq_bigSepL_of_eq [main_v0, main_v12, main_v25] (by decide) (by decide) _

/-- The windows' arrays as the pipeline holds them, one by one: the weights in two halves. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_v0) ↦{fullShare} Fa 0) ∗ (((c : Thread nD τ).loc main_v12) ↦{fullShare.left} Fa 1)
          ∗ (((c : Thread nD τ).loc main_v12) ↦{fullShare.right} Fa 2) ∗ (((c : Thread nD τ).loc main_v25) ↦{fullShare} Fa 3)) := by
  unfold Dat.arrays
  rw [bigSep_W0]
  refine congrArg₂ _ ?_ (congrArg₂ _ ?_ (congrArg₂ _ ?_ ?_))
  · rw [(arr_whole0 0).set_eq_univ]; rfl
  · rw [(arr_whole0 1).set_eq_univ]; rfl
  · rw [(arr_whole0 2).set_eq_univ]; rfl
  · rw [(arr_whole0 3).set_eq_univ]; rfl

/-- Entering: the three buffers at the entry contents make the four windows' arrays at theirs. -/
theorem split0 (c : Dev nD) :
    (Pipeline.arrBufs (Ix := Unit) (Name := ℕ) (U := Pipeline.UD sig nD τ) (Lvl := ℕ) spec0 c (V c) : sProp 𝕄)
      ⊢ (dat0 V c).arrays ((dat0 V c).arrAt · 0) := by
  rw [arrBufs0_eq, arrays0_eq]
  iintro ⟨H0, H12, H3⟩
  ihave H := (pointsTo_share (PosShare.mem_left_op_right fullShare)).1 $$ H12
  icases H with ⟨H1, H2⟩
  isplitl [H0]; · iexact H0
  isplitl [H1]; · iexact H1
  isplitl [H2]; · iexact H2
  iexact H3

/-- Leaving: the inputs' arrays are as they were entered, -/
theorem arrAt0_in (c : Dev nD) (n : Nat) :
    (dat0 V c).arrAt 0 n = V c main_v0 ∧ (dat0 V c).arrAt 1 n = V c main_v12 ∧ (dat0 V c).arrAt 2 n = V c main_v12 :=
  ⟨((dat0 V c).arrAt_in 0 rfl n).trans (A_eq0 V c 0), ((dat0 V c).arrAt_in 1 rfl n).trans (A_eq0 V c 1),
    ((dat0 V c).arrAt_in 2 rfl n).trans (A_eq0 V c 2)⟩

/-- so the four windows' arrays at their final contents make the three buffers at any contents that have the hidden
    matrix at what the write-backs left and the other two as entered. -/
theorem join0 (c : Dev nD) (W' : (b : Ref sig .tc) → Buf (Elt F) ((c : Thread nD τ).loc b))
    (h0 : W' main_v0 = V c main_v0) (h12 : W' main_v12 = V c main_v12) (h25 : W' main_v25 = (dat0 V c).arrAt 3 cfg0.N) :
    ((dat0 V c).arrays ((dat0 V c).arrAt · cfg0.N) : sProp 𝕄)
      ⊢ Pipeline.arrBufs (Ix := Unit) (Name := ℕ) (U := Pipeline.UD sig nD τ) (Lvl := ℕ) spec0 c W' := by
  rw [arrBufs0_eq, arrays0_eq, h0, h12, h25, (arrAt0_in V c cfg0.N).1, (arrAt0_in V c cfg0.N).2.1, (arrAt0_in V c cfg0.N).2.2]
  iintro ⟨H0, H1, H2, H3⟩
  isplitl [H0]; · iexact H0
  isplitl [H1 H2]
  · iapply (pointsTo_share (PosShare.mem_left_op_right fullShare)).2
    isplitl [H1]; · iexact H1
    iexact H2
  iexact H3

end Cert.Kernel.Hand

end
-- ==== Proof.KbR1.lean ====
/-
  The second launch of the kernel (the down projection), point by point.

  At grid point t the body reads rows [64 t, 64 (t+1)) of the hidden matrix and the whole quantised down-weight
  matrix (fetched once, kept in its one buffer), and stores rows [64 t, 64 (t+1)) of the result, whole. What the output
  window's buffer holds after the body is the store's value over the two input blocks.
-/
import proofs.«143887_j14474039787742_1_alg».proof.Proof.Gen.Kernel.Launch
import proofs.«143887_j14474039787742_1_alg».proof.Proof.Gen.Kernel.Skeleton
import proofs.«143887_j14474039787742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or kept: the hidden rows, -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and the down weights, fetched at the first point only. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev rh1 : Rect S64x8192 := Rect.unit (s := S64x8192) ![0, 0] S64x8192.size Facts₀.inb_S64x8192_S64x8192_0_0
abbrev rw1 : Rect S2048x8192 := Rect.unit (s := S2048x8192) ![0, 0] S2048x8192.size Facts₀.inb_S2048x8192_S2048x8192_0_0
abbrev ro1 : Rect S64x2048 := Rect.unit (s := S64x2048) ![0, 0] S64x2048.size Facts₀.inb_S64x2048_S64x2048_0_0

/-- What the output window's buffer holds after the body: its one store, over the two input blocks. -/
def out1_2 (h0 : Vec F S64x8192 .bf16) (w : Vec F S2048x8192 .bf16) : Vec F S64x2048 .f32 :=
  View.canon [⟨ro1, k1_pay1 (View.ld h0 rh1) (View.ld w rw1)⟩]

/-- The store covers the buffer. -/
theorem cover1_2 (p0 : Vec F S64x2048 .f32) (y : S64x2048.Idx) :
    ∃ pc ∈ ([⟨ro1, p0⟩] : List (View.Piece (Elt F) S64x2048 .f32)), y ∈ pc.1.set :=
  View.cover_of_tiled [⟨ro1, p0⟩] S64x2048.size (by rfl) y

set_option maxHeartbeats 1000000 in
/-- The body on whole staging buffers: the inputs' at their contents and the output's at anything, it runs to the
    continuation with the inputs' as they were and the output's at the store's value. -/
theorem sound_kernel1 (c : Dev nD) (E : Set ℕ) (i : grid1.Coords)
    (arg1 : Memref sig .tc .vmem S64x8192 .bf16) (harg1 : arg1.IsWhole) (arg2 : Memref sig .tc .vmem S2048x8192 .bf16) (harg2 : arg2.IsWhole)
    (arg3 : Memref sig .tc .vmem S64x2048 .f32) (harg3 : arg3.IsWhole)
    (h0 : Vec F S64x8192 .bf16) (w : Vec F S2048x8192 .bf16) (K : PUnit → sProp 𝕄) :
    iprop(owns (c : Thread nD τ) arg1 fullShare h0 ∗ owns (c : Thread nD τ) arg2 fullShare w
        ∗ (∃ d, owns (c : Thread nD τ) arg3 fullShare d)
        ∗ (iprop(owns (c : Thread nD τ) arg1 fullShare h0 ∗ owns (c : Thread nD τ) arg2 fullShare w
            ∗ owns (c : Thread nD τ) arg3 fullShare (out1_2 h0 w)) -∗ K ⟨⟩))
      ⊢ wp frame (wpE (defs₀ (F := F)) Variants.none c none) E (cc1__stage2_kernel i arg1 harg1 arg2 harg2 arg3 harg3) K := by
  simp only [cc1__stage2_kernel_eq_skeleton]; unfold cc1__stage2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Hand

end
-- ==== Proof.KbD1.lean ====
/-
  The second launch's bookkeeping: what each window's buffer holds after the body at each point, and that the body,
  called at any point with the windows' buffers as the pipeline hands them, leaves them so. Its three windows stand on
  three buffers, each held whole.
-/
import proofs.«143887_j14474039787742_1_alg».proof.Proof.KbR1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- After the body at point t each input's buffer is at its block and the output's at the store's value of the two. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbRun.lean ====
/-
  The whole run of @main: the host's quantisation of the two weight matrices, the two launches, the final reshape.

  Between two items the core holds every unscoped buffer at a known valuation: the launch memory, then each host
  stretch applied, then after each launch the valuation updated at the launch's output array with what the write-backs
  left there. Each launch is entered from that state — its windows' arrays split out of the buffers — and left at the
  next one. At the end every unscoped buffer is read off the last valuation: the arguments are untouched, and the
  result buffer holds the reshape of what the second launch left.
-/
import proofs.«143887_j14474039787742_1_alg».proof.Proof.KbS0
import proofs.«143887_j14474039787742_1_alg».proof.Proof.KbD1
import proofs.«143887_j14474039787742_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

variable (m : (ℓ : Loc nD τ sig) → Buf (Elt F) ℓ) (ρ : Dev nD → PrngReg)

/-- The buffers as the first launch finds them: the launch memory after the host's stretches. -/
abbrev VE0 : (c : Dev nD) → (b : Ref sig .tc) → Buf (Elt F) ((c : Thread nD τ).loc b) := fun c b => V13 m c b

/-- After the first launch: the hidden matrix at what the write-backs left, every other buffer as before. -/
def W14 (c : Dev nD) : Valuation τ sig (Elt F) :=
  Function.update (V13 m c) main_v25 ((dat0 (VE0 m) c).arrAt 3 cfg0.N : Buf (Elt F) ((c : Thread nD τ).loc main_v25))

/-- The buffers as the second launch finds them. -/
abbrev VE1 : (c : Dev nD) → (b : Ref sig .tc) → Buf (Elt F) ((c : Thread nD τ).loc b) := fun c b => W14 m c b

/-- After the second launch: the projected matrix at what the write-backs left. -/
def W15 (c : Dev nD) : Valuation τ sig (Elt F) :=
  Function.update (W14 m c) main_v26 ((dat1 (VE1 m) c).arrAt 2 cfg1.N : Buf (Elt F) ((c : Thread nD τ).loc main_v26))

/-- What the launches leave, as the contents the run is stated over. -/
def outs : Outs (F := F) := fun J r c =>
  match J with
  | 14 => W14 m c r
  | 15 => W15 m c r
  | _ => m ((c : Thread nD τ).loc r)

theorem V14_eq (c : Dev nD) : V14 m (outs m) c = W14 m c := by
  show Function.update (V13 m c) main_v25 (W14 m c main_v25) = W14 m c
  unfold W14
  rw [Function.update_self]

theorem V15_eq (c : Dev nD) : V15 m (outs m) c = W15 m c := by
  show Function.update (V14 m (outs m) c) main_v26 (W15 m c main_v26) = W15 m c
  rw [V14_eq]
  unfold W15
  rw [Function.update_self]

theorem W14_v25 (c : Dev nD) : W14 m c main_v25 = (dat0 (VE0 m) c).arrAt 3 cfg0.N := by
  unfold W14; exact Function.update_self ..

theorem W14_of_ne (c : Dev nD) (b : Ref sig .tc) (hb : b ≠ main_v25) : W14 m c b = V13 m c b := by
  unfold W14
  exact Function.update_of_ne (StableHlo.devRef_ne_of_ne hb : (Proc.devRef .tc b : DevRef τ sig) ≠ Proc.devRef .tc main_v25) ..

theorem W15_v26 (c : Dev nD) : W15 m c main_v26 = (dat1 (VE1 m) c).arrAt 2 cfg1.N := by
  unfold W15; exact Function.update_self ..

theorem W15_of_ne (c : Dev nD) (b : Ref sig .tc) (hb : b ≠ main_v26) : W15 m c b = W14 m c b := by
  unfold W15
  exact Function.update_of_ne (StableHlo.devRef_ne_of_ne hb : (Proc.devRef .tc b : DevRef τ sig) ≠ Proc.devRef .tc main_v26) ..

/-- Every pipeline's bookkeeping, each at its launch's entry contents. -/
def pdats : (p : Fin 2) → (c : Dev nD) → Dat τ (Elt F) Unit ℕ (Pipeline.UD sig nD τ) ℕ (cfgs p) c
  | ⟨0, _⟩ => fun c => dat0 (VE0 m) c
  | ⟨1, _⟩ => fun c => dat1 (VE1 m) c

abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- Entering the first launch: the unscoped buffers are its windows' arrays (the weights' in two halves) and the rest. -/
theorem entry0 (c : Dev nD) :
    (StableHlo.held (c : Thread nD τ) (Pipeline.ucRefs τ sig) (V13 m c) : sProp 𝕄)
      ⊢ iprop((dat0 (VE0 m) c).arrays ((dat0 (VE0 m) c).arrAt · 0)
          ∗ Pipeline.unscopedRest (Ix := Unit) (Name := ℕ) (U := Pipeline.UD sig nD τ) (Lvl := ℕ) spec0 c (VE0 m c)) := by
  rw [← Pipeline.unscopedBufs_held c (V13 m c), Pipeline.unscopedBufs_split₀ cfgs 0 winFacts₀0.arr_unscoped c (VE0 m c)]
  exact sep_mono (split0 (VE0 m) c) .rfl

/-- Leaving it: the arrays at their final contents and the rest make the unscoped buffers at the next valuation. -/
theorem exit0 (c : Dev nD) :
    iprop((dat0 (VE0 m) c).arrays ((dat0 (VE0 m) c).arrAt · cfg0.N)
        ∗ Pipeline.unscopedRest (Ix := Unit) (Name := ℕ) (U := Pipeline.UD sig nD τ) (Lvl := ℕ) spec0 c (VE0 m c))
      ⊢ (StableHlo.held (c : Thread nD τ) (Pipeline.ucRefs τ sig) (W14 m c) : sProp 𝕄) := by
  rw [← Pipeline.unscopedBufs_held c (W14 m c), Pipeline.unscopedBufs_split₀ cfgs 0 winFacts₀0.arr_unscoped c (VE1 m c)]
  refine sep_mono (join0 (VE0 m) c (VE1 m c) (W14_of_ne m c main_v0 (by decide)) (W14_of_ne m c main_v12 (by decide)) (W14_v25 m c)) (Entails.of_eq ?_)
  unfold Pipeline.unscopedRest
  refine bigSep_congr fun b hb => ?_
  have hne : b ≠ main_v25 := fun h => (Finset.mem_sdiff.mp hb).2 (h ▸ Finset.mem_image.mpr ⟨3, Finset.mem_univ _, rfl⟩)
  rw [show VE1 m c b = VE0 m c b from W14_of_ne m c b hne]

set_option backward.isDefEq.respectTransparency.types false in
/-- The first launch as an item of @main. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V14_eq]
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

/-- At the second launch's exit each of its arrays holds what the pipeline leaves, -/
theorem hF1 (c : Dev nD) (w : Fin cfg1.W) : (dat1 (VE1 m) c).arrAt w cfg1.N = (fun b : Ref sig .tc => W15 m c b) (Pipeline.arrRef spec1 w) := by
  match w with
  | ⟨0, _⟩ => exact (((dat1 (VE1 m) c).arrAt_in 0 rfl _).trans (A_eq1 (VE1 m) c 0)).trans (W15_of_ne m c main_v25 (by decide)).symm
  | ⟨1, _⟩ => exact (((dat1 (VE1 m) c).arrAt_in 1 rfl _).trans (A_eq1 (VE1 m) c 1)).trans (W15_of_ne m c main_v24 (by decide)).symm
  | ⟨2, _⟩ => exact (W15_v26 m c).symm

/-- and every other buffer what it held at entry. -/
theorem hrest1 (c : Dev nD) : ∀ b, b ∉ Finset.univ.image (Pipeline.arrRef spec1) → (fun b : Ref sig .tc => W15 m c b) b = VE1 m c b :=
  fun b hb => W15_of_ne m c b fun h => hb (h ▸ Finset.mem_image.mpr ⟨2, Finset.mem_univ _, rfl⟩)

set_option backward.isDefEq.respectTransparency.types false in
/-- The second launch as an item of @main. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m c)
  hentry c := by
    rw [Pipeline.ownSems0_none, V14_eq]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V15_eq]
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VE1 m c) (fun b : Ref sig .tc => W15 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution of @main terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) := by
  refine Pipeline.θ_run_regions_kit_dev (pcfgs (F := F)) adm (pdats m) () cellOf_inj embL defs₀ Variants.none L lv m ρ main
    (segs m (outs m) Variants.none L lv (fun _ => R) () (pdats m) (reg0 m) (reg1 m))
    (fun c Q => by
      rewrite [main_chain c, Pipeline.Seg.run_eq_chain,
        show (segs m (outs m) Variants.none L lv (fun _ => R) () (pdats m) (reg0 m) (reg1 m) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = V16 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V16 m (outs m) c) s')
    isplitl [Hh] <;> iassumption

/-- An unscoped TensorCore reference is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result buffer and the three arguments. -/
theorem run_main : θ_run defs (onTc (τ := τ) (main (F := F))) ⟨m, fun _ => 0, ρ⟩ (fun r => ∀ c : Dev nD,
      r.2.mem ((c.tc : Thread nD τ).loc main_v27) = V16 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v27 (by decide)),
     (h c _ (mem_uc main_arg0 (by decide))).trans (V16_main_arg0 m (outs m) c),
     (h c _ (mem_uc main_arg1 (by decide))).trans (V16_main_arg1 m (outs m) c),
     (h c _ (mem_uc main_arg2 (by decide))).trans (V16_main_arg2 m (outs m) c)⟩) (run_all m ρ)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KiR0.lean ====
/-
  The first launch of the kernel (the gate / value products and their gated product), point by point.

  At grid point t = (m, n) the body reads three blocks — rows [1024 m, 1024 (m+1)) of the token matrix, rows
  [256 n, 256 (n+1)) and [256 (n + 32), 256 (n + 33)) of the quantised gate weights (two windows onto ONE array) —
  and stores one block, rows [1024 m, …) × lanes [256 n, …) of the hidden matrix, whole. So what the output window's
  buffer holds after the body is the store's value over the three input blocks, and each input window's buffer holds
  its block whether it was fetched at this point or kept from an earlier one.
-/
import proofs.«143887_j14474039787742_1_alg».proof.Proof.Gen.KernelIdeal.Launch
import proofs.«143887_j14474039787742_1_alg».proof.Proof.Gen.KernelIdeal.Skeleton
import proofs.«143887_j14474039787742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or kept: the token rows. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the gate rows of the weights, -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and for the value rows. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev rx0 : Rect S1024x2048 := Rect.unit (s := S1024x2048) ![0, 0] S1024x2048.size Facts₀.inb_S1024x2048_S1024x2048_0_0
abbrev rw0 : Rect S256x2048 := Rect.unit (s := S256x2048) ![0, 0] S256x2048.size Facts₀.inb_S256x2048_S256x2048_0_0
abbrev ro0 : Rect S1024x256 := Rect.unit (s := S1024x256) ![0, 0] S1024x256.size Facts₀.inb_S1024x256_S1024x256_0_0

/-- What the output window's buffer holds after the body: its one store, over the three input blocks. -/
def out0_3 (x0 : Vec F S1024x2048 .f32) (w1 w2 : Vec F S256x2048 .bf16) : Vec F S1024x256 .bf16 :=
  View.canon [⟨ro0, k0_pay1 (View.ld x0 rx0) (View.ld w1 rw0) (View.ld w2 rw0)⟩]

/-- The store covers the buffer. -/
theorem cover0_3 (p0 : Vec F S1024x256 .bf16) (y : S1024x256.Idx) :
    ∃ pc ∈ ([⟨ro0, p0⟩] : List (View.Piece (Elt F) S1024x256 .bf16)), y ∈ pc.1.set :=
  View.cover_of_tiled [⟨ro0, p0⟩] S1024x256.size (by rfl) y

set_option maxHeartbeats 1000000 in
/-- The body on whole staging buffers: the inputs' at their contents and the output's at anything, it runs to the
    continuation with the inputs' as they were and the output's at the store's value. -/
theorem sound_kernel0 (c : Dev nD) (E : Set ℕ) (i : grid0.Coords)
    (arg2 : Memref sig .tc .vmem S1024x2048 .f32) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S1024x256 .bf16) (harg5 : arg5.IsWhole)
    (x0 : Vec F S1024x2048 .f32) (w1 w2 : Vec F S256x2048 .bf16) (K : PUnit → sProp 𝕄) :
    iprop(owns (c : Thread nD τ) arg2 fullShare x0 ∗ owns (c : Thread nD τ) arg3 fullShare w1 ∗ owns (c : Thread nD τ) arg4 fullShare w2
        ∗ (∃ d, owns (c : Thread nD τ) arg5 fullShare d)
        ∗ (iprop(owns (c : Thread nD τ) arg2 fullShare x0 ∗ owns (c : Thread nD τ) arg3 fullShare w1 ∗ owns (c : Thread nD τ) arg4 fullShare w2
            ∗ owns (c : Thread nD τ) arg5 fullShare (out0_3 x0 w1 w2)) -∗ K ⟨⟩))
      ⊢ wp frame (wpE (defs₀ (F := F)) Variants.none c none) E (cc0__stage1_kernel i arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.KiD0.lean ====
/-
  The first launch's bookkeeping: what each window's buffer holds after the body at each point, and that the body,
  called at any point with the windows' buffers as the pipeline hands them, leaves them so.

  The two weight windows read ONE array, so the array is held in two halves, one per window; the token matrix and the
  hidden matrix are held whole.
-/
import proofs.«143887_j14474039787742_1_alg».proof.Proof.KiR0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- After the body at point t each input's buffer is at its block and the output's at the store's value of the three
    blocks; the two weight windows hold a half of their common array each. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiS0.lean ====
/-
  The first launch's arrays, split out of the core's buffers and put back.

  Its four windows stand on three buffers: the token matrix, the quantised gate weights (read by two windows) and the
  hidden matrix. Entering, the weights' buffer, held whole, is split into the two halves the two windows hold; leaving,
  the halves — both still at the contents they were split at, since no window writes them — are joined again, and the
  hidden matrix is held at what the write-backs made of it.
-/
import proofs.«143887_j14474039787742_1_alg».proof.Proof.KiD0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- The buffers behind the windows, one by one. -/
theorem arrBufs0_eq (c : Dev nD) (W : (b : Ref sig .tc) → Buf (Elt F) ((c : Thread nD τ).loc b)) :
    (Pipeline.arrBufs (Ix := Unit) (Name := ℕ) (U := Pipeline.UD sig nD τ) (Lvl := ℕ) spec0 c W : sProp 𝕄)
      = iprop((((c : Thread nD τ).loc main_v0) ↦{fullShare} W main_v0) ∗ (((c : Thread nD τ).loc main_v12) ↦{fullShare} W main_v12)
          ∗ (((c : Thread nD τ).loc main_v25) ↦{fullShare} W main_v25)) := by
  unfold Pipeline.arrBufs
  exact bigSep_eq_bigSepL_of_eq [main_v0, main_v12, main_v25] (by decide) (by decide) _

/-- The windows' arrays as the pipeline holds them, one by one: the weights in two halves. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_v0) ↦{fullShare} Fa 0) ∗ (((c : Thread nD τ).loc main_v12) ↦{fullShare.left} Fa 1)
          ∗ (((c : Thread nD τ).loc main_v12) ↦{fullShare.right} Fa 2) ∗ (((c : Thread nD τ).loc main_v25) ↦{fullShare} Fa 3)) := by
  unfold Dat.arrays
  rw [bigSep_W0]
  refine congrArg₂ _ ?_ (congrArg₂ _ ?_ (congrArg₂ _ ?_ ?_))
  · rw [(arr_whole0 0).set_eq_univ]; rfl
  · rw [(arr_whole0 1).set_eq_univ]; rfl
  · rw [(arr_whole0 2).set_eq_univ]; rfl
  · rw [(arr_whole0 3).set_eq_univ]; rfl

/-- Entering: the three buffers at the entry contents make the four windows' arrays at theirs. -/
theorem split0 (c : Dev nD) :
    (Pipeline.arrBufs (Ix := Unit) (Name := ℕ) (U := Pipeline.UD sig nD τ) (Lvl := ℕ) spec0 c (V c) : sProp 𝕄)
      ⊢ (dat0 V c).arrays ((dat0 V c).arrAt · 0) := by
  rw [arrBufs0_eq, arrays0_eq]
  iintro ⟨H0, H12, H3⟩
  ihave H := (pointsTo_share (PosShare.mem_left_op_right fullShare)).1 $$ H12
  icases H with ⟨H1, H2⟩
  isplitl [H0]; · iexact H0
  isplitl [H1]; · iexact H1
  isplitl [H2]; · iexact H2
  iexact H3

/-- Leaving: the inputs' arrays are as they were entered, -/
theorem arrAt0_in (c : Dev nD) (n : Nat) :
    (dat0 V c).arrAt 0 n = V c main_v0 ∧ (dat0 V c).arrAt 1 n = V c main_v12 ∧ (dat0 V c).arrAt 2 n = V c main_v12 :=
  ⟨((dat0 V c).arrAt_in 0 rfl n).trans (A_eq0 V c 0), ((dat0 V c).arrAt_in 1 rfl n).trans (A_eq0 V c 1),
    ((dat0 V c).arrAt_in 2 rfl n).trans (A_eq0 V c 2)⟩

/-- so the four windows' arrays at their final contents make the three buffers at any contents that have the hidden
    matrix at what the write-backs left and the other two as entered. -/
theorem join0 (c : Dev nD) (W' : (b : Ref sig .tc) → Buf (Elt F) ((c : Thread nD τ).loc b))
    (h0 : W' main_v0 = V c main_v0) (h12 : W' main_v12 = V c main_v12) (h25 : W' main_v25 = (dat0 V c).arrAt 3 cfg0.N) :
    ((dat0 V c).arrays ((dat0 V c).arrAt · cfg0.N) : sProp 𝕄)
      ⊢ Pipeline.arrBufs (Ix := Unit) (Name := ℕ) (U := Pipeline.UD sig nD τ) (Lvl := ℕ) spec0 c W' := by
  rw [arrBufs0_eq, arrays0_eq, h0, h12, h25, (arrAt0_in V c cfg0.N).1, (arrAt0_in V c cfg0.N).2.1, (arrAt0_in V c cfg0.N).2.2]
  iintro ⟨H0, H1, H2, H3⟩
  isplitl [H0]; · iexact H0
  isplitl [H1 H2]
  · iapply (pointsTo_share (PosShare.mem_left_op_right fullShare)).2
    isplitl [H1]; · iexact H1
    iexact H2
  iexact H3

end Cert.KernelIdeal.Hand

end
-- ==== Proof.KiR1.lean ====
/-
  The second launch of the kernel (the down projection), point by point.

  At grid point t the body reads rows [64 t, 64 (t+1)) of the hidden matrix and the whole quantised down-weight
  matrix (fetched once, kept in its one buffer), and stores rows [64 t, 64 (t+1)) of the result, whole. What the output
  window's buffer holds after the body is the store's value over the two input blocks.
-/
import proofs.«143887_j14474039787742_1_alg».proof.Proof.Gen.KernelIdeal.Launch
import proofs.«143887_j14474039787742_1_alg».proof.Proof.Gen.KernelIdeal.Skeleton
import proofs.«143887_j14474039787742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or kept: the hidden rows, -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and the down weights, fetched at the first point only. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev rh1 : Rect S64x8192 := Rect.unit (s := S64x8192) ![0, 0] S64x8192.size Facts₀.inb_S64x8192_S64x8192_0_0
abbrev rw1 : Rect S2048x8192 := Rect.unit (s := S2048x8192) ![0, 0] S2048x8192.size Facts₀.inb_S2048x8192_S2048x8192_0_0
abbrev ro1 : Rect S64x2048 := Rect.unit (s := S64x2048) ![0, 0] S64x2048.size Facts₀.inb_S64x2048_S64x2048_0_0

/-- What the output window's buffer holds after the body: its one store, over the two input blocks. -/
def out1_2 (h0 : Vec F S64x8192 .bf16) (w : Vec F S2048x8192 .bf16) : Vec F S64x2048 .f32 :=
  View.canon [⟨ro1, k1_pay1 (View.ld h0 rh1) (View.ld w rw1)⟩]

/-- The store covers the buffer. -/
theorem cover1_2 (p0 : Vec F S64x2048 .f32) (y : S64x2048.Idx) :
    ∃ pc ∈ ([⟨ro1, p0⟩] : List (View.Piece (Elt F) S64x2048 .f32)), y ∈ pc.1.set :=
  View.cover_of_tiled [⟨ro1, p0⟩] S64x2048.size (by rfl) y

set_option maxHeartbeats 1000000 in
/-- The body on whole staging buffers: the inputs' at their contents and the output's at anything, it runs to the
    continuation with the inputs' as they were and the output's at the store's value. -/
theorem sound_kernel1 (c : Dev nD) (E : Set ℕ) (i : grid1.Coords)
    (arg1 : Memref sig .tc .vmem S64x8192 .bf16) (harg1 : arg1.IsWhole) (arg2 : Memref sig .tc .vmem S2048x8192 .bf16) (harg2 : arg2.IsWhole)
    (arg3 : Memref sig .tc .vmem S64x2048 .f32) (harg3 : arg3.IsWhole)
    (h0 : Vec F S64x8192 .bf16) (w : Vec F S2048x8192 .bf16) (K : PUnit → sProp 𝕄) :
    iprop(owns (c : Thread nD τ) arg1 fullShare h0 ∗ owns (c : Thread nD τ) arg2 fullShare w
        ∗ (∃ d, owns (c : Thread nD τ) arg3 fullShare d)
        ∗ (iprop(owns (c : Thread nD τ) arg1 fullShare h0 ∗ owns (c : Thread nD τ) arg2 fullShare w
            ∗ owns (c : Thread nD τ) arg3 fullShare (out1_2 h0 w)) -∗ K ⟨⟩))
      ⊢ wp frame (wpE (defs₀ (F := F)) Variants.none c none) E (cc1__stage2_kernel i arg1 harg1 arg2 harg2 arg3 harg3) K := by
  simp only [cc1__stage2_kernel_eq_skeleton]; unfold cc1__stage2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Hand

end
-- ==== Proof.KiD1.lean ====
/-
  The second launch's bookkeeping: what each window's buffer holds after the body at each point, and that the body,
  called at any point with the windows' buffers as the pipeline hands them, leaves them so. Its three windows stand on
  three buffers, each held whole.
-/
import proofs.«143887_j14474039787742_1_alg».proof.Proof.KiR1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

/-- After the body at point t each input's buffer is at its block and the output's at the store's value of the two. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole run of @main: the host's quantisation of the two weight matrices, the two launches, the final reshape.

  Between two items the core holds every unscoped buffer at a known valuation: the launch memory, then each host
  stretch applied, then after each launch the valuation updated at the launch's output array with what the write-backs
  left there. Each launch is entered from that state — its windows' arrays split out of the buffers — and left at the
  next one. At the end every unscoped buffer is read off the last valuation: the arguments are untouched, and the
  result buffer holds the reshape of what the second launch left.
-/
import proofs.«143887_j14474039787742_1_alg».proof.Proof.KiS0
import proofs.«143887_j14474039787742_1_alg».proof.Proof.KiD1
import proofs.«143887_j14474039787742_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the launch is entered
variable (V : (c : Dev nD) → (b : Ref sig .tc) → Buf (Elt F) ((c : Thread nD τ).loc b))

variable (m : (ℓ : Loc nD τ sig) → Buf (Elt F) ℓ) (ρ : Dev nD → PrngReg)

/-- The buffers as the first launch finds them: the launch memory after the host's stretches. -/
abbrev VE0 : (c : Dev nD) → (b : Ref sig .tc) → Buf (Elt F) ((c : Thread nD τ).loc b) := fun c b => V13 m c b

/-- After the first launch: the hidden matrix at what the write-backs left, every other buffer as before. -/
def W14 (c : Dev nD) : Valuation τ sig (Elt F) :=
  Function.update (V13 m c) main_v25 ((dat0 (VE0 m) c).arrAt 3 cfg0.N : Buf (Elt F) ((c : Thread nD τ).loc main_v25))

/-- The buffers as the second launch finds them. -/
abbrev VE1 : (c : Dev nD) → (b : Ref sig .tc) → Buf (Elt F) ((c : Thread nD τ).loc b) := fun c b => W14 m c b

/-- After the second launch: the projected matrix at what the write-backs left. -/
def W15 (c : Dev nD) : Valuation τ sig (Elt F) :=
  Function.update (W14 m c) main_v26 ((dat1 (VE1 m) c).arrAt 2 cfg1.N : Buf (Elt F) ((c : Thread nD τ).loc main_v26))

/-- What the launches leave, as the contents the run is stated over. -/
def outs : Outs (F := F) := fun J r c =>
  match J with
  | 14 => W14 m c r
  | 15 => W15 m c r
  | _ => m ((c : Thread nD τ).loc r)

theorem V14_eq (c : Dev nD) : V14 m (outs m) c = W14 m c := by
  show Function.update (V13 m c) main_v25 (W14 m c main_v25) = W14 m c
  unfold W14
  rw [Function.update_self]

theorem V15_eq (c : Dev nD) : V15 m (outs m) c = W15 m c := by
  show Function.update (V14 m (outs m) c) main_v26 (W15 m c main_v26) = W15 m c
  rw [V14_eq]
  unfold W15
  rw [Function.update_self]

theorem W14_v25 (c : Dev nD) : W14 m c main_v25 = (dat0 (VE0 m) c).arrAt 3 cfg0.N := by
  unfold W14; exact Function.update_self ..

theorem W14_of_ne (c : Dev nD) (b : Ref sig .tc) (hb : b ≠ main_v25) : W14 m c b = V13 m c b := by
  unfold W14
  exact Function.update_of_ne (StableHlo.devRef_ne_of_ne hb : (Proc.devRef .tc b : DevRef τ sig) ≠ Proc.devRef .tc main_v25) ..

theorem W15_v26 (c : Dev nD) : W15 m c main_v26 = (dat1 (VE1 m) c).arrAt 2 cfg1.N := by
  unfold W15; exact Function.update_self ..

theorem W15_of_ne (c : Dev nD) (b : Ref sig .tc) (hb : b ≠ main_v26) : W15 m c b = W14 m c b := by
  unfold W15
  exact Function.update_of_ne (StableHlo.devRef_ne_of_ne hb : (Proc.devRef .tc b : DevRef τ sig) ≠ Proc.devRef .tc main_v26) ..

/-- Every pipeline's bookkeeping, each at its launch's entry contents. -/
def pdats : (p : Fin 2) → (c : Dev nD) → Dat τ (Elt F) Unit ℕ (Pipeline.UD sig nD τ) ℕ (cfgs p) c
  | ⟨0, _⟩ => fun c => dat0 (VE0 m) c
  | ⟨1, _⟩ => fun c => dat1 (VE1 m) c

abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- Entering the first launch: the unscoped buffers are its windows' arrays (the weights' in two halves) and the rest. -/
theorem entry0 (c : Dev nD) :
    (StableHlo.held (c : Thread nD τ) (Pipeline.ucRefs τ sig) (V13 m c) : sProp 𝕄)
      ⊢ iprop((dat0 (VE0 m) c).arrays ((dat0 (VE0 m) c).arrAt · 0)
          ∗ Pipeline.unscopedRest (Ix := Unit) (Name := ℕ) (U := Pipeline.UD sig nD τ) (Lvl := ℕ) spec0 c (VE0 m c)) := by
  rw [← Pipeline.unscopedBufs_held c (V13 m c), Pipeline.unscopedBufs_split₀ cfgs 0 winFacts₀0.arr_unscoped c (VE0 m c)]
  exact sep_mono (split0 (VE0 m) c) .rfl

/-- Leaving it: the arrays at their final contents and the rest make the unscoped buffers at the next valuation. -/
theorem exit0 (c : Dev nD) :
    iprop((dat0 (VE0 m) c).arrays ((dat0 (VE0 m) c).arrAt · cfg0.N)
        ∗ Pipeline.unscopedRest (Ix := Unit) (Name := ℕ) (U := Pipeline.UD sig nD τ) (Lvl := ℕ) spec0 c (VE0 m c))
      ⊢ (StableHlo.held (c : Thread nD τ) (Pipeline.ucRefs τ sig) (W14 m c) : sProp 𝕄) := by
  rw [← Pipeline.unscopedBufs_held c (W14 m c), Pipeline.unscopedBufs_split₀ cfgs 0 winFacts₀0.arr_unscoped c (VE1 m c)]
  refine sep_mono (join0 (VE0 m) c (VE1 m c) (W14_of_ne m c main_v0 (by decide)) (W14_of_ne m c main_v12 (by decide)) (W14_v25 m c)) (Entails.of_eq ?_)
  unfold Pipeline.unscopedRest
  refine bigSep_congr fun b hb => ?_
  have hne : b ≠ main_v25 := fun h => (Finset.mem_sdiff.mp hb).2 (h ▸ Finset.mem_image.mpr ⟨3, Finset.mem_univ _, rfl⟩)
  rw [show VE1 m c b = VE0 m c b from W14_of_ne m c b hne]

set_option backward.isDefEq.respectTransparency.types false in
/-- The first launch as an item of @main. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V14_eq]
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

/-- At the second launch's exit each of its arrays holds what the pipeline leaves, -/
theorem hF1 (c : Dev nD) (w : Fin cfg1.W) : (dat1 (VE1 m) c).arrAt w cfg1.N = (fun b : Ref sig .tc => W15 m c b) (Pipeline.arrRef spec1 w) := by
  match w with
  | ⟨0, _⟩ => exact (((dat1 (VE1 m) c).arrAt_in 0 rfl _).trans (A_eq1 (VE1 m) c 0)).trans (W15_of_ne m c main_v25 (by decide)).symm
  | ⟨1, _⟩ => exact (((dat1 (VE1 m) c).arrAt_in 1 rfl _).trans (A_eq1 (VE1 m) c 1)).trans (W15_of_ne m c main_v24 (by decide)).symm
  | ⟨2, _⟩ => exact (W15_v26 m c).symm

/-- and every other buffer what it held at entry. -/
theorem hrest1 (c : Dev nD) : ∀ b, b ∉ Finset.univ.image (Pipeline.arrRef spec1) → (fun b : Ref sig .tc => W15 m c b) b = VE1 m c b :=
  fun b hb => W15_of_ne m c b fun h => hb (h ▸ Finset.mem_image.mpr ⟨2, Finset.mem_univ _, rfl⟩)

set_option backward.isDefEq.respectTransparency.types false in
/-- The second launch as an item of @main. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m c)
  hentry c := by
    rw [Pipeline.ownSems0_none, V14_eq]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V15_eq]
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VE1 m c) (fun b : Ref sig .tc => W15 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution of @main terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) := by
  refine Pipeline.θ_run_regions_kit_dev (pcfgs (F := F)) adm (pdats m) () cellOf_inj embL defs₀ Variants.none L lv m ρ main
    (segs m (outs m) Variants.none L lv (fun _ => R) () (pdats m) (reg0 m) (reg1 m))
    (fun c Q => by
      rewrite [main_chain c, Pipeline.Seg.run_eq_chain,
        show (segs m (outs m) Variants.none L lv (fun _ => R) () (pdats m) (reg0 m) (reg1 m) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = V16 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V16 m (outs m) c) s')
    isplitl [Hh] <;> iassumption

/-- An unscoped TensorCore reference is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result buffer and the three arguments. -/
theorem run_main : θ_run defs (onTc (τ := τ) (main (F := F))) ⟨m, fun _ => 0, ρ⟩ (fun r => ∀ c : Dev nD,
      r.2.mem ((c.tc : Thread nD τ).loc main_v27) = V16 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v27 (by decide)),
     (h c _ (mem_uc main_arg0 (by decide))).trans (V16_main_arg0 m (outs m) c),
     (h c _ (mem_uc main_arg1 (by decide))).trans (V16_main_arg1 m (outs m) c),
     (h c _ (mem_uc main_arg2 (by decide))).trans (V16_main_arg2 m (outs m) c)⟩) (run_all m ρ)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Spec.lean ====
/-
  The function both programs compute, written once over the extended reals.

  A row `r` of length `n` is normalised by the reciprocal root of its mean square plus a small constant,
  scaled so that its largest magnitude (at least a floor) lands on 127, rounded to the nearest integer (ties to
  even), clamped to [-128, 127] and scaled back: `actq`. A weight matrix is scaled by the reciprocal of its mean
  magnitude (at least a floor), rounded, clamped to [-1, 1] and scaled back: `wq`. The result at (b, s, o) is the
  contraction of the quantised hidden row with row `o` of the quantised down weights, where the hidden row is,
  lane by lane, `g * logistic g * v` for the contractions `g` and `v` of the quantised input row with rows `j` and
  `j + 8192` of the quantised gate weights.

  Every float constant is kept as the extended real its binary word denotes.
-/
import Idealize.ShloMosaic.PureOps.Ideal
import Idealize.ShloMosaic.Lib.ValueIdx

noncomputable section

open scoped BigOperators

namespace Cert.Spec

open Idealize.ShloMosaic Idealize.ShloMosaic.ValueIdx

/-- The extended real a 32-bit float word denotes. -/
abbrev lit (b : BitVec 32) : EReal := Ideal.ofBits .f32 b

/-- Rounding to the nearest integer, ties to even; the infinities fixed. -/
abbrev rne (x : EReal) : EReal := Ideal.liftRound Ideal.roundHalfEven x

/-- The magnitude of an extended real. -/
abbrev mag (x : EReal) : EReal := max x (-x)

/-- The normalising factor of a row: the reciprocal root of (sum of squares / d + 1e-8), `d` the row's length. -/
def rms {n : ℕ} (d : EReal) (r : Fin n → EReal) : EReal :=
  Ideal.rsqrt (Ideal.div (∑ k, r k * r k) d + lit 0x322BCC77#32)

/-- The normalised row. -/
def normed {n : ℕ} (d : EReal) (r : Fin n → EReal) (k : Fin n) : EReal := r k * rms d r

/-- The largest magnitude of the normalised row (the fold of max from -∞). -/
def amax {n : ℕ} (d : EReal) (r : Fin n → EReal) : EReal :=
  (Finset.univ : Finset (Fin n)).fold max (lit 0xFF800000#32) (fun k => mag (normed d r k))

/-- The row's quantisation scale: 127 over the largest magnitude, the latter at least 1e-5. -/
def ascale {n : ℕ} (d : EReal) (r : Fin n → EReal) : EReal :=
  Ideal.div (lit 0x42FE0000#32) (max (lit 0x3727C5AC#32) (amax d r))

/-- The quantised row: round (normalised * scale), clamped to [-128, 127], over the scale. -/
def actq {n : ℕ} (d : EReal) (r : Fin n → EReal) (k : Fin n) : EReal :=
  Ideal.div (min (lit 0x42FE0000#32) (max (lit 0xC3000000#32) (rne (normed d r k * ascale d r)))) (ascale d r)

/-- A weight matrix's scale: one over its mean magnitude (the sum from zero, over the count `cnt`), at least 1e-5. -/
def wscale {S : Shape} (cnt : EReal) (w : S.Idx → EReal) : EReal :=
  Ideal.div (lit 0x3F800000#32)
    (max (lit 0x3727C5AC#32) (Ideal.div (lit 0x00000000#32 + ∑ i : S.Idx, mag (w i)) cnt))

/-- The quantised weights: round (w * scale), clamped to [-1, 1], over the scale. -/
def wq {S : Shape} (cnt : EReal) (w : S.Idx → EReal) (i : S.Idx) : EReal :=
  Ideal.div (min (lit 0x3F800000#32) (max (lit 0xBF800000#32) (rne (w i * wscale cnt w)))) (wscale cnt w)

abbrev SX : Shape := ⟨3, ![4, 2048, 2048]⟩
abbrev SG : Shape := ⟨2, ![16384, 2048]⟩
abbrev SD : Shape := ⟨2, ![2048, 8192]⟩

/-- The quantised input row (b, s). -/
def xrow (x : SX.Idx → EReal) (b : Fin 4) (s : Fin 2048) : Fin 2048 → EReal :=
  actq (lit 0x45000000#32) (fun k => x (ix3 b s k))

/-- The quantised gate weights at (row j, lane k). -/
def gw (wg : SG.Idx → EReal) (j : Fin 16384) (k : Fin 2048) : EReal := wq (lit 0x4C000000#32) wg (ix2 j k)

/-- The quantised down weights at (row o, lane j). -/
def dw (wd : SD.Idx → EReal) (o : Fin 2048) (j : Fin 8192) : EReal := wq (lit 0x4B800000#32) wd (ix2 o j)

/-- The hidden row (b, s) before its own quantisation: g * logistic g * v, lane by lane. -/
def hidden (x : SX.Idx → EReal) (wg : SG.Idx → EReal) (b : Fin 4) (s : Fin 2048) (j : Fin 8192) : EReal :=
  ((∑ k : Fin 2048, xrow x b s k * gw wg ⟨j.val, by have := j.isLt; omega⟩ k)
      * Ideal.logistic (∑ k : Fin 2048, xrow x b s k * gw wg ⟨j.val, by have := j.isLt; omega⟩ k))
    * (∑ k : Fin 2048, xrow x b s k * gw wg ⟨j.val + 8192, by have := j.isLt; omega⟩ k)

/-- The result at (b, s, o). -/
def G (x : SX.Idx → EReal) (wg : SG.Idx → EReal) (wd : SD.Idx → EReal) (b : Fin 4) (s : Fin 2048) (o : Fin 2048) : EReal :=
  ∑ j : Fin 8192, actq (lit 0x46000000#32) (hidden x wg b s) j * dw wd o j

end Cert.Spec

end
-- ==== Proof.LibTransposedDot.lean ====
/-
  The product of a matrix with the TRANSPOSE of another, read at one entry, at the ideal values.

  Take dimension numbers that contract the left operand's column axis against the right operand's COLUMN axis
  and have no batch axis: an m×k matrix A against an n×k matrix B, rows against rows.  Then a kernel's
  `tpu.matmul` into the zero accumulator and the host's `dot_general` both hold, at entry (a, b), the sum over
  the contracted coordinate c of A(a, c) · B(b, c) — in the extended reals, with no finiteness asked, since both
  are that sum by definition once the contraction index is renamed by its one coordinate.

  The dimension record may be any record equal to the library's `DotDims.transposedRhs m k n`; for a record
  written out with those lists the equality is `rfl`.
-/
import Idealize.ShloMosaic.PureOps.Ideal.Laws
import Idealize.ShloMosaic.Lib.ValueIdx

noncomputable section

open scoped BigOperators

namespace Cert.TransposedDot

open Idealize.ShloMosaic Idealize.ShloMosaic.ValueIdx

variable {m k n : Nat} {φ₁ φ₂ : FTy}

/-- The left operand's row coordinate is the output's row. -/
theorem lhsIdx_0 (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin 2) ∈ (DotDims.transposedRhs m k n).lhsBatch from List.not_mem_nil),
    dif_pos (show (0 : Fin 2) ∈ (DotDims.transposedRhs m k n).lhsNonContracting from List.mem_singleton.mpr rfl)]
  rfl

/-- The left operand's column coordinate is the contraction coordinate. -/
theorem lhsIdx_1 (j : (⟨2, ![m, n]⟩ : Shape).Idx) (q : (DotDims.transposedRhs m k n).contr.Idx) :
    ((DotDims.transposedRhs m k n).lhsIdx j q 1).val = (q ⟨0, Nat.one_pos⟩).val :=
  (DotDims.transposedRhs m k n).lhsIdx_val_of_single rfl j q

/-- The right operand's row coordinate is the output's column. -/
theorem rhsIdx_0 (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin 2) ∈ (DotDims.transposedRhs m k n).rhsBatch from List.not_mem_nil),
    dif_pos (show (0 : Fin 2) ∈ (DotDims.transposedRhs m k n).rhsNonContracting from List.mem_singleton.mpr rfl)]
  rfl

/-- The right operand's column coordinate is the contraction coordinate. -/
theorem rhsIdx_1 (j : (⟨2, ![m, n]⟩ : Shape).Idx) (q : (DotDims.transposedRhs m k n).contr.Idx) :
    ((DotDims.transposedRhs m k n).rhsIdx j q 1).val = (q ⟨0, Nat.one_pos⟩).val :=
  (DotDims.transposedRhs m k n).rhsIdx_val_of_single rfl j q

/-- At output entry (a, b) and contraction coordinate c the left operand is read at (a, c). -/
theorem lhsIdx_eq (a : Fin m) (b : Fin n) (c : Fin k) :
    (DotDims.transposedRhs m k n).lhsIdx (ix2 a b) ((contrEquiv1 (DotDims.transposedRhs m k n) k rfl rfl).symm c) = ix2 a c := by
  have hc := contrEquiv1_symm_val (DotDims.transposedRhs m k n) k rfl rfl c
  funext ax
  apply Fin.ext
  match ax with
  | ⟨0, _⟩ => exact lhsIdx_0 _ _
  | ⟨1, _⟩ => exact (lhsIdx_1 _ _).trans hc

/-- At output entry (a, b) and contraction coordinate c the right operand is read at (b, c). -/
theorem rhsIdx_eq (a : Fin m) (b : Fin n) (c : Fin k) :
    (DotDims.transposedRhs m k n).rhsIdx (ix2 a b) ((contrEquiv1 (DotDims.transposedRhs m k n) k rfl rfl).symm c) = ix2 b c := by
  have hc := contrEquiv1_symm_val (DotDims.transposedRhs m k n) k rfl rfl c
  funext ax
  apply Fin.ext
  match ax with
  | ⟨0, _⟩ => exact rhsIdx_0 _ _
  | ⟨1, _⟩ => exact (rhsIdx_1 _ _).trans hc

/-- The sum over the contraction index of a rows-against-rows product is the sum over its one coordinate. -/
theorem sum_contr (A : (⟨2, ![m, k]⟩ : Shape).Idx → EReal) (B : (⟨2, ![n, k]⟩ : Shape).Idx → EReal)
    (a : Fin m) (b : Fin n) :
    (∑ q : (DotDims.transposedRhs m k n).contr.Idx,
        A ((DotDims.transposedRhs m k n).lhsIdx (ix2 a b) q) * B ((DotDims.transposedRhs m k n).rhsIdx (ix2 a b) q))
      = ∑ c : Fin k, A (ix2 a c) * B (ix2 b c) := by
  rw [← Equiv.sum_comp (contrEquiv1 (DotDims.transposedRhs m k n) k rfl rfl).symm]
  refine Finset.sum_congr rfl fun c _ => ?_
  rw [lhsIdx_eq, rhsIdx_eq]

/-- A `tpu.matmul` into the zero accumulator, rows against rows, at entry (a, b):
    the sum over c of A(a, c) · B(b, c). -/
theorem matmul_zero_apply (D : DotDims ⟨2, ![m, k]⟩ ⟨2, ![n, k]⟩ ⟨2, ![m, n]⟩) (hD : D = DotDims.transposedRhs m k n)
    (prec : Option ContractPrecision) (A : FVec Ideal ⟨2, ![m, k]⟩ φ₁) (B : FVec Ideal ⟨2, ![n, k]⟩ φ₂)
    (a : Fin m) (b : Fin n) :
    FloatOps.matmul D prec A B (constant (F := Ideal) ⟨2, ![m, n]⟩ .f32 0x00000000#32) (ix2 a b)
      = ∑ c : Fin k, A (ix2 a c) * B (ix2 b c) := by
  subst hD
  rw [Ideal.matmul_constant_zero_apply]
  exact sum_contr A B a b

/-- The host's `dot_general`, rows against rows, at entry (a, b): the same sum. -/
theorem dotGeneral_apply (D : DotDims ⟨2, ![m, k]⟩ ⟨2, ![n, k]⟩ ⟨2, ![m, n]⟩) (hD : D = DotDims.transposedRhs m k n)
    (prec : Option ContractPrecision) (sched : HostSchedule) (A : FVec Ideal ⟨2, ![m, k]⟩ φ₁)
    (B : FVec Ideal ⟨2, ![n, k]⟩ φ₂) (a : Fin m) (b : Fin n) :
    FloatOps.dotGeneral D prec sched A B (ix2 a b) = ∑ c : Fin k, A (ix2 a c) * B (ix2 b c) := by
  subst hD
  rw [Ideal.dotGeneral_apply]
  exact sum_contr A B a b

end Cert.TransposedDot

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.PayQuant.lean ====
/-
  The activation quantiser of one row tile, as a vector computation, read at an entry.

  A tile of rows is normalised row by row: the row's sum of squares (one reduction over the lanes, kept as a
  column) is divided by the row length, a small constant is added, the reciprocal root is taken, and the column is
  spread back over the lanes and multiplied in. The largest magnitude of each normalised row (a second lane
  reduction, again kept as a column) is floored at a small constant and divided into 127: the row's scale. Each
  entry times its row's scale is rounded to the nearest integer, clamped to [-128, 127] and divided by the scale.

  Read at the entry (p, k), every step is the corresponding scalar step of the specification's `actq` on row p:
  the column cast and the lane broadcast read the row statistic of row p, the lane sum is the sum over the row,
  and the lane maximum is the fold of `max` over the row.
-/
import Idealize.ShloMosaic.Lib.ValueIdx
import Idealize.ShloMosaic.Lib.Pipeline.Value
import Idealize.ShloMosaic.PureOps.Ideal.Laws
import proofs.«143887_j14474039787742_1_alg».proof.Proof.Spec
import proofs.«143887_j14474039787742_1_alg».proof.Proof.LibRowOps

noncomputable section

open scoped BigOperators

namespace Cert.KernelSide

open Idealize.ShloMosaic Idealize.ShloMosaic.ValueIdx

variable {a b : ℕ}

/-- The rows of `x`, each multiplied by the reciprocal root of (its sum of squares over `d`, plus 1e-8). -/
def normRows (d : BitVec 32) (x : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, b]⟩) : FVec Ideal ⟨2, ![a, b]⟩ .f32 :=
  mulf x (broadcastTo ⟨2, ![a, b]⟩
    (rsqrt (addf
      (divf (shapeCast ⟨2, ![a, 1]⟩ (multiReduction .add [1] ⟨1, ![a]⟩ (mulf x x) 0x00000000#32 hred (.inl rfl) rfl) hcol)
        (broadcast ⟨2, ![a, 1]⟩ (Scalar.ofBits (F := Ideal) .f32 d)))
      (broadcast ⟨2, ![a, 1]⟩ (Scalar.ofBits (F := Ideal) .f32 0x322BCC77#32)))) hbc)

/-- At (p, k): the specification's normalised row p at lane k. -/
theorem normRows_apply (d : BitVec 32) (x : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, b]⟩) (p : Fin a) (k : Fin b) :
    normRows d x hred hcol hbc (ix2 p k) = Cert.Spec.normed (Cert.Spec.lit d) (fun k => x (ix2 p k)) k := by
  unfold normRows Cert.Spec.normed Cert.Spec.rms
  refine congrArg (fun t => x (ix2 p k) * t) ?_
  refine (RowOps.broadcastTo_a1_ab_apply _ hbc p k).trans ?_
  refine congrArg (fun s => Ideal.rsqrt (Ideal.div s (Cert.Spec.lit d) + Cert.Spec.lit 0x322BCC77#32)) ?_
  refine (RowOps.shapeCast_a_a1_apply _ hcol p 0).trans ?_
  exact RowOps.rowSum_apply (mulf x x) 0x00000000#32 hred (.inl rfl) rfl p

/-- The column of row scales of `y`: 127 over (the largest magnitude of the row, at least 1e-5). -/
def scaleCol (y : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩) : FVec Ideal ⟨2, ![a, 1]⟩ .f32 :=
  divf (broadcast ⟨2, ![a, 1]⟩ (Scalar.ofBits (F := Ideal) .f32 0x42FE0000#32))
    (maximumf (broadcast ⟨2, ![a, 1]⟩ (Scalar.ofBits (F := Ideal) .f32 0x3727C5AC#32))
      (shapeCast ⟨2, ![a, 1]⟩ (multiReduction .maximumf [1] ⟨1, ![a]⟩ (absf y) 0xFF800000#32 hred (.inl rfl) rfl) hcol))

/-- At row p: 127 over the floored fold of `max`, from -∞, of the row's magnitudes. -/
theorem scaleCol_apply (y : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩) (p : Fin a) (u : Fin 1) :
    scaleCol y hred hcol (ix2 p u)
      = Ideal.div (Cert.Spec.lit 0x42FE0000#32)
          (max (Cert.Spec.lit 0x3727C5AC#32)
            ((Finset.univ : Finset (Fin b)).fold max (Cert.Spec.lit 0xFF800000#32) (fun k => Cert.Spec.mag (y (ix2 p k))))) := by
  unfold scaleCol
  refine congrArg (fun m => Ideal.div (Cert.Spec.lit 0x42FE0000#32) (max (Cert.Spec.lit 0x3727C5AC#32) m)) ?_
  refine (RowOps.shapeCast_a_a1_apply _ hcol p u).trans ?_
  exact RowOps.rowMax_apply (absf y) 0xFF800000#32 hred (.inl rfl) rfl p

/-- The rows of `y` quantised with the column of scales `s`: round (entry * scale), clamp to [-128, 127], over the scale. -/
def quantRows (y : FVec Ideal ⟨2, ![a, b]⟩ .f32) (s : FVec Ideal ⟨2, ![a, 1]⟩ .f32)
    (hbc : (⟨2, ![a, 1]⟩ : Shape).Broadcasts ⟨2, ![a, b]⟩) : FVec Ideal ⟨2, ![a, b]⟩ .f32 :=
  divf
    (minimumf (broadcast ⟨2, ![a, b]⟩ (Scalar.ofBits (F := Ideal) .f32 0x42FE0000#32))
      (maximumf (broadcast ⟨2, ![a, b]⟩ (Scalar.ofBits (F := Ideal) .f32 0xC3000000#32))
        (roundeven (mulf y (broadcastTo ⟨2, ![a, b]⟩ s hbc)))))
    (broadcastTo ⟨2, ![a, b]⟩ s hbc)

/-- At (p, k), with the scale of row p read off the column. -/
theorem quantRows_apply (y : FVec Ideal ⟨2, ![a, b]⟩ .f32) (s : FVec Ideal ⟨2, ![a, 1]⟩ .f32)
    (hbc : (⟨2, ![a, 1]⟩ : Shape).Broadcasts ⟨2, ![a, b]⟩) (p : Fin a) (k : Fin b) :
    quantRows y s hbc (ix2 p k)
      = Ideal.div (min (Cert.Spec.lit 0x42FE0000#32) (max (Cert.Spec.lit 0xC3000000#32)
          (Cert.Spec.rne (y (ix2 p k) * s (ix2 p (0 : Fin 1)))))) (s (ix2 p (0 : Fin 1))) := by
  unfold quantRows
  have hs : broadcastTo ⟨2, ![a, b]⟩ s hbc (ix2 p k) = s (ix2 p (0 : Fin 1)) := RowOps.broadcastTo_a1_ab_apply s hbc p k
  exact congrArg (fun t => Ideal.div (min (Cert.Spec.lit 0x42FE0000#32) (max (Cert.Spec.lit 0xC3000000#32)
          (Cert.Spec.rne (y (ix2 p k) * t)))) t) hs

/-- The activation quantiser of a tile: normalise the rows, take each row's scale, quantise. -/
def actQuant (d : BitVec 32) (x : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, b]⟩) : FVec Ideal ⟨2, ![a, b]⟩ .f32 :=
  quantRows (normRows d x hred hcol hbc) (scaleCol (normRows d x hred hcol hbc) hred hcol) hbc

/-- At (p, k) the tile's quantiser is the specification's quantised row p at lane k. -/
theorem actQuant_apply (d : BitVec 32) (x : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, b]⟩) (p : Fin a) (k : Fin b) :
    actQuant d x hred hcol hbc (ix2 p k) = Cert.Spec.actq (Cert.Spec.lit d) (fun k => x (ix2 p k)) k := by
  unfold actQuant
  rw [quantRows_apply, scaleCol_apply, normRows_apply]
  have hm : (fun k => Cert.Spec.mag (normRows d x hred hcol hbc (ix2 p k)))
      = fun k => Cert.Spec.mag (Cert.Spec.normed (Cert.Spec.lit d) (fun k => x (ix2 p k)) k) :=
    funext fun k => congrArg Cert.Spec.mag (normRows_apply d x hred hcol hbc p k)
  rw [hm]
  rfl

end Cert.KernelSide

end
-- ==== Proof.Pay0.lean ====
/-
  The first stage's stored tile, read at an entry.

  The body quantises its tile of input rows (PayQuant), contracts the quantised rows with the rows of two weight
  tiles (rows against rows, into a zero accumulator), and stores, entry by entry, g * logistic g * v for the two
  contractions g and v. Changes of float format are the identity on the extended reals, and a cast of a tile to
  its own shape changes nothing, so at entry (p, q) the stored value is that product for the sums over the lanes
  of the quantised row p against rows q of the two weight tiles.
-/
import Idealize.ShloMosaic.Lib.ValueIdx
import Idealize.ShloMosaic.Lib.Pipeline.Value
import Idealize.ShloMosaic.PureOps.Ideal.Laws
import proofs.«143887_j14474039787742_1_alg».proof.Proof.Gen.KernelIdeal.Skeleton
import proofs.«143887_j14474039787742_1_alg».proof.Proof.Spec
import proofs.«143887_j14474039787742_1_alg».proof.Proof.LibTransposedDot
import proofs.«143887_j14474039787742_1_alg».proof.Proof.PayQuant

noncomputable section

open scoped BigOperators

namespace Cert.KernelSide

open Idealize.ShloMosaic Idealize.ShloMosaic.ValueIdx
open Cert.KernelIdeal Cert.KernelIdeal.Facts₀

variable [Cert.KernelIdeal.Facts]

/-- The logistic of a tile, entry by entry. -/
theorem logistic_apply {s : Shape} {φ : FTy} (a : FVec Ideal s φ) (i : s.Idx) : logistic a i = Ideal.logistic (a i) := rfl

/-- The quantised tile of input rows contracted with the rows of a weight tile. -/
def stage1Dot (x0 : Vec Ideal S1024x2048 .f32) (w : Vec Ideal S256x2048 .bf16) : FVec Ideal S1024x256 .f32 :=
  matmul dot_S1024x2048_S256x2048_S1024x256_1_1_0_0_n_n none
    (truncf .bf16 (actQuant 0x45000000#32 (shapeCast S1024x2048 x0 shapeCasts_S1024x2048_S1024x2048)
      reduces_S1024x2048_S1024 shapeCasts_S1024_S1024x1 broadcasts_S1024x1_S1024x2048) bitsLt_bf16_f32)
    (shapeCast S256x2048 w shapeCasts_S256x2048_S256x2048 : FVec Ideal S256x2048 .bf16)
    (constant (F := Ideal) S1024x256 .f32 0x00000000#32)

/-- At (p, q): the sum over the lanes of the quantised row p times row q of the weight tile. -/
theorem stage1Dot_apply (x0 : Vec Ideal S1024x2048 .f32) (w : Vec Ideal S256x2048 .bf16) (p : Fin 1024) (q : Fin 256) :
    stage1Dot x0 w (ix2 p q)
      = ∑ k : Fin 2048, Cert.Spec.actq (Cert.Spec.lit 0x45000000#32) (fun k => x0 (ix2 p k)) k * w (ix2 q k) := by
  unfold stage1Dot
  refine (Cert.TransposedDot.matmul_zero_apply dot_S1024x2048_S256x2048_S1024x256_1_1_0_0_n_n rfl none _ _ p q).trans ?_
  refine Finset.sum_congr rfl fun k _ => ?_
  rw [shapeCast_self, shapeCast_self, truncf_apply]
  exact congrArg (fun t => t * w (ix2 q k))
    (actQuant_apply 0x45000000#32 x0 reduces_S1024x2048_S1024 shapeCasts_S1024_S1024x1 broadcasts_S1024x1_S1024x2048 p k)

set_option maxRecDepth 65536 in
/-- The stored tile is the entrywise g * logistic g * v of the two contractions. -/
theorem k0_pay1_eq (x0 : Vec Ideal S1024x2048 .f32) (w1 w2 : Vec Ideal S256x2048 .bf16) :
    Cert.KernelIdeal.Gen.k0_pay1 (F := Ideal) x0 w1 w2
      = truncf .bf16 (mulf (mulf (stage1Dot x0 w1) (logistic (stage1Dot x0 w1))) (stage1Dot x0 w2)) bitsLt_bf16_f32 := rfl

/-- The first stage's stored value at (p, q). -/
theorem pay0_apply (x0 : Vec Ideal S1024x2048 .f32) (w1 w2 : Vec Ideal S256x2048 .bf16) (p : Fin 1024) (q : Fin 256) :
    Cert.KernelIdeal.Gen.k0_pay1 (F := Ideal) x0 w1 w2 (ix2 p q)
      = ((∑ k : Fin 2048, Cert.Spec.actq (Cert.Spec.lit 0x45000000#32) (fun k => x0 (ix2 p k)) k * w1 (ix2 q k))
          * Ideal.logistic (∑ k : Fin 2048, Cert.Spec.actq (Cert.Spec.lit 0x45000000#32) (fun k => x0 (ix2 p k)) k * w1 (ix2 q k)))
        * (∑ k : Fin 2048, Cert.Spec.actq (Cert.Spec.lit 0x45000000#32) (fun k => x0 (ix2 p k)) k * w2 (ix2 q k)) := by
  rw [k0_pay1_eq, truncf_apply, mulf_apply, mulf_apply, logistic_apply, stage1Dot_apply x0 w1 p q, stage1Dot_apply x0 w2 p q]

end Cert.KernelSide

end
-- ==== Proof.KiVal0.lean ====
/-
  What the first launch leaves in the hidden matrix, as ONE function of the token matrix and the quantised gate weights.

  Entry (r, j) of the hidden matrix is g * logistic g * v, where g and v contract the quantised token row r with rows j
  and j + 8192 of the weights. Grid point t = (m, n) writes back the block of that function at rows [1024 m, …), lanes
  [256 n, …): its three input blocks are the token rows of block m and the weight rows of blocks n and n + 32, which is
  where the function reads. The 8 × 32 blocks tile the matrix.
-/
import proofs.«143887_j14474039787742_1_alg».proof.Proof.KiD0
import proofs.«143887_j14474039787742_1_alg».proof.Proof.Pay0
import Idealize.ShloMosaic.Lib.Pipeline.Value
import Idealize.ShloMosaic.Lib.ValueIdx
import Idealize.ShloMosaic.Lib.Pipeline.FrameBody

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx
open Idealize.SL Idealize.SL.Sem
open Idealize.ShloMosaic.Pipeline (Dat Cfg Window)

-- the contents of the core's buffers when the launch is entered, at the extended reals
variable (V : (c : Dev nD) → (b : Ref sig .tc) → Buf (Elt Ideal) ((c : Thread nD τ).loc b))

theorem hz2 : (![0, 0] : Fin 2 → Nat) = fun _ => 0 := funext fun a => by fin_cases a <;> rfl

/-- The gate row and the value row of the weights that lane j of the hidden matrix reads. -/
def gateRow (j : Fin 8192) : Fin 16384 := ⟨j.val, by have := j.isLt; omega⟩
def valRow (j : Fin 8192) : Fin 16384 := ⟨j.val + 8192, by have := j.isLt; omega⟩

/-- Entry (r, j) of the hidden matrix. -/
def H0c (X : S8192x2048.Idx → Elt Ideal .f32) (Wg : S16384x2048.Idx → Elt Ideal .bf16) (r : Fin 8192) (j : Fin 8192) : EReal :=
  ((∑ k : Fin 2048, Cert.Spec.actq (Cert.Spec.lit 0x45000000#32) (fun k => X (ix2 r k)) k * Wg (ix2 (gateRow j) k))
      * Ideal.logistic (∑ k : Fin 2048, Cert.Spec.actq (Cert.Spec.lit 0x45000000#32) (fun k => X (ix2 r k)) k * Wg (ix2 (gateRow j) k)))
    * (∑ k : Fin 2048, Cert.Spec.actq (Cert.Spec.lit 0x45000000#32) (fun k => X (ix2 r k)) k * Wg (ix2 (valRow j) k))

/-- The hidden matrix, index by index. -/
def H0 (X : S8192x2048.Idx → Elt Ideal .f32) (Wg : S16384x2048.Idx → Elt Ideal .bf16) : S8192x8192.Idx → Elt Ideal .bf16 :=
  fun i => H0c X Wg ⟨(i 0).val, (i 0).isLt⟩ ⟨(i 1).val, (i 1).isLt⟩

/-- The printed index maps over the grid: the token block moves with the output's rows, the two weight blocks with its
    lanes (the second 32 blocks further down), and the output's block indices stay in range. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2) + 32
    ∧ win0_2.index t (1 : Fin 2) = 0
    ∧ win0_3.index t (0 : Fin 2) ≤ 7 ∧ win0_3.index t (1 : Fin 2) ≤ 31 :=
  (by decide +kernel : ∀ t : Fin grid0.N, _)

/-- Every block of the hidden matrix is some point's. -/
theorem idx_onto0 : ∀ (q0 : Fin 8) (q1 : Fin 32), ∃ t : Fin cfg0.N, win0_3.index t = ![q0.val, q1.val] :=
  (by decide +kernel : ∀ (q0 : Fin 8) (q1 : Fin 32), ∃ t : Fin grid0.N, win0_3.index t = ![q0.val, q1.val])

/-- What point t writes back is block t of the hidden matrix. -/
theorem flushed0_eq (c : Dev nD) (t : Fin cfg0.N) :
    (dat0 V c).flushed 3 t = ((cfg0.win 3).blk t).view.read (Elt Ideal) (H0 (V c main_v0) (V c main_v12)) := by
  show (cfg0.win 3).cut (grid0.coords t) ((dat0 V c).after 3 t) = _
  rw [after0_3]
  unfold out0_3
  rw [View.canon_unit_zero hz2]
  simp only [View.ld_unit_zero (S := S1024x2048) hz2, View.ld_unit_zero (S := S256x2048) hz2]
  obtain ⟨e0, e1, e2, e3, e4, e5, e6, e7⟩ := idx_facts0 t
  funext y
  obtain ⟨p, q, rfl⟩ : ∃ (p : Fin 1024) (q : Fin 256), y = ix2 p q := ⟨y 0, y 1, eq_ix2 y⟩
  have hp : p.val < 1024 := p.isLt
  have hq : q.val < 256 := q.isLt
  refine (Cert.KernelSide.pay0_apply _ _ _ p q).trans ?_
  have hx : ∀ k : Fin 2048, iblk0 V c 0 t (ix2 p k)
      = V c main_v0 (ix2 (⟨win0_3.index t (0 : Fin 2) * 1024 + p.val, by omega⟩ : Fin 8192) k) := fun k => by
    show V c main_v0 (((cfg0.win 0).blk t).view.emb (ix2 p k)) = _
    refine congrArg (V c main_v0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 2048 + 1 * k.val = k.val; omega
  have hw1 : ∀ k : Fin 2048, iblk0 V c 1 t (ix2 q k)
      = V c main_v12 (ix2 (gateRow (⟨win0_3.index t (1 : Fin 2) * 256 + q.val, by omega⟩ : Fin 8192)) k) := fun k => by
    show V c main_v12 (((cfg0.win 1).blk t).view.emb (ix2 q k)) = _
    refine congrArg (V c main_v12) (funext fun a => Fin.ext ?_)
    match a with
    | ⟨0, _⟩ => show win0_1.index t (0 : Fin 2) * 256 + 1 * q.val = win0_3.index t (1 : Fin 2) * 256 + q.val; omega
    | ⟨1, _⟩ => show win0_1.index t (1 : Fin 2) * 2048 + 1 * k.val = k.val; omega
  have hw2 : ∀ k : Fin 2048, iblk0 V c 2 t (ix2 q k)
      = V c main_v12 (ix2 (valRow (⟨win0_3.index t (1 : Fin 2) * 256 + q.val, by omega⟩ : Fin 8192)) k) := fun k => by
    show V c main_v12 (((cfg0.win 2).blk t).view.emb (ix2 q k)) = _
    refine congrArg (V c main_v12) (funext fun a => Fin.ext ?_)
    match a with
    | ⟨0, _⟩ => show win0_2.index t (0 : Fin 2) * 256 + 1 * q.val = win0_3.index t (1 : Fin 2) * 256 + q.val + 8192; omega
    | ⟨1, _⟩ => show win0_2.index t (1 : Fin 2) * 2048 + 1 * k.val = k.val; omega
  simp only [hx, hw1, hw2]
  show _ = H0c (V c main_v0) (V c main_v12)
    ⟨((((cfg0.win 3).blk t).view.emb (ix2 p q)) 0).val, ((((cfg0.win 3).blk t).view.emb (ix2 p q)) 0).isLt⟩
    ⟨((((cfg0.win 3).blk t).view.emb (ix2 p q)) 1).val, ((((cfg0.win 3).blk t).view.emb (ix2 p q)) 1).isLt⟩
  have hr : (⟨((((cfg0.win 3).blk t).view.emb (ix2 p q)) 0).val, ((((cfg0.win 3).blk t).view.emb (ix2 p q)) 0).isLt⟩ : Fin 8192)
      = ⟨win0_3.index t (0 : Fin 2) * 1024 + p.val, by omega⟩ :=
    Fin.ext (by show win0_3.index t (0 : Fin 2) * 1024 + 1 * p.val = win0_3.index t (0 : Fin 2) * 1024 + p.val; omega)
  have hj : (⟨((((cfg0.win 3).blk t).view.emb (ix2 p q)) 1).val, ((((cfg0.win 3).blk t).view.emb (ix2 p q)) 1).isLt⟩ : Fin 8192)
      = ⟨win0_3.index t (1 : Fin 2) * 256 + q.val, by omega⟩ :=
    Fin.ext (by show win0_3.index t (1 : Fin 2) * 256 + 1 * q.val = win0_3.index t (1 : Fin 2) * 256 + q.val; omega)
  rw [hr, hj]
  unfold H0c
  rfl

/-- An index of the hidden matrix is in point t's block iff each coordinate is in the block's range on its axis. -/
theorem mem_blk0 (t : Fin cfg0.N) (i : S8192x8192.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v25).slice (win0_3.rect t)).set ↔ _
  rw [View.set_slice_whole, Rect.mem_set_unit]
  exact Iff.rfl

/-- The blocks cover the hidden matrix: entry (r, j) is in the block of point (r / 1024, j / 256). -/
theorem cover0 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto0 ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- The hidden matrix after the launch. -/
theorem final0 (c : Dev nD) : (dat0 V c).arrAt 3 cfg0.N = H0 (V c main_v0) (V c main_v12) :=
  (dat0 V c).arrAt_eq_of_cover 3 (H0 (V c main_v0) (V c main_v12)) (fun t _ => flushed0_eq V c t) cover0

end Cert.KernelIdeal.Hand

end
-- ==== Proof.Pay1.lean ====
/-
  The second stage's stored tile, read at an entry.

  The body widens its tile of hidden rows (the identity on the extended reals), quantises the rows (PayQuant, row
  length 8192), and contracts the quantised rows with the rows of the whole down-weight matrix, rows against
  rows, into a zero accumulator. At entry (p, o) the stored value is the sum over the lanes of the quantised row
  p times row o of the weights.
-/
import Idealize.ShloMosaic.Lib.ValueIdx
import Idealize.ShloMosaic.Lib.Pipeline.Value
import Idealize.ShloMosaic.PureOps.Ideal.Laws
import proofs.«143887_j14474039787742_1_alg».proof.Proof.Gen.KernelIdeal.Skeleton
import proofs.«143887_j14474039787742_1_alg».proof.Proof.Spec
import proofs.«143887_j14474039787742_1_alg».proof.Proof.LibTransposedDot
import proofs.«143887_j14474039787742_1_alg».proof.Proof.PayQuant

noncomputable section

open scoped BigOperators

namespace Cert.KernelSide

open Idealize.ShloMosaic Idealize.ShloMosaic.ValueIdx
open Cert.KernelIdeal Cert.KernelIdeal.Facts₀

variable [Cert.KernelIdeal.Facts]

/-- The tile of hidden rows, widened and quantised. -/
def stage2Rows (h0 : Vec Ideal S64x8192 .bf16) : FVec Ideal S64x8192 .f32 :=
  actQuant 0x46000000#32
    (extf .f32 (shapeCast S64x8192 h0 shapeCasts_S64x8192_S64x8192 : FVec Ideal S64x8192 .bf16) bitsLt_bf16_f32)
    reduces_S64x8192_S64 shapeCasts_S64_S64x1 broadcasts_S64x1_S64x8192

/-- At (p, j): the specification's quantised row p of the tile at lane j. -/
theorem stage2Rows_apply (h0 : Vec Ideal S64x8192 .bf16) (p : Fin 64) (j : Fin 8192) :
    stage2Rows h0 (ix2 p j) = Cert.Spec.actq (Cert.Spec.lit 0x46000000#32) (fun j => h0 (ix2 p j)) j := by
  unfold stage2Rows
  rw [shapeCast_self]
  exact actQuant_apply 0x46000000#32 (extf .f32 (h0 : FVec Ideal S64x8192 .bf16) bitsLt_bf16_f32)
    reduces_S64x8192_S64 shapeCasts_S64_S64x1 broadcasts_S64x1_S64x8192 p j

set_option maxRecDepth 65536 in
/-- The stored tile is the contraction of the quantised rows with the weight rows. -/
theorem k1_pay1_eq (h0 : Vec Ideal S64x8192 .bf16) (w : Vec Ideal S2048x8192 .bf16) :
    Cert.KernelIdeal.Gen.k1_pay1 (F := Ideal) h0 w
      = matmul dot_S64x8192_S2048x8192_S64x2048_1_1_0_0_n_n none
          (truncf .bf16 (stage2Rows h0) bitsLt_bf16_f32)
          (shapeCast S2048x8192 w shapeCasts_S2048x8192_S2048x8192 : FVec Ideal S2048x8192 .bf16)
          (constant (F := Ideal) S64x2048 .f32 0x00000000#32) := rfl

/-- The second stage's stored value at (p, o). -/
theorem pay1_apply (h0 : Vec Ideal S64x8192 .bf16) (w : Vec Ideal S2048x8192 .bf16) (p : Fin 64) (o : Fin 2048) :
    Cert.KernelIdeal.Gen.k1_pay1 (F := Ideal) h0 w (ix2 p o)
      = ∑ j : Fin 8192, Cert.Spec.actq (Cert.Spec.lit 0x46000000#32) (fun j => h0 (ix2 p j)) j * w (ix2 o j) := by
  rw [k1_pay1_eq]
  refine (Cert.TransposedDot.matmul_zero_apply dot_S64x8192_S2048x8192_S64x2048_1_1_0_0_n_n rfl none _ _ p o).trans ?_
  refine Finset.sum_congr rfl fun j _ => ?_
  rw [shapeCast_self, truncf_apply, stage2Rows_apply]

end Cert.KernelSide

end
-- ==== Proof.KiVal1.lean ====
/-
  What the second launch leaves in the projected matrix, as ONE function of the hidden matrix and the quantised down
  weights.

  Entry (r, o) contracts the quantised hidden row r with row o of the weights. Grid point t writes back rows
  [64 t, 64 (t + 1)) of that function: its input blocks are those hidden rows and the whole weight matrix. The 128 row
  blocks tile the matrix.
-/
import proofs.«143887_j14474039787742_1_alg».proof.Proof.KiD1
import proofs.«143887_j14474039787742_1_alg».proof.Proof.Pay1
import Idealize.ShloMosaic.Lib.Pipeline.Value
import Idealize.ShloMosaic.Lib.ValueIdx
import Idealize.ShloMosaic.Lib.Pipeline.FrameBody

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx
open Idealize.SL Idealize.SL.Sem
open Idealize.ShloMosaic.Pipeline (Dat Cfg Window)

-- the contents of the core's buffers when the launch is entered, at the extended reals
variable (V : (c : Dev nD) → (b : Ref sig .tc) → Buf (Elt Ideal) ((c : Thread nD τ).loc b))

theorem hz2' : (![0, 0] : Fin 2 → Nat) = fun _ => 0 := funext fun a => by fin_cases a <;> rfl

/-- Entry (r, o) of the projected matrix. -/
def O1c (Hm : S8192x8192.Idx → Elt Ideal .bf16) (Wd : S2048x8192.Idx → Elt Ideal .bf16) (r : Fin 8192) (o : Fin 2048) : EReal :=
  ∑ j : Fin 8192, Cert.Spec.actq (Cert.Spec.lit 0x46000000#32) (fun j => Hm (ix2 r j)) j * Wd (ix2 o j)

/-- The projected matrix, index by index. -/
def O1 (Hm : S8192x8192.Idx → Elt Ideal .bf16) (Wd : S2048x8192.Idx → Elt Ideal .bf16) : S8192x2048.Idx → Elt Ideal .f32 :=
  fun i => O1c Hm Wd ⟨(i 0).val, (i 0).isLt⟩ ⟨(i 1).val, (i 1).isLt⟩

/-- The printed index maps over the grid: the hidden block moves with the output's rows, the weights stay put. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 127 :=
  (by decide +kernel : ∀ t : Fin grid1.N, _)

/-- Every row block of the projected matrix is some point's. -/
theorem idx_onto1 : ∀ (q0 : Fin 128), ∃ t : Fin cfg1.N, win1_2.index t = ![q0.val, 0] :=
  (by decide +kernel : ∀ (q0 : Fin 128), ∃ t : Fin grid1.N, win1_2.index t = ![q0.val, 0])

/-- What point t writes back is block t of the projected matrix. -/
theorem flushed1_eq (c : Dev nD) (t : Fin cfg1.N) :
    (dat1 V c).flushed 2 t = ((cfg1.win 2).blk t).view.read (Elt Ideal) (O1 (V c main_v25) (V c main_v24)) := by
  show (cfg1.win 2).cut (grid1.coords t) ((dat1 V c).after 2 t) = _
  rw [after1_2]
  unfold out1_2
  rw [View.canon_unit_zero hz2']
  simp only [View.ld_unit_zero (S := S64x8192) hz2', View.ld_unit_zero (S := S2048x8192) hz2']
  obtain ⟨e0, e1, e2, e3, e4, e5⟩ := idx_facts1 t
  funext y
  obtain ⟨p, o, rfl⟩ : ∃ (p : Fin 64) (o : Fin 2048), y = ix2 p o := ⟨y 0, y 1, eq_ix2 y⟩
  have hp : p.val < 64 := p.isLt
  have ho : o.val < 2048 := o.isLt
  refine (Cert.KernelSide.pay1_apply _ _ p o).trans ?_
  have hh : ∀ j : Fin 8192, iblk1 V c 0 t (ix2 p j)
      = V c main_v25 (ix2 (⟨win1_2.index t (0 : Fin 2) * 64 + p.val, by omega⟩ : Fin 8192) j) := fun j => by
    show V c main_v25 (((cfg1.win 0).blk t).view.emb (ix2 p j)) = _
    refine congrArg (V c main_v25) (funext fun a => Fin.ext ?_)
    match a with
    | ⟨0, _⟩ => show win1_0.index t (0 : Fin 2) * 64 + 1 * p.val = win1_2.index t (0 : Fin 2) * 64 + p.val; omega
    | ⟨1, _⟩ => show win1_0.index t (1 : Fin 2) * 8192 + 1 * j.val = j.val; omega
  have hw : ∀ j : Fin 8192, iblk1 V c 1 t (ix2 o j) = V c main_v24 (ix2 o j) := fun j => by
    show V c main_v24 (((cfg1.win 1).blk t).view.emb (ix2 o j)) = _
    refine congrArg (V c main_v24) (funext fun a => Fin.ext ?_)
    match a with
    | ⟨0, _⟩ => show win1_1.index t (0 : Fin 2) * 2048 + 1 * o.val = o.val; omega
    | ⟨1, _⟩ => show win1_1.index t (1 : Fin 2) * 8192 + 1 * j.val = j.val; omega
  simp only [hh, hw]
  show _ = O1c (V c main_v25) (V c main_v24)
    ⟨((((cfg1.win 2).blk t).view.emb (ix2 p o)) 0).val, ((((cfg1.win 2).blk t).view.emb (ix2 p o)) 0).isLt⟩
    ⟨((((cfg1.win 2).blk t).view.emb (ix2 p o)) 1).val, ((((cfg1.win 2).blk t).view.emb (ix2 p o)) 1).isLt⟩
  have hr : (⟨((((cfg1.win 2).blk t).view.emb (ix2 p o)) 0).val, ((((cfg1.win 2).blk t).view.emb (ix2 p o)) 0).isLt⟩ : Fin 8192)
      = ⟨win1_2.index t (0 : Fin 2) * 64 + p.val, by omega⟩ :=
    Fin.ext (by show win1_2.index t (0 : Fin 2) * 64 + 1 * p.val = win1_2.index t (0 : Fin 2) * 64 + p.val; omega)
  have hoo : (⟨((((cfg1.win 2).blk t).view.emb (ix2 p o)) 1).val, ((((cfg1.win 2).blk t).view.emb (ix2 p o)) 1).isLt⟩ : Fin 2048) = o :=
    Fin.ext (by show win1_2.index t (1 : Fin 2) * 2048 + 1 * o.val = o.val; omega)
  rw [hr, hoo]
  unfold O1c
  rfl

/-- An index of the projected matrix is in point t's block iff each coordinate is in the block's range on its axis. -/
theorem mem_blk1 (t : Fin cfg1.N) (i : S8192x2048.Idx) :
    i ∈ ((cfg1.win 2).blk t).view.set ↔ ∀ a : Fin 2, win1_2.index t a * S64x2048.size a ≤ (i a).val ∧ (i a).val < win1_2.index t a * S64x2048.size a + S64x2048.size a := by
  show i ∈ ((View.whole main_v26).slice (win1_2.rect t)).set ↔ _
  rw [View.set_slice_whole, Rect.mem_set_unit]
  exact Iff.rfl

/-- The blocks cover the projected matrix: row r is in the block of point r / 64. -/
theorem cover1 (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := idx_onto1 ⟨(i 0).val / 64, by omega⟩
  have q0 : win1_2.index t (0 : Fin 2) = (i 0).val / 64 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 2048 ≤ (i 1).val ∧ (i 1).val < win1_2.index t (1 : Fin 2) * 2048 + 2048; omega

/-- The projected matrix after the launch. -/
theorem final1 (c : Dev nD) : (dat1 V c).arrAt 2 cfg1.N = O1 (V c main_v25) (V c main_v24) :=
  (dat1 V c).arrAt_eq_of_cover 2 (O1 (V c main_v25) (V c main_v24)) (fun t _ => flushed1_eq V c t) cover1

end Cert.KernelIdeal.Hand

end
-- ==== Proof.HostW.lean ====
/-
  The ternary weight quantiser as the host computes it, read at an entry.

  The host takes the magnitudes of the matrix, sums them all from zero, divides by the entry count, floors the
  mean at a small constant and divides it into one: the scale, a single number. Every entry times the scale is
  rounded to the nearest integer (ties to even), clamped to [-1, 1] and divided by the scale; the change of float
  format at the end is the identity on the extended reals. A sum over both axes into a single number is the sum
  over every index, and a single number spread over the matrix reads that number at every entry, so at entry i
  the result is the specification's `wq` of the matrix at i.
-/
import Idealize.ShloMosaic.Lib.ValueIdx
import Idealize.ShloMosaic.Lib.IdealHost
import Idealize.ShloMosaic.PureOps.Ideal.Laws
import proofs.«143887_j14474039787742_1_alg».proof.Proof.Spec

noncomputable section

open scoped BigOperators

namespace Cert.KernelSide

open Idealize.ShloMosaic Idealize.ShloMosaic.ValueIdx

variable {m n : ℕ}

/-- The scale: one over the floored mean magnitude (the sum of all magnitudes, from zero, over the count word). -/
def hostWscale (cnt : BitVec 32) (w : FVec Ideal ⟨2, ![m, n]⟩ .f32)
    (hred : (⟨2, ![m, n]⟩ : Shape).ReducesTo [0, 1] ⟨0, ![]⟩) (h0 : 0 < (⟨0, ![]⟩ : Shape).numel) :
    FVec Ideal ⟨0, ![]⟩ .f32 :=
  Host.divf (F := Ideal) (constant (F := Ideal) ⟨0, ![]⟩ .f32 0x3F800000#32)
    (maximumf (id (constant (F := Ideal) ⟨0, ![]⟩ .f32 0x3727C5AC#32))
      (Host.divf (F := Ideal)
        (Host.reduceAdd (F := Ideal) (Host.absf (F := Ideal) w) (constant (F := Ideal) ⟨0, ![]⟩ .f32 0x00000000#32) hred h0)
        (constant (F := Ideal) ⟨0, ![]⟩ .f32 cnt)))

/-- The scale is the specification's, whatever the (only) index it is read at. -/
theorem hostWscale_apply (cnt : BitVec 32) (w : FVec Ideal ⟨2, ![m, n]⟩ .f32)
    (hred : (⟨2, ![m, n]⟩ : Shape).ReducesTo [0, 1] ⟨0, ![]⟩) (h0 : 0 < (⟨0, ![]⟩ : Shape).numel)
    (j : (⟨0, ![]⟩ : Shape).Idx) :
    hostWscale cnt w hred h0 j = Cert.Spec.wscale (Cert.Spec.lit cnt) w := by
  unfold hostWscale Cert.Spec.wscale
  refine congrArg (fun s => Ideal.div (Cert.Spec.lit 0x3F800000#32)
    (max (Cert.Spec.lit 0x3727C5AC#32) (Ideal.div s (Cert.Spec.lit cnt)))) ?_
  exact Ideal.hostReduceAdd_total hred (fun b => b.elim0) (Host.absf (F := Ideal) w) (Cert.Spec.lit 0x00000000#32) j

/-- The host's rounding to the nearest integer, ties to even, entry by entry. -/
theorem hostRoundeven_apply {s : Shape} {φ : FTy} (a : FVec Ideal s φ) (i : s.Idx) :
    Host.roundeven (F := Ideal) a i = Cert.Spec.rne (a i) := rfl

/-- The quantised matrix: round (entry * scale), clamp to [-1, 1], over the scale, in the narrower format. -/
def hostWq (cnt : BitVec 32) (w : FVec Ideal ⟨2, ![m, n]⟩ .f32)
    (hred : (⟨2, ![m, n]⟩ : Shape).ReducesTo [0, 1] ⟨0, ![]⟩) (h0 : 0 < (⟨0, ![]⟩ : Shape).numel)
    (hb : (⟨0, ![]⟩ : Shape).BroadcastsInDim ⟨2, ![m, n]⟩ (![] : Fin 0 → Fin 2))
    (hlt : FTy.bits .bf16 < FTy.bits .f32) : FVec Ideal ⟨2, ![m, n]⟩ .bf16 :=
  truncf .bf16
    (Host.divf (F := Ideal)
      (minimumf
        (broadcastInDim ⟨2, ![m, n]⟩ ![] hb (id (constant (F := Ideal) ⟨0, ![]⟩ .f32 0x3F800000#32)))
        (maximumf
          (broadcastInDim ⟨2, ![m, n]⟩ ![] hb (id (constant (F := Ideal) ⟨0, ![]⟩ .f32 0xBF800000#32)))
          (Host.roundeven (F := Ideal) (mulf w (broadcastInDim ⟨2, ![m, n]⟩ ![] hb (hostWscale cnt w hred h0))))))
      (broadcastInDim ⟨2, ![m, n]⟩ ![] hb (hostWscale cnt w hred h0)))
    hlt

/-- At entry i the host's quantised matrix is the specification's. -/
theorem hostWq_apply (cnt : BitVec 32) (w : FVec Ideal ⟨2, ![m, n]⟩ .f32)
    (hred : (⟨2, ![m, n]⟩ : Shape).ReducesTo [0, 1] ⟨0, ![]⟩) (h0 : 0 < (⟨0, ![]⟩ : Shape).numel)
    (hb : (⟨0, ![]⟩ : Shape).BroadcastsInDim ⟨2, ![m, n]⟩ (![] : Fin 0 → Fin 2))
    (hlt : FTy.bits .bf16 < FTy.bits .f32) (i : (⟨2, ![m, n]⟩ : Shape).Idx) :
    hostWq cnt w hred h0 hb hlt i = Cert.Spec.wq (Cert.Spec.lit cnt) w i := by
  have hs : broadcastInDim ⟨2, ![m, n]⟩ ![] hb (hostWscale cnt w hred h0) i = Cert.Spec.wscale (Cert.Spec.lit cnt) w :=
    (broadcastInDim_scalar_apply hb _ i).trans (hostWscale_apply cnt w hred h0 ix0)
  have h1 : broadcastInDim ⟨2, ![m, n]⟩ ![] hb (id (constant (F := Ideal) ⟨0, ![]⟩ .f32 0x3F800000#32)) i
      = Cert.Spec.lit 0x3F800000#32 := broadcastInDim_scalar_apply hb _ i
  have hm1 : broadcastInDim ⟨2, ![m, n]⟩ ![] hb (id (constant (F := Ideal) ⟨0, ![]⟩ .f32 0xBF800000#32)) i
      = Cert.Spec.lit 0xBF800000#32 := broadcastInDim_scalar_apply hb _ i
  unfold hostWq Cert.Spec.wq
  rw [truncf_apply, hostDivf_apply, minimumf_apply, maximumf_apply, hostRoundeven_apply, mulf_apply, h1, hm1, hs]

end Cert.KernelSide

end
-- ==== Proof.HostWMain.lean ====
/-
  The two weight matrices as the program's host operations quantise them before the two stages: the gate matrix
  (16384 × 2048, count word 2^25) and the down matrix (2048 × 8192, count word 2^24). Each is the general host
  quantiser at its shape and count, hence the specification's `wq` entry by entry; each is also written out
  operation by operation, in the order the program performs them, for comparison with the program's buffers.
-/
import Idealize.ShloMosaic.Lib.ValueIdx
import Idealize.ShloMosaic.Lib.IdealHost
import Idealize.ShloMosaic.PureOps.Ideal.Laws
import proofs.«143887_j14474039787742_1_alg».proof.KernelIdeal
import proofs.«143887_j14474039787742_1_alg».proof.Proof.Spec
import proofs.«143887_j14474039787742_1_alg».proof.Proof.HostW

noncomputable section

open scoped BigOperators

namespace Cert.KernelSide

open Idealize.ShloMosaic Idealize.ShloMosaic.ValueIdx
open Cert.KernelIdeal Cert.KernelIdeal.Facts₀

variable [Cert.KernelIdeal.Facts]

/-- The gate matrix quantised on the host. -/
def hostWqGate (w : FVec Ideal S16384x2048 .f32) : FVec Ideal S16384x2048 .bf16 :=
  hostWq 0x4C000000#32 w reducesTo_S16384x2048_S_d0_1 h_S_ bcast_S_S16384x2048 bitsLt_bf16_f32

/-- Entry by entry it is the specification's quantised gate matrix. -/
theorem hostWqGate_apply (w : FVec Ideal S16384x2048 .f32) (i : S16384x2048.Idx) :
    hostWqGate w i = Cert.Spec.wq (Cert.Spec.lit 0x4C000000#32) w i :=
  hostWq_apply 0x4C000000#32 w reducesTo_S16384x2048_S_d0_1 h_S_ bcast_S_S16384x2048 bitsLt_bf16_f32 i

/-- The same, operation by operation: magnitudes, total from zero, mean, floor, reciprocal, spread, product, rounding,
    clamp below and above, spread again, quotient, narrowing. -/
theorem hostWqGate_spelled (w : FVec Ideal S16384x2048 .f32) :
    hostWqGate w =
      truncf .bf16
        (Host.divf (F := Ideal)
          (minimumf
            (broadcastInDim S16384x2048 ![] bcast_S_S16384x2048 (id (constant (F := Ideal) S_ .f32 0x3F800000#32)))
            (maximumf
              (broadcastInDim S16384x2048 ![] bcast_S_S16384x2048 (id (constant (F := Ideal) S_ .f32 0xBF800000#32)))
              (Host.roundeven (F := Ideal)
                (mulf w
                  (broadcastInDim S16384x2048 ![] bcast_S_S16384x2048
                    (Host.divf (F := Ideal) (constant (F := Ideal) S_ .f32 0x3F800000#32)
                      (maximumf (id (constant (F := Ideal) S_ .f32 0x3727C5AC#32))
                        (Host.divf (F := Ideal)
                          (Host.reduceAdd (F := Ideal) (Host.absf (F := Ideal) w)
                            (constant (F := Ideal) S_ .f32 0x00000000#32) reducesTo_S16384x2048_S_d0_1 h_S_)
                          (constant (F := Ideal) S_ .f32 0x4C000000#32)))))))))
          (broadcastInDim S16384x2048 ![] bcast_S_S16384x2048
            (Host.divf (F := Ideal) (constant (F := Ideal) S_ .f32 0x3F800000#32)
              (maximumf (id (constant (F := Ideal) S_ .f32 0x3727C5AC#32))
                (Host.divf (F := Ideal)
                  (Host.reduceAdd (F := Ideal) (Host.absf (F := Ideal) w)
                    (constant (F := Ideal) S_ .f32 0x00000000#32) reducesTo_S16384x2048_S_d0_1 h_S_)
                  (constant (F := Ideal) S_ .f32 0x4C000000#32))))))
        bitsLt_bf16_f32 := rfl

/-- The down matrix quantised on the host. -/
def hostWqDown (w : FVec Ideal S2048x8192 .f32) : FVec Ideal S2048x8192 .bf16 :=
  hostWq 0x4B800000#32 w reducesTo_S2048x8192_S_d0_1 h_S_ bcast_S_S2048x8192 bitsLt_bf16_f32

/-- Entry by entry it is the specification's quantised down matrix. -/
theorem hostWqDown_apply (w : FVec Ideal S2048x8192 .f32) (i : S2048x8192.Idx) :
    hostWqDown w i = Cert.Spec.wq (Cert.Spec.lit 0x4B800000#32) w i :=
  hostWq_apply 0x4B800000#32 w reducesTo_S2048x8192_S_d0_1 h_S_ bcast_S_S2048x8192 bitsLt_bf16_f32 i

/-- The same, operation by operation. -/
theorem hostWqDown_spelled (w : FVec Ideal S2048x8192 .f32) :
    hostWqDown w =
      truncf .bf16
        (Host.divf (F := Ideal)
          (minimumf
            (broadcastInDim S2048x8192 ![] bcast_S_S2048x8192 (id (constant (F := Ideal) S_ .f32 0x3F800000#32)))
            (maximumf
              (broadcastInDim S2048x8192 ![] bcast_S_S2048x8192 (id (constant (F := Ideal) S_ .f32 0xBF800000#32)))
              (Host.roundeven (F := Ideal)
                (mulf w
                  (broadcastInDim S2048x8192 ![] bcast_S_S2048x8192
                    (Host.divf (F := Ideal) (constant (F := Ideal) S_ .f32 0x3F800000#32)
                      (maximumf (id (constant (F := Ideal) S_ .f32 0x3727C5AC#32))
                        (Host.divf (F := Ideal)
                          (Host.reduceAdd (F := Ideal) (Host.absf (F := Ideal) w)
                            (constant (F := Ideal) S_ .f32 0x00000000#32) reducesTo_S2048x8192_S_d0_1 h_S_)
                          (constant (F := Ideal) S_ .f32 0x4B800000#32)))))))))
          (broadcastInDim S2048x8192 ![] bcast_S_S2048x8192
            (Host.divf (F := Ideal) (constant (F := Ideal) S_ .f32 0x3F800000#32)
              (maximumf (id (constant (F := Ideal) S_ .f32 0x3727C5AC#32))
                (Host.divf (F := Ideal)
                  (Host.reduceAdd (F := Ideal) (Host.absf (F := Ideal) w)
                    (constant (F := Ideal) S_ .f32 0x00000000#32) reducesTo_S2048x8192_S_d0_1 h_S_)
                  (constant (F := Ideal) S_ .f32 0x4B800000#32))))))
        bitsLt_bf16_f32 := rfl

end Cert.KernelSide

end
-- ==== Proof.KiHost.lean ====
/-
  What the host leaves for the two launches: the token matrix as the reshape of the first argument, and the two
  quantised weight matrices as the host's own operations on the second and third arguments, in the order @main states
  them (magnitude, total, mean, floor, reciprocal, scale, round, clamp, rescale, narrowing).
-/
import proofs.«143887_j14474039787742_1_alg».proof.Proof.Gen.KernelIdeal.Regions
import proofs.«143887_j14474039787742_1_alg».proof.Proof.HostWMain
import Idealize.ShloMosaic.Lib.StableHlo.Run

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.StableHlo
open Idealize.SL Idealize.SL.Sem

variable (m : (ℓ : Loc nD τ sig) → Buf (Elt Ideal) ℓ)

set_option maxHeartbeats 4000000 in
/-- The token matrix the first launch reads is the first argument, reshaped. -/
theorem V13_v0 (c : Dev nD) :
    V13 m c (Proc.devRef .tc main_v0)
      = shapeCast S8192x2048 (m ((c : Thread nD τ).loc main_arg0)) Facts₀.shapeCasts_S4x2048x2048_S8192x2048 := by
  dsimp only [V13, V12, V11, V10, V9, V8, V7, V6, V5, V4, V3, V2, V1, V0, hostOps0, hostOps0_1, hostOps0_2, hostOps0_3,
    hostOps0_4, hostOps0_5, hostOps0_6, hostOps0_7, hostOps0_8, hostOps0_9, hostOps0_10, hostOps0_11, hostOps0_12]
  after_results_simp
  rfl

set_option maxHeartbeats 4000000 in
/-- The gate weights the first launch reads are the host's quantisation of the second argument. -/
theorem V13_v12 (c : Dev nD) :
    V13 m c (Proc.devRef .tc main_v12) = Cert.KernelSide.hostWqGate (m ((c : Thread nD τ).loc main_arg1)) := by
  dsimp only [V13, V12, V11, V10, V9, V8, V7, V6, V5, V4, V3, V2, V1, V0, hostOps0, hostOps0_1, hostOps0_2, hostOps0_3,
    hostOps0_4, hostOps0_5, hostOps0_6, hostOps0_7, hostOps0_8, hostOps0_9, hostOps0_10, hostOps0_11, hostOps0_12]
  after_results_simp
  rfl

set_option maxHeartbeats 4000000 in
/-- The down weights the second launch reads are the host's quantisation of the third argument. -/
theorem V13_v24 (c : Dev nD) :
    V13 m c (Proc.devRef .tc main_v24) = Cert.KernelSide.hostWqDown (m ((c : Thread nD τ).loc main_arg2)) := by
  dsimp only [V13, V12, V11, V10, V9, V8, V7, V6, V5, V4, V3, V2, V1, V0, hostOps0, hostOps0_1, hostOps0_2, hostOps0_3,
    hostOps0_4, hostOps0_5, hostOps0_6, hostOps0_7, hostOps0_8, hostOps0_9, hostOps0_10, hostOps0_11, hostOps0_12]
  after_results_simp
  rfl

end Cert.KernelIdeal.Hand

end
-- ==== Proof.KiFinal.lean ====
/-
  The kernel's result buffer after the run, at the extended reals: the reshape of the projected matrix, which is the
  down projection of the hidden matrix, which is the gated product of the two contractions of the token matrix — the
  first argument reshaped — with the host's quantised weights.
-/
import proofs.«143887_j14474039787742_1_alg».proof.Proof.KiRun
import proofs.«143887_j14474039787742_1_alg».proof.Proof.KiVal0
import proofs.«143887_j14474039787742_1_alg».proof.Proof.KiVal1
import proofs.«143887_j14474039787742_1_alg».proof.Proof.KiHost
import Idealize.ShloMosaic.Lib.StableHlo.Run

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.StableHlo
open Idealize.SL Idealize.SL.Sem

variable (m : (ℓ : Loc nD τ sig) → Buf (Elt Ideal) ℓ)

/-- The result buffer is the reshape of what the second launch left. -/
theorem V16_v27 (c : Dev nD) :
    V16 m (outs m) c (Proc.devRef .tc main_v27)
      = shapeCast S4x2048x2048 (V15 m (outs m) c (Proc.devRef .tc main_v26)) Facts₀.shapeCasts_S8192x2048_S4x2048x2048 := by
  show StableHlo.after hostOps2 (V15 m (outs m) c) (Proc.devRef .tc main_v27) = _
  dsimp only [hostOps2]
  after_results
  rfl

/-- The hidden matrix the second launch reads: the first launch's result over the host's token matrix and gate weights. -/
theorem VE1_v25 (c : Dev nD) :
    VE1 m c main_v25 = H0 (shapeCast S8192x2048 (m ((c : Thread nD τ).loc main_arg0)) Facts₀.shapeCasts_S4x2048x2048_S8192x2048)
      (Cert.KernelSide.hostWqGate (m ((c : Thread nD τ).loc main_arg1))) := by
  show W14 m c main_v25 = _
  rw [W14_v25, final0 (VE0 m) c]
  show H0 (V13 m c (Proc.devRef .tc main_v0)) (V13 m c (Proc.devRef .tc main_v12)) = _
  rw [V13_v0, V13_v12]

/-- The down weights the second launch reads. -/
theorem VE1_v24 (c : Dev nD) : VE1 m c main_v24 = Cert.KernelSide.hostWqDown (m ((c : Thread nD τ).loc main_arg2)) := by
  show W14 m c main_v24 = _
  rw [W14_of_ne m c main_v24 (by decide), V13_v24]

/-- The result buffer, spelt over the three arguments. -/
theorem V16_v27_eq (c : Dev nD) :
    V16 m (outs m) c (Proc.devRef .tc main_v27)
      = shapeCast S4x2048x2048
          (O1 (H0 (shapeCast S8192x2048 (m ((c : Thread nD τ).loc main_arg0)) Facts₀.shapeCasts_S4x2048x2048_S8192x2048)
                (Cert.KernelSide.hostWqGate (m ((c : Thread nD τ).loc main_arg1))))
              (Cert.KernelSide.hostWqDown (m ((c : Thread nD τ).loc main_arg2))))
          Facts₀.shapeCasts_S8192x2048_S4x2048x2048 := by
  rw [V16_v27, V15_eq]
  show shapeCast S4x2048x2048 (W15 m c main_v26) _ = _
  rw [W15_v26, final1 (VE1 m) c, VE1_v25, VE1_v24]

end Cert.KernelIdeal.Hand

end
-- ==== Proof.LibBatch3.lean ====
/-
  Arrays with a batch axis, a row axis and a lane axis, read at an entry (b, r, l).

  * Merging the batch and row axes: an A×B×C array viewed as (A·B)×C holds at (b·B + r, l) what the array holds at
    (b, r, l), and the view back splits the merged row index the same way: both views keep the row-major position.
  * Broadcasts that repeat a per-batch row (A×1×C), a per-row column (A×B×1) or one shared row (1×1×C) over the
    whole A×B×C array, and a length-C vector viewed as a 1×1×C row.
  * The sum over the lane axis kept as a unit axis: an A×B×C array summed over its lanes and viewed as A×B×1 holds
    at (b, r, 0) the sum over l of the entries (b, r, l).
-/
import Idealize.ShloMosaic.PureOps.Ideal.Laws
import Idealize.ShloMosaic.Lib.ValueIdx
import Idealize.ShloMosaic.Lib.Pipeline.Value

noncomputable section

open scoped BigOperators

namespace Cert.Batch3

open Idealize.ShloMosaic Idealize.ShloMosaic.ValueIdx

variable {α : Type} {A B C : Nat}

/-- The merged view (A·B)×C of an A×B×C array at (q, l), where q = b·B + r, is the array at (b, r, l). -/
theorem merge_apply {n : Nat} (x : (⟨3, ![A, B, C]⟩ : Shape).Idx → α)
    (h : (⟨3, ![A, B, C]⟩ : Shape).ShapeCasts ⟨2, ![n, C]⟩) (b : Fin A) (r : Fin B) (l : Fin C) (q : Fin n)
    (hq : q.val = b.val * B + r.val) :
    shapeCast ⟨2, ![n, C]⟩ x h (ix2 q l) = x (ix3 b r l) := by
  refine shapeCast_apply x h (ix2 q l) (ix3 b r l) ?_
  rw [Shape.rowMajor_val_three, Shape.rowMajor_val_two]
  show (b.val * B + r.val) * C + l.val = q.val * C + l.val
  rw [hq]

/-- The split view A×B×C of an (A·B)×C array at (b, r, l) is the array at (q, l), where q = b·B + r. -/
theorem split_apply {n : Nat} (y : (⟨2, ![n, C]⟩ : Shape).Idx → α)
    (h : (⟨2, ![n, C]⟩ : Shape).ShapeCasts ⟨3, ![A, B, C]⟩) (b : Fin A) (r : Fin B) (l : Fin C) (q : Fin n)
    (hq : q.val = b.val * B + r.val) :
    shapeCast ⟨3, ![A, B, C]⟩ y h (ix3 b r l) = y (ix2 q l) := by
  refine shapeCast_apply y h (ix3 b r l) (ix2 q l) ?_
  rw [Shape.rowMajor_val_three, Shape.rowMajor_val_two]
  show q.val * C + l.val = (b.val * B + r.val) * C + l.val
  rw [hq]

/-- A per-batch row A×1×C repeated over the B rows: entry (b, r, l) is the row's (b, 0, l). -/
theorem bcast_row_apply (x : (⟨3, ![A, 1, C]⟩ : Shape).Idx → α)
    (h : (⟨3, ![A, 1, C]⟩ : Shape).Broadcasts ⟨3, ![A, B, C]⟩) (b : Fin A) (r : Fin B) (l : Fin C) :
    broadcastTo ⟨3, ![A, B, C]⟩ x h (ix3 b r l) = x (ix3 b 0 l) := by
  refine broadcastTo_apply x h (ix3 b r l) (ix3 b 0 l) (fun ax => ?_)
  match ax with
  | ⟨0, _⟩ =>
    show b.val = if A = 1 then 0 else b.val
    split_ifs with hA
    · have := b.isLt; omega
    · rfl
  | ⟨1, _⟩ => show 0 = if (1 : Nat) = 1 then 0 else r.val; rw [if_pos rfl]
  | ⟨2, _⟩ =>
    show l.val = if C = 1 then 0 else l.val
    split_ifs with hC
    · have := l.isLt; omega
    · rfl

/-- A per-row column A×B×1 repeated over the C lanes: entry (b, r, l) is the column's (b, r, 0). -/
theorem bcast_col_apply (x : (⟨3, ![A, B, 1]⟩ : Shape).Idx → α)
    (h : (⟨3, ![A, B, 1]⟩ : Shape).Broadcasts ⟨3, ![A, B, C]⟩) (b : Fin A) (r : Fin B) (l : Fin C) :
    broadcastTo ⟨3, ![A, B, C]⟩ x h (ix3 b r l) = x (ix3 b r 0) := by
  refine broadcastTo_apply x h (ix3 b r l) (ix3 b r 0) (fun ax => ?_)
  match ax with
  | ⟨0, _⟩ =>
    show b.val = if A = 1 then 0 else b.val
    split_ifs with hA
    · have := b.isLt; omega
    · rfl
  | ⟨1, _⟩ =>
    show r.val = if B = 1 then 0 else r.val
    split_ifs with hB
    · have := r.isLt; omega
    · rfl
  | ⟨2, _⟩ => show 0 = if (1 : Nat) = 1 then 0 else l.val; rw [if_pos rfl]

/-- One shared row 1×1×C repeated over every batch and row: entry (b, r, l) is the row's (0, 0, l). -/
theorem bcast_lane_apply (x : (⟨3, ![1, 1, C]⟩ : Shape).Idx → α)
    (h : (⟨3, ![1, 1, C]⟩ : Shape).Broadcasts ⟨3, ![A, B, C]⟩) (b : Fin A) (r : Fin B) (l : Fin C) :
    broadcastTo ⟨3, ![A, B, C]⟩ x h (ix3 b r l) = x (ix3 0 0 l) := by
  refine broadcastTo_apply x h (ix3 b r l) (ix3 0 0 l) (fun ax => ?_)
  match ax with
  | ⟨0, _⟩ => show 0 = if (1 : Nat) = 1 then 0 else b.val; rw [if_pos rfl]
  | ⟨1, _⟩ => show 0 = if (1 : Nat) = 1 then 0 else r.val; rw [if_pos rfl]
  | ⟨2, _⟩ =>
    show l.val = if C = 1 then 0 else l.val
    split_ifs with hC
    · have := l.isLt; omega
    · rfl

/-- A length-C vector viewed as a 1×1×C row: entry (0, 0, l) is the vector's entry l. -/
theorem vec_as_lane_apply (v : (⟨1, ![C]⟩ : Shape).Idx → α)
    (h : (⟨1, ![C]⟩ : Shape).ShapeCasts ⟨3, ![1, 1, C]⟩) (l : Fin C) :
    shapeCast ⟨3, ![1, 1, C]⟩ v h (ix3 0 0 l) = v (ix1 l) := by
  refine shapeCast_apply v h (ix3 0 0 l) (ix1 l) ?_
  rw [Shape.rowMajor_val_three, Shape.rowMajor_val_one]
  show l.val = (0 * 1 + 0) * C + l.val
  omega

/-- The reduced index (b, r) with lane l put back is (b, r, l). -/
theorem lift_lane (h : (⟨3, ![A, B, C]⟩ : Shape).Reduces [2] ⟨2, ![A, B]⟩) (b : Fin A) (r : Fin B)
    (l : Fin ((⟨3, ![A, B, C]⟩ : Shape).size 2)) : h.lift (ix2 b r) l = ix3 b r (⟨l.val, l.isLt⟩ : Fin C) := by
  funext c; apply Fin.ext
  fin_cases c <;> rfl

/-- The lane sum kept as a unit axis: an A×B×C array summed over its lanes and viewed as A×B×1 holds at
    (b, r, 0) the sum over l of the entries (b, r, l). -/
theorem lane_sum_keep_apply {φ : FTy} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.add.neutral φ hφ) (hc : (⟨2, ![A, B]⟩ : Shape).ShapeCasts ⟨3, ![A, B, 1]⟩)
    (b : Fin A) (r : Fin B) :
    shapeCast ⟨3, ![A, B, 1]⟩ (multiReduction .add [2] ⟨2, ![A, B]⟩ src acc h hφ hacc) hc (ix3 b r 0)
      = ∑ l : Fin C, src (ix3 b r l) := by
  rw [shapeCast_apply _ hc (ix3 b r 0) (ix2 b r) (by
    rw [Shape.rowMajor_val_three, Shape.rowMajor_val_two]
    show b.val * B + r.val = (b.val * B + r.val) * 1 + 0
    omega)]
  rw [Ideal.multiReduction_add_single]
  exact Finset.sum_congr rfl fun l _ => congrArg src (lift_lane h b r l)

end Cert.Batch3

end
-- ==== Proof.KiBridge.lean ====
/-
  The kernel's result is the specification.

  The program flattens the token array [4, 2048, 2048] to a matrix of 8192 token rows (row b·2048 + s is the row
  (b, s)), quantises both weight matrices, forms the hidden matrix and the projected matrix from them, and views
  the projected matrix [8192, 2048] as [4, 2048, 2048] again (entry (b, s, o) is entry (b·2048 + s, o)). Reading
  the result at (b, s, o): the token row is the row (b, s) of the argument, so its quantised form is the
  specification's `xrow`; rows j and j + 8192 of the quantised gate weights are the specification's `gw`, so the
  hidden row is the specification's `hidden` lane by lane; and row o of the quantised down weights is the
  specification's `dw`. The sums are then the same sums, term by term.
-/
import Idealize.ShloMosaic.Lib.ValueIdx
import Idealize.ShloMosaic.Lib.Pipeline.Value
import proofs.«143887_j14474039787742_1_alg».proof.Proof.Spec
import proofs.«143887_j14474039787742_1_alg».proof.Proof.LibBatch3
import proofs.«143887_j14474039787742_1_alg».proof.Proof.HostWMain
import proofs.«143887_j14474039787742_1_alg».proof.Proof.KiVal0
import proofs.«143887_j14474039787742_1_alg».proof.Proof.KiVal1

noncomputable section

open scoped BigOperators

namespace Cert.KernelSide

open Idealize.ShloMosaic Idealize.ShloMosaic.ValueIdx
open Cert.KernelIdeal Cert.KernelIdeal.Facts₀

variable [Cert.KernelIdeal.Facts]

/-- The hidden matrix at (r, j) is its entry function there. -/
theorem H0_ix2 (X : S8192x2048.Idx → Elt Ideal .f32) (Wg : S16384x2048.Idx → Elt Ideal .bf16) (r j : Fin 8192) :
    Cert.KernelIdeal.Hand.H0 X Wg (ix2 r j) = Cert.KernelIdeal.Hand.H0c X Wg r j := rfl

/-- The projected matrix at (r, o) is its entry function there. -/
theorem O1_ix2 (Hm : S8192x8192.Idx → Elt Ideal .bf16) (Wd : S2048x8192.Idx → Elt Ideal .bf16) (r : Fin 8192) (o : Fin 2048) :
    Cert.KernelIdeal.Hand.O1 Hm Wd (ix2 r o) = Cert.KernelIdeal.Hand.O1c Hm Wd r o := rfl

/-- Row b·2048 + s of the flattened token array is the row (b, s) of the array. -/
theorem tokenRow_eq (x : FVec Ideal S4x2048x2048 .f32) (b : Fin 4) (s : Fin 2048) (q : Fin 8192)
    (hq : q.val = b.val * 2048 + s.val) :
    (fun k : Fin 2048 => shapeCast S8192x2048 x shapeCasts_S4x2048x2048_S8192x2048 (ix2 q k))
      = fun k => x (ix3 b s k) :=
  funext fun k => Cert.Batch3.merge_apply x shapeCasts_S4x2048x2048_S8192x2048 b s k q hq

/-- The hidden matrix of the flattened tokens and the host-quantised gate weights, at row b·2048 + s and lane j,
    is the specification's hidden row (b, s) at lane j. -/
theorem hidden_eq (x : FVec Ideal S4x2048x2048 .f32) (wg : FVec Ideal S16384x2048 .f32) (b : Fin 4) (s : Fin 2048)
    (q : Fin 8192) (hq : q.val = b.val * 2048 + s.val) (j : Fin 8192) :
    Cert.KernelIdeal.Hand.H0c (shapeCast S8192x2048 x shapeCasts_S4x2048x2048_S8192x2048) (hostWqGate wg) q j
      = Cert.Spec.hidden x wg b s j := by
  have hw : ∀ r : Fin 16384,
      (fun k : Fin 2048 => Cert.Spec.actq (Cert.Spec.lit 0x45000000#32) (fun k => x (ix3 b s k)) k * hostWqGate wg (ix2 r k))
        = fun k => Cert.Spec.actq (Cert.Spec.lit 0x45000000#32) (fun k => x (ix3 b s k)) k
            * Cert.Spec.wq (Cert.Spec.lit 0x4C000000#32) wg (ix2 r k) :=
    fun r => funext fun k => by rw [hostWqGate_apply]
  unfold Cert.KernelIdeal.Hand.H0c Cert.Spec.hidden Cert.Spec.xrow Cert.Spec.gw
  rw [tokenRow_eq x b s q hq, hw (Cert.KernelIdeal.Hand.gateRow j), hw (Cert.KernelIdeal.Hand.valRow j)]
  rfl

/-- The kernel's result at (b, s, o) is the specification's. -/
theorem kernel_G (x : FVec Ideal S4x2048x2048 .f32) (wg : FVec Ideal S16384x2048 .f32) (wd : FVec Ideal S2048x8192 .f32)
    (b : Fin 4) (s o : Fin 2048) :
    shapeCast S4x2048x2048
        (Cert.KernelIdeal.Hand.O1
          (Cert.KernelIdeal.Hand.H0 (shapeCast S8192x2048 x shapeCasts_S4x2048x2048_S8192x2048) (hostWqGate wg))
          (hostWqDown wd))
        shapeCasts_S8192x2048_S4x2048x2048 (ix3 b s o)
      = Cert.Spec.G x wg wd b s o := by
  have hb : b.val < 4 := b.isLt
  have hs : s.val < 2048 := s.isLt
  have hrow : (fun j : Fin 8192 =>
        Cert.KernelIdeal.Hand.H0 (shapeCast S8192x2048 x shapeCasts_S4x2048x2048_S8192x2048) (hostWqGate wg)
          (ix2 (⟨b.val * 2048 + s.val, by omega⟩ : Fin 8192) j))
      = Cert.Spec.hidden x wg b s :=
    funext fun j => (H0_ix2 _ _ _ j).trans (hidden_eq x wg b s ⟨b.val * 2048 + s.val, by omega⟩ rfl j)
  refine (Cert.Batch3.split_apply _ shapeCasts_S8192x2048_S4x2048x2048 b s o
    (⟨b.val * 2048 + s.val, by omega⟩ : Fin 8192) rfl).trans ?_
  rw [O1_ix2]
  unfold Cert.KernelIdeal.Hand.O1c Cert.Spec.G Cert.Spec.dw
  rw [hrow]
  refine Finset.sum_congr rfl fun j _ => ?_
  rw [hostWqDown_apply]

/-- The kernel's result, as a whole array, is the specification read at each index's coordinates. -/
theorem kernel_G_fun (x : FVec Ideal S4x2048x2048 .f32) (wg : FVec Ideal S16384x2048 .f32) (wd : FVec Ideal S2048x8192 .f32) :
    shapeCast S4x2048x2048
        (Cert.KernelIdeal.Hand.O1
          (Cert.KernelIdeal.Hand.H0 (shapeCast S8192x2048 x shapeCasts_S4x2048x2048_S8192x2048) (hostWqGate wg))
          (hostWqDown wd))
        shapeCasts_S8192x2048_S4x2048x2048
      = fun i => Cert.Spec.G x wg wd (i 0) (i 1) (i 2) :=
  funext fun i => (congrArg (shapeCast S4x2048x2048
        (Cert.KernelIdeal.Hand.O1
          (Cert.KernelIdeal.Hand.H0 (shapeCast S8192x2048 x shapeCasts_S4x2048x2048_S8192x2048) (hostWqGate wg))
          (hostWqDown wd))
        shapeCasts_S8192x2048_S4x2048x2048) (eq_ix3 i)).trans (kernel_G x wg wd (i 0) (i 1) (i 2))

end Cert.KernelSide

end
-- ==== Proof.FinInputs.lean ====
/-
  From the precondition to the finiteness of every input entry.

  The precondition tests each of the three arrays entry by entry — is the magnitude of the entry below the f32
  word of +∞? —, folds each array's answers by `and` from 1, and takes the `and` of the three results. If
  the whole is 1 then each fold is 1, so every answer is 1, so every magnitude is below +∞ in the extended reals;
  and an extended real whose magnitude max x (-x) is below +∞ is neither infinity, hence a real number.
-/
import Idealize.ShloMosaic.Lib.ReduceAll
import Idealize.ShloMosaic.Lib.IdealHost
import Idealize.ShloMosaic.Lib.ValueIdx
import Idealize.ShloMosaic.PureOps.Ideal.Laws
import proofs.«143887_j14474039787742_1_alg».proof.Pre_finite_inputs

noncomputable section

namespace Cert.KernelSide

open Idealize.ShloMosaic Idealize.ShloMosaic.ValueIdx

/-- The f32 word of +∞ denotes the top of the extended reals. -/
theorem inf_f32 : Ideal.ofBits .f32 0x7F800000#32 = ⊤ := by simp [Ideal.ofBits, Ideal.ieee]

/-- An extended real whose magnitude is below +∞ is a real number. -/
theorem real_of_mag_lt_top (x : EReal) (h : max x (-x) < ⊤) : ∃ r : ℝ, x = (r : EReal) := by
  induction x using EReal.rec with
  | bot => exact absurd h (by simp)
  | coe r => exact ⟨r, rfl⟩
  | top => exact absurd h (by simp)

/-- One array's test at an entry: if "magnitude < the word of +∞" answers 1 there, the entry is a real. -/
theorem real_of_test {S : Shape} (x : FVec Ideal S .f32)
    (hb : (⟨0, ![]⟩ : Shape).BroadcastsInDim S (![] : Fin 0 → Fin S.rank)) (i : S.Idx)
    (h : cmpf .olt (Host.absf x) (broadcastInDim S ![] hb (constant (F := Ideal) ⟨0, ![]⟩ .f32 0x7F800000#32)) i = 1#1) :
    ∃ r : ℝ, x i = (r : EReal) := by
  refine real_of_mag_lt_top (x i) ?_
  have hc : Ideal.cmp .olt (max (x i) (-(x i))) (Ideal.ofBits .f32 0x7F800000#32) = 1#1 := by
    have e : broadcastInDim S ![] hb (constant (F := Ideal) ⟨0, ![]⟩ .f32 0x7F800000#32) i
        = Ideal.ofBits .f32 0x7F800000#32 := broadcastInDim_scalar_apply hb _ i
    rw [← e]; exact h
  rw [inf_f32] at hc
  by_contra hn
  have : Ideal.cmp .olt (max (x i) (-(x i))) ⊤ = 0#1 := by
    unfold Ideal.cmp; simp [hn]
  rw [this] at hc
  exact absurd hc (by decide)

/-- Under the precondition every entry of each of the three input arrays is a real number. -/
theorem finite_of_pre [Cert.Pre_finite_inputs.Facts]
    (x : FVec Ideal Cert.Pre_finite_inputs.S4x2048x2048 .f32) (wg : FVec Ideal Cert.Pre_finite_inputs.S16384x2048 .f32)
    (wd : FVec Ideal Cert.Pre_finite_inputs.S2048x8192 .f32)
    (h : Cert.Pre_finite_inputs.fn (F := Ideal) x wg wd = fun _ => 1#1) :
    (∀ i, ∃ r : ℝ, x i = (r : EReal)) ∧ (∀ i, ∃ r : ℝ, wg i = (r : EReal)) ∧ (∀ i, ∃ r : ℝ, wd i = (r : EReal)) := by
  have h0 := congrFun h ix0
  dsimp only [Cert.Pre_finite_inputs.fn] at h0
  obtain ⟨h01, h2⟩ := IntOp.andi_eq_one.1 h0
  obtain ⟨h00, h1⟩ := IntOp.andi_eq_one.1 h01
  haveI : Subsingleton Cert.Pre_finite_inputs.S_.Idx := ⟨fun a b => funext fun d => d.elim0⟩
  exact ⟨fun i => real_of_test x _ i (Host.reduce_andi_all _ _ _ _ ix0 h00 i),
    fun i => real_of_test wg _ i (Host.reduce_andi_all _ _ _ _ ix0 h1 i),
    fun i => real_of_test wd _ i (Host.reduce_andi_all _ _ _ _ ix0 h2 i)⟩

end Cert.KernelSide

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.RefReal.lean ====
/-
  Finiteness of the specification's quantities.

  The extended reals have the two infinities, and the identity y + (q - y) = q, by which one program writes a
  quantised value q next to the unquantised y, holds exactly when y is a real number.  This module follows
  realness through the specification: a row of reals has a real sum of squares; divided by a positive real and
  raised by a positive constant it is positive, so its reciprocal root is a positive real and the normalised row is
  real; the largest magnitude of a real row is a real or, for an empty row, -∞, and the floor makes it a positive
  real either way; a value clamped between two reals is real; the mean magnitude of a real matrix is real and the
  floor makes it positive.  Hence quantised rows, quantised weights, their contractions and the logistic of a
  contraction are all real.  The float words that occur are evaluated here once.
-/
import proofs.«143887_j14474039787742_1_alg».proof.Proof.Spec
import proofs.«143887_j14474039787742_1_alg».proof.Proof.LibRealSums

noncomputable section

open scoped BigOperators

namespace Cert.RefSide

open Idealize.ShloMosaic Idealize.ShloMosaic.ValueIdx Cert.Spec Cert.ScaledSum

/-- An extended real that is a real number. -/
def IsReal (x : EReal) : Prop := ∃ r : ℝ, x = (r : EReal)

/-- An extended real that is a positive real number. -/
def IsPos (x : EReal) : Prop := ∃ c : ℝ, 0 < c ∧ x = (c : EReal)

theorem IsPos.isReal {x : EReal} (h : IsPos x) : IsReal x := by
  obtain ⟨c, _, e⟩ := h; exact ⟨c, e⟩

/-! ### The float words -/

theorem lit_zero : lit 0x00000000#32 = 0 := by simp [Ideal.ofBits, Ideal.ieee]
theorem lit_neginf : lit 0xFF800000#32 = ⊥ := by simp [Ideal.ofBits, Ideal.ieee]
theorem lit_127 : lit 0x42FE0000#32 = ((127 : ℝ) : EReal) := by
  simp [Ideal.ofBits, Ideal.ieee, -EReal.coe_mul]; norm_num
theorem lit_m128 : lit 0xC3000000#32 = ((-128 : ℝ) : EReal) := by
  simp [Ideal.ofBits, Ideal.ieee, -EReal.coe_mul]; norm_num
theorem lit_one : lit 0x3F800000#32 = ((1 : ℝ) : EReal) := by
  simp [Ideal.ofBits, Ideal.ieee, -EReal.coe_mul]; norm_num
theorem lit_mone : lit 0xBF800000#32 = ((-1 : ℝ) : EReal) := by
  simp [Ideal.ofBits, Ideal.ieee, -EReal.coe_mul]; norm_num

/-- 1e-8, the constant under the root. -/
theorem lit_eps_pos : IsPos (lit 0x322BCC77#32) := by
  refine ⟨_, ?_, by simp [Ideal.ofBits, Ideal.ieee, -EReal.coe_mul]; rfl⟩
  positivity
/-- 1e-5, the floor of both scales. -/
theorem lit_floor_pos : IsPos (lit 0x3727C5AC#32) := by
  refine ⟨_, ?_, by simp [Ideal.ofBits, Ideal.ieee, -EReal.coe_mul]; rfl⟩
  positivity
/-- 2048, the length of an input row. -/
theorem lit_2048_pos : IsPos (lit 0x45000000#32) := by
  refine ⟨_, ?_, by simp [Ideal.ofBits, Ideal.ieee, -EReal.coe_mul]; rfl⟩
  positivity
/-- 8192, the length of a hidden row. -/
theorem lit_8192_pos : IsPos (lit 0x46000000#32) := by
  refine ⟨_, ?_, by simp [Ideal.ofBits, Ideal.ieee, -EReal.coe_mul]; rfl⟩
  positivity
/-- 2^25, the number of gate weights. -/
theorem lit_gcount_pos : IsPos (lit 0x4C000000#32) := by
  refine ⟨_, ?_, by simp [Ideal.ofBits, Ideal.ieee, -EReal.coe_mul]; rfl⟩
  positivity
/-- 2^24, the number of down weights. -/
theorem lit_dcount_pos : IsPos (lit 0x4B800000#32) := by
  refine ⟨_, ?_, by simp [Ideal.ofBits, Ideal.ieee, -EReal.coe_mul]; rfl⟩
  positivity

/-- The 32-bit integers -128, 127, -1, 1 as floats are the words the specification clamps with. -/
theorem int_m128 : (((4294967168#32 : BitVec 32).toInt : ℝ) : EReal) = lit 0xC3000000#32 := by
  rw [lit_m128, show (4294967168#32 : BitVec 32).toInt = -128 from by decide]; norm_num
theorem int_127 : (((127#32 : BitVec 32).toInt : ℝ) : EReal) = lit 0x42FE0000#32 := by
  rw [lit_127, show (127#32 : BitVec 32).toInt = 127 from by decide]; norm_num
theorem int_mone : (((4294967295#32 : BitVec 32).toInt : ℝ) : EReal) = lit 0xBF800000#32 := by
  rw [lit_mone, show (4294967295#32 : BitVec 32).toInt = -1 from by decide]; norm_num
theorem int_one : (((1#32 : BitVec 32).toInt : ℝ) : EReal) = lit 0x3F800000#32 := by
  rw [lit_one, show (1#32 : BitVec 32).toInt = 1 from by decide]; norm_num

/-! ### Closure of the reals under the operations used -/

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (hf : ∀ k, IsReal (f k)) : IsReal (∑ k ∈ s, f k) :=
  exists_real_sum s f hf

theorem mag_real {x : EReal} (hx : IsReal x) : IsReal (mag x) := by
  obtain ⟨a, rfl⟩ := hx
  exact ⟨max a (-a), by rw [coe_max, EReal.coe_neg]⟩

/-- The straight-through form: a real y added to q - y is q, for every extended real q. -/
theorem ste {y : EReal} (q : EReal) (hy : IsReal y) : y + (q - y) = q := by
  obtain ⟨r, rfl⟩ := hy
  induction q using EReal.rec with
  | bot => rw [EReal.bot_sub, EReal.add_bot]
  | coe a => exact add_sub_cancel_real r a
  | top => rw [EReal.top_sub_coe, EReal.coe_add_top]

theorem div_real_pos {x y : EReal} (hx : IsReal x) (hy : IsPos y) : IsReal (Ideal.div x y) := by
  obtain ⟨a, rfl⟩ := hx; obtain ⟨c, hc, rfl⟩ := hy
  rw [Ideal.div_coe hc.ne']; exact ⟨a * (1 / c), (EReal.coe_mul _ _).symm⟩

theorem div_pos_pos {x y : EReal} (hx : IsPos x) (hy : IsPos y) : IsPos (Ideal.div x y) := by
  obtain ⟨a, ha, rfl⟩ := hx; obtain ⟨c, hc, rfl⟩ := hy
  rw [Ideal.div_coe hc.ne']; exact ⟨a * (1 / c), by positivity, (EReal.coe_mul _ _).symm⟩

/-- A value clamped between two reals is a real. -/
theorem clamp_real (lo hi : ℝ) (h : lo ≤ hi) (z : EReal) : IsReal (min (hi : EReal) (max (lo : EReal) z)) :=
  real_of_between lo hi _ (le_min (EReal.coe_le_coe_iff.2 h) (le_max_left _ _)) (min_le_left _ _)

/-- The largest of finitely many reals, folded from -∞, is -∞ (no terms) or a real. -/
theorem fold_max_bot_or_real {ι : Type*} (s : Finset ι) (f : ι → EReal) (hf : ∀ k, IsReal (f k)) :
    s.fold max ⊥ f = ⊥ ∨ IsReal (s.fold max ⊥ f) := by
  classical
  induction s using Finset.induction_on with
  | empty => left; exact Finset.fold_empty
  | insert a s ha ih =>
    right; rw [Finset.fold_insert ha]
    obtain ⟨x, hx⟩ := hf a
    rcases ih with h | ⟨y, hy⟩
    · rw [h, hx]; exact ⟨x, max_bot_right _⟩
    · rw [hy, hx]; exact ⟨max x y, (coe_max x y).symm⟩

/-! ### A row's quantisation -/

section Row
variable {n : ℕ} {d : EReal} (hd : IsPos d) (r : Fin n → EReal) (hr : ∀ k, IsReal (r k))
include hd hr

theorem rms_pos : IsPos (rms d r) := by
  choose g hg using hr
  have eS : (∑ k, r k * r k) = ((∑ k, g k * g k : ℝ) : EReal) := by
    rw [← coe_sum]; exact Finset.sum_congr rfl fun k _ => by rw [hg k, EReal.coe_mul]
  have hS : 0 ≤ ∑ k, g k * g k := Finset.sum_nonneg fun k _ => mul_self_nonneg _
  obtain ⟨c, hc, rfl⟩ := hd
  obtain ⟨e, he, ee⟩ := lit_eps_pos
  unfold rms
  rw [eS, Ideal.div_coe hc.ne', ee, ← EReal.coe_mul, ← EReal.coe_add, Ideal.rsqrt_coe]
  have ht : 0 < (∑ k, g k * g k) * (1 / c) + e := by positivity
  rw [if_neg (not_lt.2 ht.le), if_neg ht.ne']
  exact ⟨_, by positivity, rfl⟩

theorem normed_real (k : Fin n) : IsReal (normed d r k) := (hr k).mul (rms_pos hd r hr).isReal

theorem floor_amax_pos : IsPos (max (lit 0x3727C5AC#32) (amax d r)) := by
  obtain ⟨c, hc, ec⟩ := lit_floor_pos
  unfold amax; rw [lit_neginf, ec]
  rcases fold_max_bot_or_real Finset.univ (fun k => mag (normed d r k))
      (fun k => mag_real (normed_real hd r hr k)) with h | ⟨y, hy⟩
  · rw [h, max_bot_right]; exact ⟨c, hc, rfl⟩
  · rw [hy, ← coe_max]; exact ⟨max c y, lt_max_of_lt_left hc, rfl⟩

theorem ascale_pos : IsPos (ascale d r) := by
  unfold ascale; rw [lit_127]
  exact div_pos_pos ⟨127, by norm_num, rfl⟩ (floor_amax_pos hd r hr)

theorem actq_real (k : Fin n) : IsReal (actq d r k) := by
  unfold actq; rw [lit_127, lit_m128]
  exact div_real_pos (clamp_real (-128) 127 (by norm_num) _) (ascale_pos hd r hr)

/-- The straight-through form of the quantised row is the quantised row. -/
theorem ste_actq (k : Fin n) : normed d r k + (actq d r k - normed d r k) = actq d r k :=
  ste _ (normed_real hd r hr k)

end Row

/-! ### A weight matrix's quantisation -/

section Weights
variable {S : Shape} {cnt : EReal} (hc : IsPos cnt) (w : S.Idx → EReal) (hw : ∀ i, IsReal (w i))
include hc hw

theorem wscale_pos : IsPos (wscale cnt w) := by
  obtain ⟨T, hT⟩ := exists_real_sum Finset.univ (fun i => mag (w i)) (fun i => mag_real (hw i))
  obtain ⟨f, hf, ef⟩ := lit_floor_pos
  obtain ⟨a, ea⟩ := div_real_pos (x := lit 0x00000000#32 + ∑ i, mag (w i))
    (by rw [lit_zero, zero_add]; exact ⟨T, hT⟩) hc
  unfold wscale; rw [ea, ef, ← coe_max, lit_one]
  exact div_pos_pos ⟨1, one_pos, rfl⟩ ⟨max f a, lt_max_of_lt_left hf, rfl⟩

theorem wq_real (i : S.Idx) : IsReal (wq cnt w i) := by
  unfold wq; rw [lit_one, lit_mone]
  exact div_real_pos (clamp_real (-1) 1 (by norm_num) _) (wscale_pos hc w hw)

/-- The straight-through form of the quantised weight is the quantised weight. -/
theorem ste_wq (i : S.Idx) : w i + (wq cnt w i - w i) = wq cnt w i := ste _ (hw i)

end Weights

/-! ### The layers -/

theorem logistic_real {z : EReal} (hz : IsReal z) : IsReal (Ideal.logistic z) := by
  obtain ⟨a, rfl⟩ := hz; exact ⟨_, Ideal.logistic_coe a⟩

theorem dot_real {n : ℕ} (f g : Fin n → EReal) (hf : ∀ k, IsReal (f k)) (hg : ∀ k, IsReal (g k)) :
    IsReal (∑ k, f k * g k) := isReal_sum _ _ fun k => (hf k).mul (hg k)

section Layers
variable (x : SX.Idx → EReal) (wg : SG.Idx → EReal) (hx : ∀ i, IsReal (x i)) (hg : ∀ i, IsReal (wg i))

include hx in
theorem xrow_real (b : Fin 4) (s : Fin 2048) (k : Fin 2048) : IsReal (xrow x b s k) :=
  actq_real lit_2048_pos _ (fun k => hx (ix3 b s k)) k

include hg in
theorem gw_real (j : Fin 16384) (k : Fin 2048) : IsReal (gw wg j k) := wq_real lit_gcount_pos wg hg _

include hx hg in
theorem hidden_real (b : Fin 4) (s : Fin 2048) (j : Fin 8192) : IsReal (Spec.hidden x wg b s j) := by
  unfold Spec.hidden
  have h1 : ∀ j', IsReal (∑ k : Fin 2048, xrow x b s k * gw wg j' k) := fun j' =>
    dot_real _ _ (xrow_real x hx b s) (gw_real wg hg j')
  exact ((h1 _).mul (logistic_real (h1 _))).mul (h1 _)

end Layers

end Cert.RefSide

end
-- ==== Proof.RefRowMax.lean ====
/-
  The host's maximum over the lane axis of a batch × row × lane array, read at a row.

  A one-operand reduction with a commutative, associative body over one axis is, at a reduced index, the fold of
  the body from the initial value over that axis's coordinates; with the lane axis dropped the reduced index (b, r)
  with lane l put back is (b, r, l).  So the row's entry is the fold of max, from the initial value, over the
  row's lanes.
-/
import proofs.«143887_j14474039787742_1_alg».proof.Proof.LibBatch3
import Idealize.ShloMosaic.PureOps.Reduce

noncomputable section

namespace Cert.RefSide

open Idealize.ShloMosaic Idealize.ShloMosaic.ValueIdx

theorem hostLaneMax_apply {A B C : ℕ} {u : Shape} (y : (⟨3, ![A, B, C]⟩ : Shape).Idx → EReal) (init : u.Idx → EReal)
    (h' : (⟨3, ![A, B, C]⟩ : Shape).ReducesTo [2] ⟨2, ![A, B]⟩) (h : (⟨3, ![A, B, C]⟩ : Shape).Reduces [2] ⟨2, ![A, B]⟩)
    (hu : 0 < u.numel) (b : Fin A) (r : Fin B) :
    Host.reduce (FloatOps.maximumf (F := Ideal) (φ := .f32)) y init h' hu (ix2 b r)
      = (Finset.univ : Finset (Fin C)).fold max (init (Shape.Idx.first hu)) (fun l => y (ix3 b r l)) := by
  rw [Host.reduce_eq_fold_single (FloatOps.maximumf (F := Ideal) (φ := .f32)) y init h' h hu]
  have hf : (y ∘ h.lift (ix2 b r)) = fun l : Fin C => y (ix3 b r l) :=
    funext fun l => congrArg y (Cert.Batch3.lift_lane h b r l)
  exact congrArg (fun f => Finset.fold max (init (Shape.Idx.first hu)) f (Finset.univ : Finset (Fin C))) hf

end Cert.RefSide

end
-- ==== Proof.RefAct1.lean ====
/-
  The first layer's quantised input row, read off the reference one operation at a time.

  For the input row (b, s): the sum of squares over the lanes (the host's sum starts from the zero word), divided
  by the row length and raised by the small constant, under the reciprocal root, is the row's normalising factor;
  the row times it is the normalised row; the host's maximum of the magnitudes from -∞ is the row's largest
  magnitude; 127 over it (floored) is the scale; the rounded product, clamped by the integers -128 and 127 turned
  into floats, over the scale is the quantised row; and the normalised row plus (quantised - normalised) is the
  quantised row because the normalised row is real.
-/
import proofs.«143887_j14474039787742_1_alg».proof.Proof.RefReadP
import proofs.«143887_j14474039787742_1_alg».proof.Proof.RefReal
import proofs.«143887_j14474039787742_1_alg».proof.Proof.RefRowMax

noncomputable section

open scoped BigOperators

namespace Cert.RefSide

open Cert.ReferenceIdeal Cert.ReferenceIdeal.Gen Cert.ReferenceIdeal.ReadP Idealize.ShloMosaic Idealize.ShloMosaic.ValueIdx Cert.Spec

section
variable (x0 : (⟨S4x2048x2048, .f32⟩ : BufTy).Contents (Elt Ideal)) (b : Fin 4) (s : Fin 2048)

/-- The sum of squares of the row. -/
theorem v1_at : val_main_v1 (F := Ideal) x0 (ix2 b s) = ∑ k : Fin 2048, x0 (ix3 b s k) * x0 (ix3 b s k) := by
  have e : ∀ k : Fin 2048, idx_main_v1 (ix2 b s) k = ix3 b s k := fun k => funext fun a => Fin.ext (by match a with | ⟨0, _⟩ => rfl | ⟨1, _⟩ => rfl | ⟨2, _⟩ => rfl)
  rw [val_main_v1_apply]
  simp only [e, val_main_v0_apply, val_main_cst_apply, Ideal.mulf_def, Ideal.ofBits_def, Ideal.ofBits_zero_f32, zero_add]

/-- The normalising factor of the row. -/
theorem v7_at : val_main_v7 (F := Ideal) x0 (ix3 b s (0 : Fin 1)) = rms (lit 0x45000000#32) (fun k => x0 (ix3 b s k)) := by
  have e : idx_main_v2 (ix3 b s (0 : Fin 1)) = ix2 b s := funext fun a => Fin.ext (by match a with | ⟨0, _⟩ => rfl | ⟨1, _⟩ => rfl)
  rw [val_main_v7_apply, val_main_v6_apply, val_main_v4_apply, val_main_v2_apply, e, v1_at, val_main_v3_apply,
    val_main_cst_0_apply, val_main_v5_apply, val_main_cst_1_apply]
  rfl

/-- The normalised row. -/
theorem v9_at (k : Fin 2048) :
    val_main_v9 (F := Ideal) x0 (ix3 b s k) = normed (lit 0x45000000#32) (fun k => x0 (ix3 b s k)) k := by
  have e : idx_main_v8 (ix3 b s k) = ix3 b s (0 : Fin 1) := funext fun a => Fin.ext (by match a with | ⟨0, _⟩ => rfl | ⟨1, _⟩ => rfl | ⟨2, _⟩ => rfl)
  rw [val_main_v9_apply, val_main_v8_apply, e, v7_at]
  rfl

/-- The largest magnitude of the normalised row. -/
theorem v11_at : val_main_v11 (F := Ideal) x0 (ix2 b s) = amax (lit 0x45000000#32) (fun k => x0 (ix3 b s k)) := by
  unfold val_main_v11
  rw [hostLaneMax_apply (val_main_v10 (F := Ideal) x0) (val_main_cst_2 (F := Ideal)) reducesTo_S4x2048x2048_S4x2048_d2
    (by decide) h_S_ b s]
  simp only [val_main_v10_apply, v9_at, val_main_cst_2_apply]
  rfl

/-- The row's scale. -/
theorem v15_at : val_main_v15 (F := Ideal) x0 (ix3 b s (0 : Fin 1)) = ascale (lit 0x45000000#32) (fun k => x0 (ix3 b s k)) := by
  have e : idx_main_v12 (ix3 b s (0 : Fin 1)) = ix2 b s := funext fun a => Fin.ext (by match a with | ⟨0, _⟩ => rfl | ⟨1, _⟩ => rfl)
  rw [val_main_v15_apply, val_main_v14_apply, val_main_cst_4_apply, val_main_v13_apply, val_main_call0_v1_apply,
    val_main_call0_v0_apply, val_main_cst_3_apply, val_main_v12_apply, e, v11_at]
  rfl

/-- The quantised row as the reference computes it: the clamp's bounds are integers turned into floats. -/
theorem v21_at (k : Fin 2048) :
    val_main_v21 (F := Ideal) x0 (ix3 b s k) = actq (lit 0x45000000#32) (fun k => x0 (ix3 b s k)) k := by
  have e16 : idx_main_v16 (ix3 b s k) = ix3 b s (0 : Fin 1) := funext fun a => Fin.ext (by match a with | ⟨0, _⟩ => rfl | ⟨1, _⟩ => rfl | ⟨2, _⟩ => rfl)
  have e20 : idx_main_v20 (ix3 b s k) = ix3 b s (0 : Fin 1) := funext fun a => Fin.ext (by match a with | ⟨0, _⟩ => rfl | ⟨1, _⟩ => rfl | ⟨2, _⟩ => rfl)
  have hi : FloatOps.sitofp (F := Ideal) .f32 (127#32 : BitVec 32) = lit 0x42FE0000#32 := int_127
  have lo : FloatOps.sitofp (F := Ideal) .f32 (4294967168#32 : BitVec 32) = lit 0xC3000000#32 := int_m128
  rw [val_main_v21_apply, val_main_v19_apply, val_main_call2_v4_apply, val_main_call2_v3_apply, val_main_c_5_apply,
    val_main_call2_v2_apply, val_main_call2_v1_apply, val_main_call2_v0_apply, val_main_c_apply, val_main_v18_apply,
    val_main_v17_apply, v9_at, val_main_v16_apply, e16, v15_at, val_main_v20_apply, e20, v15_at, hi, lo]
  rfl

variable (hx : ∀ i, IsReal (x0 i))
include hx

/-- The straight-through row is the specification's quantised input row. -/
theorem v23_at (k : Fin 2048) : val_main_v23 (F := Ideal) x0 (ix3 b s k) = xrow x0 b s k := by
  rw [val_main_v23_apply, val_main_v22_apply, v21_at, v9_at]
  exact ste_actq lit_2048_pos _ (fun k => hx (ix3 b s k)) k

end

end Cert.RefSide

end
-- ==== Proof.RefWeights.lean ====
/-
  The two quantised weight matrices, read off the reference one operation at a time.

  The sum of the magnitudes of all entries (the host's sum starts from the zero word) over their number is the mean
  magnitude; one over it (floored) is the scale, one number for the whole matrix; an entry times the scale,
  rounded, clamped by the integers -1 and 1 turned into floats, over the scale is the quantised entry; and the
  entry plus (quantised - entry) is the quantised entry because the entry is real.
-/
import proofs.«143887_j14474039787742_1_alg».proof.Proof.RefReadP
import proofs.«143887_j14474039787742_1_alg».proof.Proof.RefReal

noncomputable section

open scoped BigOperators

namespace Cert.RefSide

open Cert.ReferenceIdeal Cert.ReferenceIdeal.Gen Cert.ReferenceIdeal.ReadP Idealize.ShloMosaic Idealize.ShloMosaic.ValueIdx Cert.Spec

section
variable (x1 : (⟨S16384x2048, .f32⟩ : BufTy).Contents (Elt Ideal))

/-- The gate weights' scale: one over the floored mean magnitude. -/
theorem v28_at (i : S_.Idx) : val_main_v28 (F := Ideal) x1 i = wscale (lit 0x4C000000#32) x1 := by
  rw [val_main_v28_apply, val_main_cst_9_apply, val_main_v27_apply, val_main_call3_v0_apply, val_main_cst_8_apply,
    val_main_v26_apply, val_main_v25_apply, val_main_cst_6_apply, val_main_cst_7_apply]
  rfl

/-- The quantised gate weights as the reference computes them: the clamp's bounds are integers turned into floats. -/
theorem v34_at (i : S16384x2048.Idx) : val_main_v34 (F := Ideal) x1 i = wq (lit 0x4C000000#32) x1 i := by
  have hi : FloatOps.sitofp (F := Ideal) .f32 (1#32 : BitVec 32) = lit 0x3F800000#32 := int_one
  have lo : FloatOps.sitofp (F := Ideal) .f32 (4294967295#32 : BitVec 32) = lit 0xBF800000#32 := int_mone
  rw [val_main_v34_apply, val_main_v32_apply, val_main_call5_v4_apply, val_main_call5_v3_apply, val_main_c_11_apply,
    val_main_call5_v2_apply, val_main_call5_v1_apply, val_main_call5_v0_apply, val_main_c_10_apply, val_main_v31_apply,
    val_main_v30_apply, val_main_v29_apply, v28_at, val_main_v33_apply, v28_at, hi, lo]
  rfl

variable (hw : ∀ i, IsReal (x1 i))
include hw

/-- The straight-through gate weights are the specification's quantised weights. -/
theorem v36_at (i : S16384x2048.Idx) : val_main_v36 (F := Ideal) x1 i = wq (lit 0x4C000000#32) x1 i := by
  rw [val_main_v36_apply, val_main_v35_apply, v34_at]
  exact ste_wq lit_gcount_pos x1 hw i

end

section
variable (x2 : (⟨S2048x8192, .f32⟩ : BufTy).Contents (Elt Ideal))

/-- The down weights' scale: one over the floored mean magnitude. -/
theorem v70_at (i : S_.Idx) : val_main_v70 (F := Ideal) x2 i = wscale (lit 0x4B800000#32) x2 := by
  rw [val_main_v70_apply, val_main_cst_23_apply, val_main_v69_apply, val_main_call10_v0_apply, val_main_cst_22_apply,
    val_main_v68_apply, val_main_v67_apply, val_main_cst_20_apply, val_main_cst_21_apply]
  rfl

/-- The quantised down weights as the reference computes them: the clamp's bounds are integers turned into floats. -/
theorem v76_at (i : S2048x8192.Idx) : val_main_v76 (F := Ideal) x2 i = wq (lit 0x4B800000#32) x2 i := by
  have hi : FloatOps.sitofp (F := Ideal) .f32 (1#32 : BitVec 32) = lit 0x3F800000#32 := int_one
  have lo : FloatOps.sitofp (F := Ideal) .f32 (4294967295#32 : BitVec 32) = lit 0xBF800000#32 := int_mone
  rw [val_main_v76_apply, val_main_v74_apply, val_main_call12_v4_apply, val_main_call12_v3_apply, val_main_c_25_apply,
    val_main_call12_v2_apply, val_main_call12_v1_apply, val_main_call12_v0_apply, val_main_c_24_apply, val_main_v73_apply,
    val_main_v72_apply, val_main_v71_apply, v70_at, val_main_v75_apply, v70_at, hi, lo]
  rfl

variable (hw : ∀ i, IsReal (x2 i))
include hw

/-- The straight-through down weights are the specification's quantised weights. -/
theorem v78_at (i : S2048x8192.Idx) : val_main_v78 (F := Ideal) x2 i = wq (lit 0x4B800000#32) x2 i := by
  rw [val_main_v78_apply, val_main_v77_apply, v76_at]
  exact ste_wq lit_dcount_pos x2 hw i

end

end Cert.RefSide

end
-- ==== Proof.LibSigmoid.lean ====
/-
  GENERAL LEMMAS: the sigmoid on the extended reals.

  A host program spells σ(z) as the quotient 1 / (1 + exp (−z)), with the constant 1.0 given by its f32 bit pattern;
  a kernel applies the one logistic operation. On the extended reals the two are the same function at every
  argument, the infinities included (σ(−∞) = 0, σ(+∞) = 1), because the logistic function is defined there as that
  quotient. Nothing here depends on a shape or a program.
-/
import Idealize.ShloMosaic.PureOps.Ideal

noncomputable section

namespace Cert.Lib.Sigmoid

open Idealize.ShloMosaic

/-- The f32 bit pattern of `1.0` denotes the real number one. -/
theorem one_f32 : Ideal.ofBits .f32 0x3F800000#32 = 1 := by
  simp [Ideal.ofBits, Ideal.ieee, -EReal.coe_mul]; norm_num

/-- The host's spelling of the sigmoid — one over one plus the exponential of the negated argument, each constant
    one the pattern of `1.0` — is the logistic function, at the infinities too. -/
theorem hostSigmoid_eq (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [one_f32]; rfl

/-- The kernel's logistic operation and the host's logistic operation are that same function. -/
theorem logistic_eq (z : EReal) :
    FloatOps.logistic (F := Ideal) (φ := .f32) z = Ideal.logistic z
      ∧ FloatOps.hostUnary (F := Ideal) (φ := .f32) .logistic z = Ideal.logistic z := ⟨rfl, rfl⟩

end Cert.Lib.Sigmoid

end
-- ==== Proof.RefHidden.lean ====
/-
  The hidden row, read off the reference.

  The first contraction pairs lane k of the (straight-through) quantised input row (b, s) with lane k of row j of
  the (straight-through) quantised gate weights: entry (b, s, j) of the 16384-wide product is the sum over k of
  the two.  The gate half is lanes 0 … 8191 of the product and the value half lanes 8192 … 16383, so lane j of the
  halves reads rows j and j + 8192 of the weights.  The reference spells the logistic function as
  1 / (1 + exp (-g)); the hidden entry is (g * logistic g) * v.
-/
import proofs.«143887_j14474039787742_1_alg».proof.Proof.RefAct1
import proofs.«143887_j14474039787742_1_alg».proof.Proof.RefWeights
import proofs.«143887_j14474039787742_1_alg».proof.Proof.LibSigmoid

noncomputable section

open scoped BigOperators

namespace Cert.RefSide

open Cert.ReferenceIdeal Cert.ReferenceIdeal.Gen Cert.ReferenceIdeal.ReadP Idealize.ShloMosaic Idealize.ShloMosaic.ValueIdx Cert.Spec

section
variable (x0 : (⟨S4x2048x2048, .f32⟩ : BufTy).Contents (Elt Ideal)) (x1 : (⟨S16384x2048, .f32⟩ : BufTy).Contents (Elt Ideal))
  (hx : ∀ i, IsReal (x0 i)) (hg : ∀ i, IsReal (x1 i)) (b : Fin 4) (s : Fin 2048)
include hx hg

/-- The first contraction at (b, s, j): the quantised input row against row j of the quantised gate weights. -/
theorem v37_at (j : Fin 16384) :
    val_main_v37 (F := Ideal) x0 x1 (ix3 b s j) = ∑ k : Fin 2048, xrow x0 b s k * gw x1 j k := by
  have el : ∀ k : Fin 2048, lidx_main_v37 (ix3 b s j) k = ix3 b s k := fun k => funext fun a => Fin.ext (by match a with | ⟨0, _⟩ => rfl | ⟨1, _⟩ => rfl | ⟨2, _⟩ => rfl)
  have er : ∀ k : Fin 2048, ridx_main_v37 (ix3 b s j) k = ix2 j k := fun k => funext fun a => Fin.ext (by match a with | ⟨0, _⟩ => rfl | ⟨1, _⟩ => rfl)
  rw [val_main_v37_apply]
  refine Finset.sum_congr rfl fun k _ => ?_
  rw [el, er, v23_at x0 b s hx, v36_at x1 hg]
  rfl

/-- The hidden entry (b, s, j). -/
theorem v41_at (j : Fin 8192) : val_main_v41 (F := Ideal) x0 x1 (ix3 b s j) = Spec.hidden x0 x1 b s j := by
  have e38 : idx_main_v38 (ix3 b s j) = ix3 b s (⟨j.val, by have := j.isLt; omega⟩ : Fin 16384) :=
    funext fun a => Fin.ext (by match a with | ⟨0, _⟩ => rfl | ⟨1, _⟩ => rfl | ⟨2, _⟩ => rfl)
  have e39 : idx_main_v39 (ix3 b s j) = ix3 b s (⟨j.val + 8192, by have := j.isLt; omega⟩ : Fin 16384) :=
    funext fun a => Fin.ext (by match a with | ⟨0, _⟩ => rfl | ⟨1, _⟩ => rfl | ⟨2, _⟩ => exact Nat.add_comm _ _)
  rw [val_main_v41_apply, val_main_v40_apply, val_main_call6_v5_apply, val_main_call6_v4_apply, val_main_call6_cst_0_apply,
    val_main_call6_v3_apply, val_main_call6_v2_apply, val_main_call6_cst_apply, val_main_call6_v1_apply,
    val_main_call6_v0_apply, val_main_v38_apply, e38, val_main_v39_apply, e39, v37_at x0 x1 hx hg b s,
    v37_at x0 x1 hx hg b s, Ideal.ofBits_def, Cert.Lib.Sigmoid.hostSigmoid_eq]
  rfl

/-- The hidden row is real. -/
theorem v41_real (j : Fin 8192) : IsReal (val_main_v41 (F := Ideal) x0 x1 (ix3 b s j)) := by
  rw [v41_at x0 x1 hx hg b s j]; exact hidden_real x0 x1 hx hg b s j

end

end Cert.RefSide

end
-- ==== Proof.RefAct2.lean ====
/-
  The second layer's quantised hidden row, read off the reference one operation at a time.

  The hidden row (b, s) — whatever the first layer left there, as long as it is real — goes through the same steps
  as an input row, over 8192 lanes: sum of squares, normalising factor, normalised row, largest magnitude, scale,
  rounding and clamping, and the straight-through form, which is the quantised row because the normalised row is
  real.
-/
import proofs.«143887_j14474039787742_1_alg».proof.Proof.RefReadP
import proofs.«143887_j14474039787742_1_alg».proof.Proof.RefReal
import proofs.«143887_j14474039787742_1_alg».proof.Proof.RefRowMax

noncomputable section

open scoped BigOperators

namespace Cert.RefSide

open Cert.ReferenceIdeal Cert.ReferenceIdeal.Gen Cert.ReferenceIdeal.ReadP Idealize.ShloMosaic Idealize.ShloMosaic.ValueIdx Cert.Spec

section
variable (x0 : (⟨S4x2048x2048, .f32⟩ : BufTy).Contents (Elt Ideal)) (x1 : (⟨S16384x2048, .f32⟩ : BufTy).Contents (Elt Ideal))
  (b : Fin 4) (s : Fin 2048)

/-- The sum of squares of the row. -/
theorem v43_at : val_main_v43 (F := Ideal) x0 x1 (ix2 b s) = ∑ k : Fin 8192, val_main_v41 (F := Ideal) x0 x1 (ix3 b s k) * val_main_v41 (F := Ideal) x0 x1 (ix3 b s k) := by
  have e : ∀ k : Fin 8192, idx_main_v43 (ix2 b s) k = ix3 b s k := fun k => funext fun a => Fin.ext (by match a with | ⟨0, _⟩ => rfl | ⟨1, _⟩ => rfl | ⟨2, _⟩ => rfl)
  rw [val_main_v43_apply]
  simp only [e, val_main_v42_apply, val_main_cst_12_apply, Ideal.mulf_def, Ideal.ofBits_def, Ideal.ofBits_zero_f32, zero_add]

/-- The normalising factor of the row. -/
theorem v49_at : val_main_v49 (F := Ideal) x0 x1 (ix3 b s (0 : Fin 1)) = rms (lit 0x46000000#32) (fun k => val_main_v41 (F := Ideal) x0 x1 (ix3 b s k)) := by
  have e : idx_main_v44 (ix3 b s (0 : Fin 1)) = ix2 b s := funext fun a => Fin.ext (by match a with | ⟨0, _⟩ => rfl | ⟨1, _⟩ => rfl)
  rw [val_main_v49_apply, val_main_v48_apply, val_main_v46_apply, val_main_v44_apply, e, v43_at, val_main_v45_apply,
    val_main_cst_13_apply, val_main_v47_apply, val_main_cst_14_apply]
  rfl

/-- The normalised row. -/
theorem v51_at (k : Fin 8192) :
    val_main_v51 (F := Ideal) x0 x1 (ix3 b s k) = normed (lit 0x46000000#32) (fun k => val_main_v41 (F := Ideal) x0 x1 (ix3 b s k)) k := by
  have e : idx_main_v50 (ix3 b s k) = ix3 b s (0 : Fin 1) := funext fun a => Fin.ext (by match a with | ⟨0, _⟩ => rfl | ⟨1, _⟩ => rfl | ⟨2, _⟩ => rfl)
  rw [val_main_v51_apply, val_main_v50_apply, e, v49_at]
  rfl

/-- The largest magnitude of the normalised row. -/
theorem v53_at : val_main_v53 (F := Ideal) x0 x1 (ix2 b s) = amax (lit 0x46000000#32) (fun k => val_main_v41 (F := Ideal) x0 x1 (ix3 b s k)) := by
  unfold val_main_v53
  rw [hostLaneMax_apply (val_main_v52 (F := Ideal) x0 x1) (val_main_cst_15 (F := Ideal)) reducesTo_S4x2048x8192_S4x2048_d2
    (by decide) h_S_ b s]
  simp only [val_main_v52_apply, v51_at, val_main_cst_15_apply]
  rfl

/-- The row's scale. -/
theorem v57_at : val_main_v57 (F := Ideal) x0 x1 (ix3 b s (0 : Fin 1)) = ascale (lit 0x46000000#32) (fun k => val_main_v41 (F := Ideal) x0 x1 (ix3 b s k)) := by
  have e : idx_main_v54 (ix3 b s (0 : Fin 1)) = ix2 b s := funext fun a => Fin.ext (by match a with | ⟨0, _⟩ => rfl | ⟨1, _⟩ => rfl)
  rw [val_main_v57_apply, val_main_v56_apply, val_main_cst_17_apply, val_main_v55_apply, val_main_call7_v1_apply,
    val_main_call7_v0_apply, val_main_cst_16_apply, val_main_v54_apply, e, v53_at]
  rfl

/-- The quantised row as the reference computes it: the clamp's bounds are integers turned into floats. -/
theorem v63_at (k : Fin 8192) :
    val_main_v63 (F := Ideal) x0 x1 (ix3 b s k) = actq (lit 0x46000000#32) (fun k => val_main_v41 (F := Ideal) x0 x1 (ix3 b s k)) k := by
  have e16 : idx_main_v58 (ix3 b s k) = ix3 b s (0 : Fin 1) := funext fun a => Fin.ext (by match a with | ⟨0, _⟩ => rfl | ⟨1, _⟩ => rfl | ⟨2, _⟩ => rfl)
  have e20 : idx_main_v62 (ix3 b s k) = ix3 b s (0 : Fin 1) := funext fun a => Fin.ext (by match a with | ⟨0, _⟩ => rfl | ⟨1, _⟩ => rfl | ⟨2, _⟩ => rfl)
  have hi : FloatOps.sitofp (F := Ideal) .f32 (127#32 : BitVec 32) = lit 0x42FE0000#32 := int_127
  have lo : FloatOps.sitofp (F := Ideal) .f32 (4294967168#32 : BitVec 32) = lit 0xC3000000#32 := int_m128
  rw [val_main_v63_apply, val_main_v61_apply, val_main_call9_v4_apply, val_main_call9_v3_apply, val_main_c_19_apply,
    val_main_call9_v2_apply, val_main_call9_v1_apply, val_main_call9_v0_apply, val_main_c_18_apply, val_main_v60_apply,
    val_main_v59_apply, v51_at, val_main_v58_apply, e16, v57_at, val_main_v62_apply, e20, v57_at, hi, lo]
  rfl

variable (hh : ∀ k : Fin 8192, IsReal (val_main_v41 (F := Ideal) x0 x1 (ix3 b s k)))
include hh

/-- The straight-through hidden row is the quantised hidden row. -/
theorem v65_at (k : Fin 8192) :
    val_main_v65 (F := Ideal) x0 x1 (ix3 b s k)
      = actq (lit 0x46000000#32) (fun k => val_main_v41 (F := Ideal) x0 x1 (ix3 b s k)) k := by
  rw [val_main_v65_apply, val_main_v64_apply, v63_at, v51_at]
  exact ste_actq lit_8192_pos _ hh k

end

end Cert.RefSide

end
-- ==== Proof.RefEq.lean ====
/-
  The reference computes the specification.

  The last contraction pairs lane j of the (straight-through) quantised hidden row (b, s) with lane j of row o of
  the (straight-through) quantised down weights.  With every argument entry real, each straight-through value is
  the quantised value, the hidden row is the specification's, and the result at (b, s, o) is the specification's
  sum; as a whole array the result is the specification read at each index's three coordinates.
-/
import proofs.«143887_j14474039787742_1_alg».proof.Proof.RefHidden
import proofs.«143887_j14474039787742_1_alg».proof.Proof.RefAct2

noncomputable section

open scoped BigOperators

namespace Cert.RefSide

open Cert.ReferenceIdeal Cert.ReferenceIdeal.Gen Cert.ReferenceIdeal.ReadP Idealize.ShloMosaic Idealize.ShloMosaic.ValueIdx Cert.Spec

section
variable (x0 : (⟨S4x2048x2048, .f32⟩ : BufTy).Contents (Elt Ideal)) (x1 : (⟨S16384x2048, .f32⟩ : BufTy).Contents (Elt Ideal))
  (x2 : (⟨S2048x8192, .f32⟩ : BufTy).Contents (Elt Ideal))
  (hx : ∀ i, ∃ r : ℝ, x0 i = (r : EReal)) (hg : ∀ i, ∃ r : ℝ, x1 i = (r : EReal)) (hd : ∀ i, ∃ r : ℝ, x2 i = (r : EReal))
include hx hg hd

/-- The reference's result at (b, s, o) is the specification's. -/
theorem ref_eq (b : Fin 4) (s : Fin 2048) (o : Fin 2048) :
    val_main_v79 (F := Ideal) x0 x1 x2 (ix3 b s o) = Spec.G x0 x1 x2 b s o := by
  have el : ∀ k : Fin 8192, lidx_main_v79 (ix3 b s o) k = ix3 b s k := fun k => funext fun a => Fin.ext (by match a with | ⟨0, _⟩ => rfl | ⟨1, _⟩ => rfl | ⟨2, _⟩ => rfl)
  have er : ∀ k : Fin 8192, ridx_main_v79 (ix3 b s o) k = ix2 o k := fun k => funext fun a => Fin.ext (by match a with | ⟨0, _⟩ => rfl | ⟨1, _⟩ => rfl)
  have hrow : (fun k : Fin 8192 => val_main_v41 (F := Ideal) x0 x1 (ix3 b s k)) = Spec.hidden x0 x1 b s :=
    funext fun k => v41_at x0 x1 hx hg b s k
  rw [val_main_v79_apply]
  unfold Spec.G
  refine Finset.sum_congr rfl fun j _ => ?_
  rw [el, er, v65_at x0 x1 b s (v41_real x0 x1 hx hg b s), v78_at x2 hd, hrow]
  rfl

/-- The reference's result, as a whole array, is the specification read at each index's coordinates. -/
theorem ref_eq_fun :
    val_main_v79 (F := Ideal) x0 x1 x2 = fun i => Spec.G x0 x1 x2 (i 0) (i 1) (i 2) :=
  funext fun i => (congrArg (val_main_v79 (F := Ideal) x0 x1 x2) (eq_ix3 i)).trans (ref_eq x0 x1 x2 hx hg hd (i 0) (i 1) (i 2))

end

end Cert.RefSide

end
-- ==== Proof.RefRunH.lean ====
/-
  The reference's run, read back stage by stage.

  The reference's @main is a straight line of 142 host operations, so every weakly fair execution of it ends with
  each buffer at the fold of the operations' results over the launch contents.  Written out as one term of the
  three arguments that fold is very large, because a value read by several later operations is repeated at each
  use.  Here it is never written out: the line is cut into twelve consecutive stretches, the contents after a
  concatenation are the contents after the second stretch from those after the first, and for each stretch a
  lemma over ARBITRARY starting contents says: if the few buffers the stretch reads hold the named stages (the
  functions `val_main_vN` of the arguments), then its last buffer holds the next named stage and the buffers still
  needed are untouched.  Chaining the twelve gives the result buffer as the last stage, `val_main_v79`, of the
  launch contents of the three argument buffers.
-/
import proofs.«143887_j14474039787742_1_alg».proof.Proof.Gen.ReferenceIdeal
import Idealize.ShloMosaic.Lib.StableHlo.Run
import proofs.«143887_j14474039787742_1_alg».proof.Proof.RefReadP

noncomputable section

namespace Cert.RefSide

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 142 operations, in order (the operations of an outlined function stand in its call's place, written
    with the plain builders at the value types the call site carries). -/
abbrev ops : List (HloOp τ sig (Elt F)) :=
  [ binary main_arg0 main_arg0 main_v0 (mulf : (⟨S4x2048x2048, .f32⟩ : BufTy).Contents (Elt F) → (⟨S4x2048x2048, .f32⟩ : BufTy).Contents (Elt F) → (⟨S4x2048x2048, .f32⟩ : BufTy).Contents (Elt F)),
    nullary main_cst (constant S_ .f32 0x00000000#32),
    binary main_v0 main_cst main_v1 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x45000000#32),
    unary main_cst_0 main_v3 (broadcastInDim S4x2048x1 ![] bcast_S_S4x2048x1 : (⟨S_, .f32⟩ : BufTy).Contents (Elt F) → (⟨S4x2048x1, .f32⟩ : BufTy).Contents (Elt F)),
    binary main_v2 main_v3 main_v4 (Host.divf : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x322BCC77#32),
    unary main_cst_1 main_v5 (broadcastInDim S4x2048x1 ![] bcast_S_S4x2048x1 : (⟨S_, .f32⟩ : BufTy).Contents (Elt F) → (⟨S4x2048x1, .f32⟩ : BufTy).Contents (Elt F)),
    binary main_v4 main_v5 main_v6 (addf : (⟨S4x2048x1, .f32⟩ : BufTy).Contents (Elt F) → (⟨S4x2048x1, .f32⟩ : BufTy).Contents (Elt F) → (⟨S4x2048x1, .f32⟩ : BufTy).Contents (Elt F)),
    unary main_v6 main_v7 (Host.rsqrt : (⟨S4x2048x1, .f32⟩ : BufTy).Contents (Elt F) → (⟨S4x2048x1, .f32⟩ : BufTy).Contents (Elt F)),
    unary main_v7 main_v8 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v8 main_v9 (mulf : (⟨S4x2048x2048, .f32⟩ : BufTy).Contents (Elt F) → (⟨S4x2048x2048, .f32⟩ : BufTy).Contents (Elt F) → (⟨S4x2048x2048, .f32⟩ : BufTy).Contents (Elt F)),
    unary main_v9 main_v10 (Host.absf : (⟨S4x2048x2048, .f32⟩ : BufTy).Contents (Elt F) → (⟨S4x2048x2048, .f32⟩ : BufTy).Contents (Elt F)),
    nullary main_cst_2 (constant S_ .f32 0xFF800000#32),
    binary main_v10 main_cst_2 main_v11 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v11 main_v12 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x3727C5AC#32),
    unary main_cst_3 main_call0_v0 (id : (⟨S_, .f32⟩ : BufTy).Contents (Elt F) → (⟨S_, .f32⟩ : BufTy).Contents (Elt F)),
    unary main_call0_v0 main_call0_v1 ((broadcastInDim S4x2048x1 ![] bcast_S_S4x2048x1) : (⟨S_, .f32⟩ : BufTy).Contents (Elt F) → (⟨S4x2048x1, .f32⟩ : BufTy).Contents (Elt F)),
    binary main_call0_v1 main_v12 main_v13 (maximumf : (⟨S4x2048x1, .f32⟩ : BufTy).Contents (Elt F) → (⟨S4x2048x1, .f32⟩ : BufTy).Contents (Elt F) → (⟨S4x2048x1, .f32⟩ : BufTy).Contents (Elt F)),
    nullary main_cst_4 (constant S_ .f32 0x42FE0000#32),
    unary main_cst_4 main_v14 (broadcastInDim S4x2048x1 ![] bcast_S_S4x2048x1 : (⟨S_, .f32⟩ : BufTy).Contents (Elt F) → (⟨S4x2048x1, .f32⟩ : BufTy).Contents (Elt F)),
    binary main_v14 main_v13 main_v15 (Host.divf : (⟨S4x2048x1, .f32⟩ : BufTy).Contents (Elt F) → (⟨S4x2048x1, .f32⟩ : BufTy).Contents (Elt F) → (⟨S4x2048x1, .f32⟩ : BufTy).Contents (Elt F)),
    unary main_v15 main_v16 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v16 main_v17 (mulf : (⟨S4x2048x2048, .f32⟩ : BufTy).Contents (Elt F) → (⟨S4x2048x2048, .f32⟩ : BufTy).Contents (Elt F) → (⟨S4x2048x2048, .f32⟩ : BufTy).Contents (Elt F)),
    unary main_v17 main_v18 (Host.roundeven : (⟨S4x2048x2048, .f32⟩ : BufTy).Contents (Elt F) → (⟨S4x2048x2048, .f32⟩ : BufTy).Contents (Elt F)),
    nullary main_c (constantI S_ 32 4294967168#32),
    nullary main_c_5 (constantI S_ 32 127#32),
    unary main_c main_call2_v0 ((sitofp .f32) : (⟨S_, .i32⟩ : BufTy).Contents (Elt F) → (⟨S_, .f32⟩ : BufTy).Contents (Elt F)),
    unary main_call2_v0 main_call2_v1 ((broadcastInDim S4x2048x2048 ![] bcast_S_S4x2048x2048) : (⟨S_, .f32⟩ : BufTy).Contents (Elt F) → (⟨S4x2048x2048, .f32⟩ : BufTy).Contents (Elt F)),
    binary main_call2_v1 main_v18 main_call2_v2 (maximumf : (⟨S4x2048x2048, .f32⟩ : BufTy).Contents (Elt F) → (⟨S4x2048x2048, .f32⟩ : BufTy).Contents (Elt F) → (⟨S4x2048x2048, .f32⟩ : BufTy).Contents (Elt F)),
    unary main_c_5 main_call2_v3 ((sitofp .f32) : (⟨S_, .i32⟩ : BufTy).Contents (Elt F) → (⟨S_, .f32⟩ : BufTy).Contents (Elt F)),
    unary main_call2_v3 main_call2_v4 ((broadcastInDim S4x2048x2048 ![] bcast_S_S4x2048x2048) : (⟨S_, .f32⟩ : BufTy).Contents (Elt F) → (⟨S4x2048x2048, .f32⟩ : BufTy).Contents (Elt F)),
    binary main_call2_v4 main_call2_v2 main_v19 (minimumf : (⟨S4x2048x2048, .f32⟩ : BufTy).Contents (Elt F) → (⟨S4x2048x2048, .f32⟩ : BufTy).Contents (Elt F) → (⟨S4x2048x2048, .f32⟩ : BufTy).Contents (Elt F)),
    unary main_v15 main_v20 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v19 main_v20 main_v21 (Host.divf : (⟨S4x2048x2048, .f32⟩ : BufTy).Contents (Elt F) → (⟨S4x2048x2048, .f32⟩ : BufTy).Contents (Elt F) → (⟨S4x2048x2048, .f32⟩ : BufTy).Contents (Elt F)),
    binary main_v21 main_v9 main_v22 (subf : (⟨S4x2048x2048, .f32⟩ : BufTy).Contents (Elt F) → (⟨S4x2048x2048, .f32⟩ : BufTy).Contents (Elt F) → (⟨S4x2048x2048, .f32⟩ : BufTy).Contents (Elt F)),
    binary main_v9 main_v22 main_v23 (addf : (⟨S4x2048x2048, .f32⟩ : BufTy).Contents (Elt F) → (⟨S4x2048x2048, .f32⟩ : BufTy).Contents (Elt F) → (⟨S4x2048x2048, .f32⟩ : BufTy).Contents (Elt F)),
    unary main_arg1 main_v24 (Host.absf : (⟨S16384x2048, .f32⟩ : BufTy).Contents (Elt F) → (⟨S16384x2048, .f32⟩ : BufTy).Contents (Elt F)),
    nullary main_cst_6 (constant S_ .f32 0x00000000#32),
    binary main_v24 main_cst_6 main_v25 ((fun x v => Host.reduceAdd x v reducesTo_S16384x2048_S_d0_1 h_S_) : (⟨S16384x2048, .f32⟩ : BufTy).Contents (Elt F) → (⟨S_, .f32⟩ : BufTy).Contents (Elt F) → (⟨S_, .f32⟩ : BufTy).Contents (Elt F)),
    nullary main_cst_7 (constant S_ .f32 0x4C000000#32),
    binary main_v25 main_cst_7 main_v26 (Host.divf : (⟨S_, .f32⟩ : BufTy).Contents (Elt F) → (⟨S_, .f32⟩ : BufTy).Contents (Elt F) → (⟨S_, .f32⟩ : BufTy).Contents (Elt F)),
    nullary main_cst_8 (constant S_ .f32 0x3727C5AC#32),
    unary main_cst_8 main_call3_v0 (id : (⟨S_, .f32⟩ : BufTy).Contents (Elt F) → (⟨S_, .f32⟩ : BufTy).Contents (Elt F)),
    binary main_call3_v0 main_v26 main_v27 (maximumf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_cst_9 main_v27 main_v28 (Host.divf : (⟨S_, .f32⟩ : BufTy).Contents (Elt F) → (⟨S_, .f32⟩ : BufTy).Contents (Elt F) → (⟨S_, .f32⟩ : BufTy).Contents (Elt F)),
    unary main_v28 main_v29 (broadcastInDim S16384x2048 ![] bcast_S_S16384x2048 : (⟨S_, .f32⟩ : BufTy).Contents (Elt F) → (⟨S16384x2048, .f32⟩ : BufTy).Contents (Elt F)),
    binary main_arg1 main_v29 main_v30 (mulf : (⟨S16384x2048, .f32⟩ : BufTy).Contents (Elt F) → (⟨S16384x2048, .f32⟩ : BufTy).Contents (Elt F) → (⟨S16384x2048, .f32⟩ : BufTy).Contents (Elt F)),
    unary main_v30 main_v31 (Host.roundeven : (⟨S16384x2048, .f32⟩ : BufTy).Contents (Elt F) → (⟨S16384x2048, .f32⟩ : BufTy).Contents (Elt F)),
    nullary main_c_10 (constantI S_ 32 4294967295#32),
    nullary main_c_11 (constantI S_ 32 1#32),
    unary main_c_10 main_call5_v0 ((sitofp .f32) : (⟨S_, .i32⟩ : BufTy).Contents (Elt F) → (⟨S_, .f32⟩ : BufTy).Contents (Elt F)),
    unary main_call5_v0 main_call5_v1 ((broadcastInDim S16384x2048 ![] bcast_S_S16384x2048) : (⟨S_, .f32⟩ : BufTy).Contents (Elt F) → (⟨S16384x2048, .f32⟩ : BufTy).Contents (Elt F)),
    binary main_call5_v1 main_v31 main_call5_v2 (maximumf : (⟨S16384x2048, .f32⟩ : BufTy).Contents (Elt F) → (⟨S16384x2048, .f32⟩ : BufTy).Contents (Elt F) → (⟨S16384x2048, .f32⟩ : BufTy).Contents (Elt F)),
    unary main_c_11 main_call5_v3 ((sitofp .f32) : (⟨S_, .i32⟩ : BufTy).Contents (Elt F) → (⟨S_, .f32⟩ : BufTy).Contents (Elt F)),
    unary main_call5_v3 main_call5_v4 ((broadcastInDim S16384x2048 ![] bcast_S_S16384x2048) : (⟨S_, .f32⟩ : BufTy).Contents (Elt F) → (⟨S16384x2048, .f32⟩ : BufTy).Contents (Elt F)),
    binary main_call5_v4 main_call5_v2 main_v32 (minimumf : (⟨S16384x2048, .f32⟩ : BufTy).Contents (Elt F) → (⟨S16384x2048, .f32⟩ : BufTy).Contents (Elt F) → (⟨S16384x2048, .f32⟩ : BufTy).Contents (Elt F)),
    unary main_v28 main_v33 (broadcastInDim S16384x2048 ![] bcast_S_S16384x2048 : (⟨S_, .f32⟩ : BufTy).Contents (Elt F) → (⟨S16384x2048, .f32⟩ : BufTy).Contents (Elt F)),
    binary main_v32 main_v33 main_v34 (Host.divf : (⟨S16384x2048, .f32⟩ : BufTy).Contents (Elt F) → (⟨S16384x2048, .f32⟩ : BufTy).Contents (Elt F) → (⟨S16384x2048, .f32⟩ : BufTy).Contents (Elt F)),
    binary main_v34 main_arg1 main_v35 (subf : (⟨S16384x2048, .f32⟩ : BufTy).Contents (Elt F) → (⟨S16384x2048, .f32⟩ : BufTy).Contents (Elt F) → (⟨S16384x2048, .f32⟩ : BufTy).Contents (Elt F)),
    binary main_arg1 main_v35 main_v36 (addf : (⟨S16384x2048, .f32⟩ : BufTy).Contents (Elt F) → (⟨S16384x2048, .f32⟩ : BufTy).Contents (Elt F) → (⟨S16384x2048, .f32⟩ : BufTy).Contents (Elt F)),
    binary main_v23 main_v36 main_v37 ((fun l r => Host.dotGeneral dot_S4x2048x2048_S16384x2048_S4x2048x16384_2_1_01_0_n_n none l r) : (⟨S4x2048x2048, .f32⟩ : BufTy).Contents (Elt F) → (⟨S16384x2048, .f32⟩ : BufTy).Contents (Elt F) → (⟨S4x2048x16384, .f32⟩ : BufTy).Contents (Elt F)),
    unary main_v37 main_v38 ((extractStridedSlice S4x2048x8192 ![0, 0, 0] · slices_S4x2048x16384_S4x2048x8192_0_0_0) : (⟨S4x2048x16384, .f32⟩ : BufTy).Contents (Elt F) → (⟨S4x2048x8192, .f32⟩ : BufTy).Contents (Elt F)),
    unary main_v37 main_v39 ((extractStridedSlice S4x2048x8192 ![0, 0, 8192] · slices_S4x2048x16384_S4x2048x8192_0_0_8192) : (⟨S4x2048x16384, .f32⟩ : BufTy).Contents (Elt F) → (⟨S4x2048x8192, .f32⟩ : BufTy).Contents (Elt F)),
    unary main_v38 main_call6_v0 (Host.negf : (⟨S4x2048x8192, .f32⟩ : BufTy).Contents (Elt F) → (⟨S4x2048x8192, .f32⟩ : BufTy).Contents (Elt F)),
    unary main_call6_v0 main_call6_v1 (Host.exp : (⟨S4x2048x8192, .f32⟩ : BufTy).Contents (Elt F) → (⟨S4x2048x8192, .f32⟩ : BufTy).Contents (Elt F)),
    nullary main_call6_cst ((constant S_ .f32 0x3F800000#32) : (⟨S_, .f32⟩ : BufTy).Contents (Elt F)),
    unary main_call6_cst main_call6_v2 ((broadcastInDim S4x2048x8192 ![] bcast_S_S4x2048x8192) : (⟨S_, .f32⟩ : BufTy).Contents (Elt F) → (⟨S4x2048x8192, .f32⟩ : BufTy).Contents (Elt F)),
    binary main_call6_v2 main_call6_v1 main_call6_v3 (addf : (⟨S4x2048x8192, .f32⟩ : BufTy).Contents (Elt F) → (⟨S4x2048x8192, .f32⟩ : BufTy).Contents (Elt F) → (⟨S4x2048x8192, .f32⟩ : BufTy).Contents (Elt F)),
    nullary main_call6_cst_0 ((constant S_ .f32 0x3F800000#32) : (⟨S_, .f32⟩ : BufTy).Contents (Elt F)),
    unary main_call6_cst_0 main_call6_v4 ((broadcastInDim S4x2048x8192 ![] bcast_S_S4x2048x8192) : (⟨S_, .f32⟩ : BufTy).Contents (Elt F) → (⟨S4x2048x8192, .f32⟩ : BufTy).Contents (Elt F)),
    binary main_call6_v4 main_call6_v3 main_call6_v5 (Host.divf : (⟨S4x2048x8192, .f32⟩ : BufTy).Contents (Elt F) → (⟨S4x2048x8192, .f32⟩ : BufTy).Contents (Elt F) → (⟨S4x2048x8192, .f32⟩ : BufTy).Contents (Elt F)),
    binary main_v38 main_call6_v5 main_v40 (mulf : (⟨S4x2048x8192, .f32⟩ : BufTy).Contents (Elt F) → (⟨S4x2048x8192, .f32⟩ : BufTy).Contents (Elt F) → (⟨S4x2048x8192, .f32⟩ : BufTy).Contents (Elt F)),
    binary main_v40 main_v39 main_v41 (mulf : (⟨S4x2048x8192, .f32⟩ : BufTy).Contents (Elt F) → (⟨S4x2048x8192, .f32⟩ : BufTy).Contents (Elt F) → (⟨S4x2048x8192, .f32⟩ : BufTy).Contents (Elt F)),
    binary main_v41 main_v41 main_v42 (mulf : (⟨S4x2048x8192, .f32⟩ : BufTy).Contents (Elt F) → (⟨S4x2048x8192, .f32⟩ : BufTy).Contents (Elt F) → (⟨S4x2048x8192, .f32⟩ : BufTy).Contents (Elt F)),
    nullary main_cst_12 (constant S_ .f32 0x00000000#32),
    binary main_v42 main_cst_12 main_v43 ((fun x v => Host.reduceAdd x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v43 main_v44 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_13 (constant S_ .f32 0x46000000#32),
    unary main_cst_13 main_v45 (broadcastInDim S4x2048x1 ![] bcast_S_S4x2048x1 : (⟨S_, .f32⟩ : BufTy).Contents (Elt F) → (⟨S4x2048x1, .f32⟩ : BufTy).Contents (Elt F)),
    binary main_v44 main_v45 main_v46 (Host.divf : (⟨S4x2048x1, .f32⟩ : BufTy).Contents (Elt F) → (⟨S4x2048x1, .f32⟩ : BufTy).Contents (Elt F) → (⟨S4x2048x1, .f32⟩ : BufTy).Contents (Elt F)),
    nullary main_cst_14 (constant S_ .f32 0x322BCC77#32),
    unary main_cst_14 main_v47 (broadcastInDim S4x2048x1 ![] bcast_S_S4x2048x1 : (⟨S_, .f32⟩ : BufTy).Contents (Elt F) → (⟨S4x2048x1, .f32⟩ : BufTy).Contents (Elt F)),
    binary main_v46 main_v47 main_v48 (addf : (⟨S4x2048x1, .f32⟩ : BufTy).Contents (Elt F) → (⟨S4x2048x1, .f32⟩ : BufTy).Contents (Elt F) → (⟨S4x2048x1, .f32⟩ : BufTy).Contents (Elt F)),
    unary main_v48 main_v49 (Host.rsqrt : (⟨S4x2048x1, .f32⟩ : BufTy).Contents (Elt F) → (⟨S4x2048x1, .f32⟩ : BufTy).Contents (Elt F)),
    unary main_v49 main_v50 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v41 main_v50 main_v51 (mulf : (⟨S4x2048x8192, .f32⟩ : BufTy).Contents (Elt F) → (⟨S4x2048x8192, .f32⟩ : BufTy).Contents (Elt F) → (⟨S4x2048x8192, .f32⟩ : BufTy).Contents (Elt F)),
    unary main_v51 main_v52 (Host.absf : (⟨S4x2048x8192, .f32⟩ : BufTy).Contents (Elt F) → (⟨S4x2048x8192, .f32⟩ : BufTy).Contents (Elt F)),
    nullary main_cst_15 (constant S_ .f32 0xFF800000#32),
    binary main_v52 main_cst_15 main_v53 ((fun x v => Host.reduce FloatOps.maximumf x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v53 main_v54 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_16 (constant S_ .f32 0x3727C5AC#32),
    unary main_cst_16 main_call7_v0 (id : (⟨S_, .f32⟩ : BufTy).Contents (Elt F) → (⟨S_, .f32⟩ : BufTy).Contents (Elt F)),
    unary main_call7_v0 main_call7_v1 ((broadcastInDim S4x2048x1 ![] bcast_S_S4x2048x1) : (⟨S_, .f32⟩ : BufTy).Contents (Elt F) → (⟨S4x2048x1, .f32⟩ : BufTy).Contents (Elt F)),
    binary main_call7_v1 main_v54 main_v55 (maximumf : (⟨S4x2048x1, .f32⟩ : BufTy).Contents (Elt F) → (⟨S4x2048x1, .f32⟩ : BufTy).Contents (Elt F) → (⟨S4x2048x1, .f32⟩ : BufTy).Contents (Elt F)),
    nullary main_cst_17 (constant S_ .f32 0x42FE0000#32),
    unary main_cst_17 main_v56 (broadcastInDim S4x2048x1 ![] bcast_S_S4x2048x1 : (⟨S_, .f32⟩ : BufTy).Contents (Elt F) → (⟨S4x2048x1, .f32⟩ : BufTy).Contents (Elt F)),
    binary main_v56 main_v55 main_v57 (Host.divf : (⟨S4x2048x1, .f32⟩ : BufTy).Contents (Elt F) → (⟨S4x2048x1, .f32⟩ : BufTy).Contents (Elt F) → (⟨S4x2048x1, .f32⟩ : BufTy).Contents (Elt F)),
    unary main_v57 main_v58 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v51 main_v58 main_v59 (mulf : (⟨S4x2048x8192, .f32⟩ : BufTy).Contents (Elt F) → (⟨S4x2048x8192, .f32⟩ : BufTy).Contents (Elt F) → (⟨S4x2048x8192, .f32⟩ : BufTy).Contents (Elt F)),
    unary main_v59 main_v60 (Host.roundeven : (⟨S4x2048x8192, .f32⟩ : BufTy).Contents (Elt F) → (⟨S4x2048x8192, .f32⟩ : BufTy).Contents (Elt F)),
    nullary main_c_18 (constantI S_ 32 4294967168#32),
    nullary main_c_19 (constantI S_ 32 127#32),
    unary main_c_18 main_call9_v0 ((sitofp .f32) : (⟨S_, .i32⟩ : BufTy).Contents (Elt F) → (⟨S_, .f32⟩ : BufTy).Contents (Elt F)),
    unary main_call9_v0 main_call9_v1 ((broadcastInDim S4x2048x8192 ![] bcast_S_S4x2048x8192) : (⟨S_, .f32⟩ : BufTy).Contents (Elt F) → (⟨S4x2048x8192, .f32⟩ : BufTy).Contents (Elt F)),
    binary main_call9_v1 main_v60 main_call9_v2 (maximumf : (⟨S4x2048x8192, .f32⟩ : BufTy).Contents (Elt F) → (⟨S4x2048x8192, .f32⟩ : BufTy).Contents (Elt F) → (⟨S4x2048x8192, .f32⟩ : BufTy).Contents (Elt F)),
    unary main_c_19 main_call9_v3 ((sitofp .f32) : (⟨S_, .i32⟩ : BufTy).Contents (Elt F) → (⟨S_, .f32⟩ : BufTy).Contents (Elt F)),
    unary main_call9_v3 main_call9_v4 ((broadcastInDim S4x2048x8192 ![] bcast_S_S4x2048x8192) : (⟨S_, .f32⟩ : BufTy).Contents (Elt F) → (⟨S4x2048x8192, .f32⟩ : BufTy).Contents (Elt F)),
    binary main_call9_v4 main_call9_v2 main_v61 (minimumf : (⟨S4x2048x8192, .f32⟩ : BufTy).Contents (Elt F) → (⟨S4x2048x8192, .f32⟩ : BufTy).Contents (Elt F) → (⟨S4x2048x8192, .f32⟩ : BufTy).Contents (Elt F)),
    unary main_v57 main_v62 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v61 main_v62 main_v63 (Host.divf : (⟨S4x2048x8192, .f32⟩ : BufTy).Contents (Elt F) → (⟨S4x2048x8192, .f32⟩ : BufTy).Contents (Elt F) → (⟨S4x2048x8192, .f32⟩ : BufTy).Contents (Elt F)),
    binary main_v63 main_v51 main_v64 (subf : (⟨S4x2048x8192, .f32⟩ : BufTy).Contents (Elt F) → (⟨S4x2048x8192, .f32⟩ : BufTy).Contents (Elt F) → (⟨S4x2048x8192, .f32⟩ : BufTy).Contents (Elt F)),
    binary main_v51 main_v64 main_v65 (addf : (⟨S4x2048x8192, .f32⟩ : BufTy).Contents (Elt F) → (⟨S4x2048x8192, .f32⟩ : BufTy).Contents (Elt F) → (⟨S4x2048x8192, .f32⟩ : BufTy).Contents (Elt F)),
    unary main_arg2 main_v66 (Host.absf : (⟨S2048x8192, .f32⟩ : BufTy).Contents (Elt F) → (⟨S2048x8192, .f32⟩ : BufTy).Contents (Elt F)),
    nullary main_cst_20 (constant S_ .f32 0x00000000#32),
    binary main_v66 main_cst_20 main_v67 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_21 (constant S_ .f32 0x4B800000#32),
    binary main_v67 main_cst_21 main_v68 (Host.divf : (⟨S_, .f32⟩ : BufTy).Contents (Elt F) → (⟨S_, .f32⟩ : BufTy).Contents (Elt F) → (⟨S_, .f32⟩ : BufTy).Contents (Elt F)),
    nullary main_cst_22 (constant S_ .f32 0x3727C5AC#32),
    unary main_cst_22 main_call10_v0 (id : (⟨S_, .f32⟩ : BufTy).Contents (Elt F) → (⟨S_, .f32⟩ : BufTy).Contents (Elt F)),
    binary main_call10_v0 main_v68 main_v69 (maximumf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v69 main_v70 (Host.divf : (⟨S_, .f32⟩ : BufTy).Contents (Elt F) → (⟨S_, .f32⟩ : BufTy).Contents (Elt F) → (⟨S_, .f32⟩ : BufTy).Contents (Elt F)),
    unary main_v70 main_v71 (broadcastInDim S2048x8192 ![] bcast_S_S2048x8192 : (⟨S_, .f32⟩ : BufTy).Contents (Elt F) → (⟨S2048x8192, .f32⟩ : BufTy).Contents (Elt F)),
    binary main_arg2 main_v71 main_v72 (mulf : (⟨S2048x8192, .f32⟩ : BufTy).Contents (Elt F) → (⟨S2048x8192, .f32⟩ : BufTy).Contents (Elt F) → (⟨S2048x8192, .f32⟩ : BufTy).Contents (Elt F)),
    unary main_v72 main_v73 (Host.roundeven : (⟨S2048x8192, .f32⟩ : BufTy).Contents (Elt F) → (⟨S2048x8192, .f32⟩ : BufTy).Contents (Elt F)),
    nullary main_c_24 (constantI S_ 32 4294967295#32),
    nullary main_c_25 (constantI S_ 32 1#32),
    unary main_c_24 main_call12_v0 ((sitofp .f32) : (⟨S_, .i32⟩ : BufTy).Contents (Elt F) → (⟨S_, .f32⟩ : BufTy).Contents (Elt F)),
    unary main_call12_v0 main_call12_v1 ((broadcastInDim S2048x8192 ![] bcast_S_S2048x8192) : (⟨S_, .f32⟩ : BufTy).Contents (Elt F) → (⟨S2048x8192, .f32⟩ : BufTy).Contents (Elt F)),
    binary main_call12_v1 main_v73 main_call12_v2 (maximumf : (⟨S2048x8192, .f32⟩ : BufTy).Contents (Elt F) → (⟨S2048x8192, .f32⟩ : BufTy).Contents (Elt F) → (⟨S2048x8192, .f32⟩ : BufTy).Contents (Elt F)),
    unary main_c_25 main_call12_v3 ((sitofp .f32) : (⟨S_, .i32⟩ : BufTy).Contents (Elt F) → (⟨S_, .f32⟩ : BufTy).Contents (Elt F)),
    unary main_call12_v3 main_call12_v4 ((broadcastInDim S2048x8192 ![] bcast_S_S2048x8192) : (⟨S_, .f32⟩ : BufTy).Contents (Elt F) → (⟨S2048x8192, .f32⟩ : BufTy).Contents (Elt F)),
    binary main_call12_v4 main_call12_v2 main_v74 (minimumf : (⟨S2048x8192, .f32⟩ : BufTy).Contents (Elt F) → (⟨S2048x8192, .f32⟩ : BufTy).Contents (Elt F) → (⟨S2048x8192, .f32⟩ : BufTy).Contents (Elt F)),
    unary main_v70 main_v75 (broadcastInDim S2048x8192 ![] bcast_S_S2048x8192 : (⟨S_, .f32⟩ : BufTy).Contents (Elt F) → (⟨S2048x8192, .f32⟩ : BufTy).Contents (Elt F)),
    binary main_v74 main_v75 main_v76 (Host.divf : (⟨S2048x8192, .f32⟩ : BufTy).Contents (Elt F) → (⟨S2048x8192, .f32⟩ : BufTy).Contents (Elt F) → (⟨S2048x8192, .f32⟩ : BufTy).Contents (Elt F)),
    binary main_v76 main_arg2 main_v77 (subf : (⟨S2048x8192, .f32⟩ : BufTy).Contents (Elt F) → (⟨S2048x8192, .f32⟩ : BufTy).Contents (Elt F) → (⟨S2048x8192, .f32⟩ : BufTy).Contents (Elt F)),
    binary main_arg2 main_v77 main_v78 (addf : (⟨S2048x8192, .f32⟩ : BufTy).Contents (Elt F) → (⟨S2048x8192, .f32⟩ : BufTy).Contents (Elt F) → (⟨S2048x8192, .f32⟩ : BufTy).Contents (Elt F)),
    binary main_v65 main_v78 main_v79 ((fun l r => Host.dotGeneral dot_S4x2048x8192_S2048x8192_S4x2048x2048_2_1_01_0_n_n none l r) : (⟨S4x2048x8192, .f32⟩ : BufTy).Contents (Elt F) → (⟨S2048x8192, .f32⟩ : BufTy).Contents (Elt F) → (⟨S4x2048x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub ..⟩

/-! ### The same operations, cut into twelve consecutive stretches -/

abbrev A1 : List (HloOp τ sig (Elt F)) :=
  [ binary main_arg0 main_arg0 main_v0 (mulf : (⟨S4x2048x2048, .f32⟩ : BufTy).Contents (Elt F) → (⟨S4x2048x2048, .f32⟩ : BufTy).Contents (Elt F) → (⟨S4x2048x2048, .f32⟩ : BufTy).Contents (Elt F)),
    nullary main_cst (constant S_ .f32 0x00000000#32),
    binary main_v0 main_cst main_v1 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x45000000#32),
    unary main_cst_0 main_v3 (broadcastInDim S4x2048x1 ![] bcast_S_S4x2048x1 : (⟨S_, .f32⟩ : BufTy).Contents (Elt F) → (⟨S4x2048x1, .f32⟩ : BufTy).Contents (Elt F)),
    binary main_v2 main_v3 main_v4 (Host.divf : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x322BCC77#32),
    unary main_cst_1 main_v5 (broadcastInDim S4x2048x1 ![] bcast_S_S4x2048x1 : (⟨S_, .f32⟩ : BufTy).Contents (Elt F) → (⟨S4x2048x1, .f32⟩ : BufTy).Contents (Elt F)),
    binary main_v4 main_v5 main_v6 (addf : (⟨S4x2048x1, .f32⟩ : BufTy).Contents (Elt F) → (⟨S4x2048x1, .f32⟩ : BufTy).Contents (Elt F) → (⟨S4x2048x1, .f32⟩ : BufTy).Contents (Elt F)),
    unary main_v6 main_v7 (Host.rsqrt : (⟨S4x2048x1, .f32⟩ : BufTy).Contents (Elt F) → (⟨S4x2048x1, .f32⟩ : BufTy).Contents (Elt F)),
    unary main_v7 main_v8 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v8 main_v9 (mulf : (⟨S4x2048x2048, .f32⟩ : BufTy).Contents (Elt F) → (⟨S4x2048x2048, .f32⟩ : BufTy).Contents (Elt F) → (⟨S4x2048x2048, .f32⟩ : BufTy).Contents (Elt F)) ]

abbrev A2 : List (HloOp τ sig (Elt F)) :=
  [ unary main_v9 main_v10 (Host.absf : (⟨S4x2048x2048, .f32⟩ : BufTy).Contents (Elt F) → (⟨S4x2048x2048, .f32⟩ : BufTy).Contents (Elt F)),
    nullary main_cst_2 (constant S_ .f32 0xFF800000#32),
    binary main_v10 main_cst_2 main_v11 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v11 main_v12 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x3727C5AC#32),
    unary main_cst_3 main_call0_v0 (id : (⟨S_, .f32⟩ : BufTy).Contents (Elt F) → (⟨S_, .f32⟩ : BufTy).Contents (Elt F)),
    unary main_call0_v0 main_call0_v1 ((broadcastInDim S4x2048x1 ![] bcast_S_S4x2048x1) : (⟨S_, .f32⟩ : BufTy).Contents (Elt F) → (⟨S4x2048x1, .f32⟩ : BufTy).Contents (Elt F)),
    binary main_call0_v1 main_v12 main_v13 (maximumf : (⟨S4x2048x1, .f32⟩ : BufTy).Contents (Elt F) → (⟨S4x2048x1, .f32⟩ : BufTy).Contents (Elt F) → (⟨S4x2048x1, .f32⟩ : BufTy).Contents (Elt F)),
    nullary main_cst_4 (constant S_ .f32 0x42FE0000#32),
    unary main_cst_4 main_v14 (broadcastInDim S4x2048x1 ![] bcast_S_S4x2048x1 : (⟨S_, .f32⟩ : BufTy).Contents (Elt F) → (⟨S4x2048x1, .f32⟩ : BufTy).Contents (Elt F)),
    binary main_v14 main_v13 main_v15 (Host.divf : (⟨S4x2048x1, .f32⟩ : BufTy).Contents (Elt F) → (⟨S4x2048x1, .f32⟩ : BufTy).Contents (Elt F) → (⟨S4x2048x1, .f32⟩ : BufTy).Contents (Elt F)) ]

abbrev A3 : List (HloOp τ sig (Elt F)) :=
  [ unary main_v15 main_v16 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v16 main_v17 (mulf : (⟨S4x2048x2048, .f32⟩ : BufTy).Contents (Elt F) → (⟨S4x2048x2048, .f32⟩ : BufTy).Contents (Elt F) → (⟨S4x2048x2048, .f32⟩ : BufTy).Contents (Elt F)),
    unary main_v17 main_v18 (Host.roundeven : (⟨S4x2048x2048, .f32⟩ : BufTy).Contents (Elt F) → (⟨S4x2048x2048, .f32⟩ : BufTy).Contents (Elt F)),
    nullary main_c (constantI S_ 32 4294967168#32),
    nullary main_c_5 (constantI S_ 32 127#32),
    unary main_c main_call2_v0 ((sitofp .f32) : (⟨S_, .i32⟩ : BufTy).Contents (Elt F) → (⟨S_, .f32⟩ : BufTy).Contents (Elt F)),
    unary main_call2_v0 main_call2_v1 ((broadcastInDim S4x2048x2048 ![] bcast_S_S4x2048x2048) : (⟨S_, .f32⟩ : BufTy).Contents (Elt F) → (⟨S4x2048x2048, .f32⟩ : BufTy).Contents (Elt F)),
    binary main_call2_v1 main_v18 main_call2_v2 (maximumf : (⟨S4x2048x2048, .f32⟩ : BufTy).Contents (Elt F) → (⟨S4x2048x2048, .f32⟩ : BufTy).Contents (Elt F) → (⟨S4x2048x2048, .f32⟩ : BufTy).Contents (Elt F)),
    unary main_c_5 main_call2_v3 ((sitofp .f32) : (⟨S_, .i32⟩ : BufTy).Contents (Elt F) → (⟨S_, .f32⟩ : BufTy).Contents (Elt F)),
    unary main_call2_v3 main_call2_v4 ((broadcastInDim S4x2048x2048 ![] bcast_S_S4x2048x2048) : (⟨S_, .f32⟩ : BufTy).Contents (Elt F) → (⟨S4x2048x2048, .f32⟩ : BufTy).Contents (Elt F)),
    binary main_call2_v4 main_call2_v2 main_v19 (minimumf : (⟨S4x2048x2048, .f32⟩ : BufTy).Contents (Elt F) → (⟨S4x2048x2048, .f32⟩ : BufTy).Contents (Elt F) → (⟨S4x2048x2048, .f32⟩ : BufTy).Contents (Elt F)),
    unary main_v15 main_v20 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v19 main_v20 main_v21 (Host.divf : (⟨S4x2048x2048, .f32⟩ : BufTy).Contents (Elt F) → (⟨S4x2048x2048, .f32⟩ : BufTy).Contents (Elt F) → (⟨S4x2048x2048, .f32⟩ : BufTy).Contents (Elt F)),
    binary main_v21 main_v9 main_v22 (subf : (⟨S4x2048x2048, .f32⟩ : BufTy).Contents (Elt F) → (⟨S4x2048x2048, .f32⟩ : BufTy).Contents (Elt F) → (⟨S4x2048x2048, .f32⟩ : BufTy).Contents (Elt F)),
    binary main_v9 main_v22 main_v23 (addf : (⟨S4x2048x2048, .f32⟩ : BufTy).Contents (Elt F) → (⟨S4x2048x2048, .f32⟩ : BufTy).Contents (Elt F) → (⟨S4x2048x2048, .f32⟩ : BufTy).Contents (Elt F)) ]

abbrev B1 : List (HloOp τ sig (Elt F)) :=
  [ unary main_arg1 main_v24 (Host.absf : (⟨S16384x2048, .f32⟩ : BufTy).Contents (Elt F) → (⟨S16384x2048, .f32⟩ : BufTy).Contents (Elt F)),
    nullary main_cst_6 (constant S_ .f32 0x00000000#32),
    binary main_v24 main_cst_6 main_v25 ((fun x v => Host.reduceAdd x v reducesTo_S16384x2048_S_d0_1 h_S_) : (⟨S16384x2048, .f32⟩ : BufTy).Contents (Elt F) → (⟨S_, .f32⟩ : BufTy).Contents (Elt F) → (⟨S_, .f32⟩ : BufTy).Contents (Elt F)),
    nullary main_cst_7 (constant S_ .f32 0x4C000000#32),
    binary main_v25 main_cst_7 main_v26 (Host.divf : (⟨S_, .f32⟩ : BufTy).Contents (Elt F) → (⟨S_, .f32⟩ : BufTy).Contents (Elt F) → (⟨S_, .f32⟩ : BufTy).Contents (Elt F)),
    nullary main_cst_8 (constant S_ .f32 0x3727C5AC#32),
    unary main_cst_8 main_call3_v0 (id : (⟨S_, .f32⟩ : BufTy).Contents (Elt F) → (⟨S_, .f32⟩ : BufTy).Contents (Elt F)),
    binary main_call3_v0 main_v26 main_v27 (maximumf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_cst_9 main_v27 main_v28 (Host.divf : (⟨S_, .f32⟩ : BufTy).Contents (Elt F) → (⟨S_, .f32⟩ : BufTy).Contents (Elt F) → (⟨S_, .f32⟩ : BufTy).Contents (Elt F)) ]

abbrev B2 : List (HloOp τ sig (Elt F)) :=
  [ unary main_v28 main_v29 (broadcastInDim S16384x2048 ![] bcast_S_S16384x2048 : (⟨S_, .f32⟩ : BufTy).Contents (Elt F) → (⟨S16384x2048, .f32⟩ : BufTy).Contents (Elt F)),
    binary main_arg1 main_v29 main_v30 (mulf : (⟨S16384x2048, .f32⟩ : BufTy).Contents (Elt F) → (⟨S16384x2048, .f32⟩ : BufTy).Contents (Elt F) → (⟨S16384x2048, .f32⟩ : BufTy).Contents (Elt F)),
    unary main_v30 main_v31 (Host.roundeven : (⟨S16384x2048, .f32⟩ : BufTy).Contents (Elt F) → (⟨S16384x2048, .f32⟩ : BufTy).Contents (Elt F)),
    nullary main_c_10 (constantI S_ 32 4294967295#32),
    nullary main_c_11 (constantI S_ 32 1#32),
    unary main_c_10 main_call5_v0 ((sitofp .f32) : (⟨S_, .i32⟩ : BufTy).Contents (Elt F) → (⟨S_, .f32⟩ : BufTy).Contents (Elt F)),
    unary main_call5_v0 main_call5_v1 ((broadcastInDim S16384x2048 ![] bcast_S_S16384x2048) : (⟨S_, .f32⟩ : BufTy).Contents (Elt F) → (⟨S16384x2048, .f32⟩ : BufTy).Contents (Elt F)),
    binary main_call5_v1 main_v31 main_call5_v2 (maximumf : (⟨S16384x2048, .f32⟩ : BufTy).Contents (Elt F) → (⟨S16384x2048, .f32⟩ : BufTy).Contents (Elt F) → (⟨S16384x2048, .f32⟩ : BufTy).Contents (Elt F)),
    unary main_c_11 main_call5_v3 ((sitofp .f32) : (⟨S_, .i32⟩ : BufTy).Contents (Elt F) → (⟨S_, .f32⟩ : BufTy).Contents (Elt F)),
    unary main_call5_v3 main_call5_v4 ((broadcastInDim S16384x2048 ![] bcast_S_S16384x2048) : (⟨S_, .f32⟩ : BufTy).Contents (Elt F) → (⟨S16384x2048, .f32⟩ : BufTy).Contents (Elt F)),
    binary main_call5_v4 main_call5_v2 main_v32 (minimumf : (⟨S16384x2048, .f32⟩ : BufTy).Contents (Elt F) → (⟨S16384x2048, .f32⟩ : BufTy).Contents (Elt F) → (⟨S16384x2048, .f32⟩ : BufTy).Contents (Elt F)),
    unary main_v28 main_v33 (broadcastInDim S16384x2048 ![] bcast_S_S16384x2048 : (⟨S_, .f32⟩ : BufTy).Contents (Elt F) → (⟨S16384x2048, .f32⟩ : BufTy).Contents (Elt F)),
    binary main_v32 main_v33 main_v34 (Host.divf : (⟨S16384x2048, .f32⟩ : BufTy).Contents (Elt F) → (⟨S16384x2048, .f32⟩ : BufTy).Contents (Elt F) → (⟨S16384x2048, .f32⟩ : BufTy).Contents (Elt F)),
    binary main_v34 main_arg1 main_v35 (subf : (⟨S16384x2048, .f32⟩ : BufTy).Contents (Elt F) → (⟨S16384x2048, .f32⟩ : BufTy).Contents (Elt F) → (⟨S16384x2048, .f32⟩ : BufTy).Contents (Elt F)),
    binary main_arg1 main_v35 main_v36 (addf : (⟨S16384x2048, .f32⟩ : BufTy).Contents (Elt F) → (⟨S16384x2048, .f32⟩ : BufTy).Contents (Elt F) → (⟨S16384x2048, .f32⟩ : BufTy).Contents (Elt F)) ]

abbrev C : List (HloOp τ sig (Elt F)) :=
  [ binary main_v23 main_v36 main_v37 ((fun l r => Host.dotGeneral dot_S4x2048x2048_S16384x2048_S4x2048x16384_2_1_01_0_n_n none l r) : (⟨S4x2048x2048, .f32⟩ : BufTy).Contents (Elt F) → (⟨S16384x2048, .f32⟩ : BufTy).Contents (Elt F) → (⟨S4x2048x16384, .f32⟩ : BufTy).Contents (Elt F)),
    unary main_v37 main_v38 ((extractStridedSlice S4x2048x8192 ![0, 0, 0] · slices_S4x2048x16384_S4x2048x8192_0_0_0) : (⟨S4x2048x16384, .f32⟩ : BufTy).Contents (Elt F) → (⟨S4x2048x8192, .f32⟩ : BufTy).Contents (Elt F)),
    unary main_v37 main_v39 ((extractStridedSlice S4x2048x8192 ![0, 0, 8192] · slices_S4x2048x16384_S4x2048x8192_0_0_8192) : (⟨S4x2048x16384, .f32⟩ : BufTy).Contents (Elt F) → (⟨S4x2048x8192, .f32⟩ : BufTy).Contents (Elt F)),
    unary main_v38 main_call6_v0 (Host.negf : (⟨S4x2048x8192, .f32⟩ : BufTy).Contents (Elt F) → (⟨S4x2048x8192, .f32⟩ : BufTy).Contents (Elt F)),
    unary main_call6_v0 main_call6_v1 (Host.exp : (⟨S4x2048x8192, .f32⟩ : BufTy).Contents (Elt F) → (⟨S4x2048x8192, .f32⟩ : BufTy).Contents (Elt F)),
    nullary main_call6_cst ((constant S_ .f32 0x3F800000#32) : (⟨S_, .f32⟩ : BufTy).Contents (Elt F)),
    unary main_call6_cst main_call6_v2 ((broadcastInDim S4x2048x8192 ![] bcast_S_S4x2048x8192) : (⟨S_, .f32⟩ : BufTy).Contents (Elt F) → (⟨S4x2048x8192, .f32⟩ : BufTy).Contents (Elt F)),
    binary main_call6_v2 main_call6_v1 main_call6_v3 (addf : (⟨S4x2048x8192, .f32⟩ : BufTy).Contents (Elt F) → (⟨S4x2048x8192, .f32⟩ : BufTy).Contents (Elt F) → (⟨S4x2048x8192, .f32⟩ : BufTy).Contents (Elt F)),
    nullary main_call6_cst_0 ((constant S_ .f32 0x3F800000#32) : (⟨S_, .f32⟩ : BufTy).Contents (Elt F)),
    unary main_call6_cst_0 main_call6_v4 ((broadcastInDim S4x2048x8192 ![] bcast_S_S4x2048x8192) : (⟨S_, .f32⟩ : BufTy).Contents (Elt F) → (⟨S4x2048x8192, .f32⟩ : BufTy).Contents (Elt F)),
    binary main_call6_v4 main_call6_v3 main_call6_v5 (Host.divf : (⟨S4x2048x8192, .f32⟩ : BufTy).Contents (Elt F) → (⟨S4x2048x8192, .f32⟩ : BufTy).Contents (Elt F) → (⟨S4x2048x8192, .f32⟩ : BufTy).Contents (Elt F)),
    binary main_v38 main_call6_v5 main_v40 (mulf : (⟨S4x2048x8192, .f32⟩ : BufTy).Contents (Elt F) → (⟨S4x2048x8192, .f32⟩ : BufTy).Contents (Elt F) → (⟨S4x2048x8192, .f32⟩ : BufTy).Contents (Elt F)),
    binary main_v40 main_v39 main_v41 (mulf : (⟨S4x2048x8192, .f32⟩ : BufTy).Contents (Elt F) → (⟨S4x2048x8192, .f32⟩ : BufTy).Contents (Elt F) → (⟨S4x2048x8192, .f32⟩ : BufTy).Contents (Elt F)) ]

abbrev D1 : List (HloOp τ sig (Elt F)) :=
  [ binary main_v41 main_v41 main_v42 (mulf : (⟨S4x2048x8192, .f32⟩ : BufTy).Contents (Elt F) → (⟨S4x2048x8192, .f32⟩ : BufTy).Contents (Elt F) → (⟨S4x2048x8192, .f32⟩ : BufTy).Contents (Elt F)),
    nullary main_cst_12 (constant S_ .f32 0x00000000#32),
    binary main_v42 main_cst_12 main_v43 ((fun x v => Host.reduceAdd x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v43 main_v44 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_13 (constant S_ .f32 0x46000000#32),
    unary main_cst_13 main_v45 (broadcastInDim S4x2048x1 ![] bcast_S_S4x2048x1 : (⟨S_, .f32⟩ : BufTy).Contents (Elt F) → (⟨S4x2048x1, .f32⟩ : BufTy).Contents (Elt F)),
    binary main_v44 main_v45 main_v46 (Host.divf : (⟨S4x2048x1, .f32⟩ : BufTy).Contents (Elt F) → (⟨S4x2048x1, .f32⟩ : BufTy).Contents (Elt F) → (⟨S4x2048x1, .f32⟩ : BufTy).Contents (Elt F)),
    nullary main_cst_14 (constant S_ .f32 0x322BCC77#32),
    unary main_cst_14 main_v47 (broadcastInDim S4x2048x1 ![] bcast_S_S4x2048x1 : (⟨S_, .f32⟩ : BufTy).Contents (Elt F) → (⟨S4x2048x1, .f32⟩ : BufTy).Contents (Elt F)),
    binary main_v46 main_v47 main_v48 (addf : (⟨S4x2048x1, .f32⟩ : BufTy).Contents (Elt F) → (⟨S4x2048x1, .f32⟩ : BufTy).Contents (Elt F) → (⟨S4x2048x1, .f32⟩ : BufTy).Contents (Elt F)),
    unary main_v48 main_v49 (Host.rsqrt : (⟨S4x2048x1, .f32⟩ : BufTy).Contents (Elt F) → (⟨S4x2048x1, .f32⟩ : BufTy).Contents (Elt F)),
    unary main_v49 main_v50 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v41 main_v50 main_v51 (mulf : (⟨S4x2048x8192, .f32⟩ : BufTy).Contents (Elt F) → (⟨S4x2048x8192, .f32⟩ : BufTy).Contents (Elt F) → (⟨S4x2048x8192, .f32⟩ : BufTy).Contents (Elt F)) ]

abbrev D2 : List (HloOp τ sig (Elt F)) :=
  [ unary main_v51 main_v52 (Host.absf : (⟨S4x2048x8192, .f32⟩ : BufTy).Contents (Elt F) → (⟨S4x2048x8192, .f32⟩ : BufTy).Contents (Elt F)),
    nullary main_cst_15 (constant S_ .f32 0xFF800000#32),
    binary main_v52 main_cst_15 main_v53 ((fun x v => Host.reduce FloatOps.maximumf x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v53 main_v54 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_16 (constant S_ .f32 0x3727C5AC#32),
    unary main_cst_16 main_call7_v0 (id : (⟨S_, .f32⟩ : BufTy).Contents (Elt F) → (⟨S_, .f32⟩ : BufTy).Contents (Elt F)),
    unary main_call7_v0 main_call7_v1 ((broadcastInDim S4x2048x1 ![] bcast_S_S4x2048x1) : (⟨S_, .f32⟩ : BufTy).Contents (Elt F) → (⟨S4x2048x1, .f32⟩ : BufTy).Contents (Elt F)),
    binary main_call7_v1 main_v54 main_v55 (maximumf : (⟨S4x2048x1, .f32⟩ : BufTy).Contents (Elt F) → (⟨S4x2048x1, .f32⟩ : BufTy).Contents (Elt F) → (⟨S4x2048x1, .f32⟩ : BufTy).Contents (Elt F)),
    nullary main_cst_17 (constant S_ .f32 0x42FE0000#32),
    unary main_cst_17 main_v56 (broadcastInDim S4x2048x1 ![] bcast_S_S4x2048x1 : (⟨S_, .f32⟩ : BufTy).Contents (Elt F) → (⟨S4x2048x1, .f32⟩ : BufTy).Contents (Elt F)),
    binary main_v56 main_v55 main_v57 (Host.divf : (⟨S4x2048x1, .f32⟩ : BufTy).Contents (Elt F) → (⟨S4x2048x1, .f32⟩ : BufTy).Contents (Elt F) → (⟨S4x2048x1, .f32⟩ : BufTy).Contents (Elt F)) ]

abbrev D3 : List (HloOp τ sig (Elt F)) :=
  [ unary main_v57 main_v58 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v51 main_v58 main_v59 (mulf : (⟨S4x2048x8192, .f32⟩ : BufTy).Contents (Elt F) → (⟨S4x2048x8192, .f32⟩ : BufTy).Contents (Elt F) → (⟨S4x2048x8192, .f32⟩ : BufTy).Contents (Elt F)),
    unary main_v59 main_v60 (Host.roundeven : (⟨S4x2048x8192, .f32⟩ : BufTy).Contents (Elt F) → (⟨S4x2048x8192, .f32⟩ : BufTy).Contents (Elt F)),
    nullary main_c_18 (constantI S_ 32 4294967168#32),
    nullary main_c_19 (constantI S_ 32 127#32),
    unary main_c_18 main_call9_v0 ((sitofp .f32) : (⟨S_, .i32⟩ : BufTy).Contents (Elt F) → (⟨S_, .f32⟩ : BufTy).Contents (Elt F)),
    unary main_call9_v0 main_call9_v1 ((broadcastInDim S4x2048x8192 ![] bcast_S_S4x2048x8192) : (⟨S_, .f32⟩ : BufTy).Contents (Elt F) → (⟨S4x2048x8192, .f32⟩ : BufTy).Contents (Elt F)),
    binary main_call9_v1 main_v60 main_call9_v2 (maximumf : (⟨S4x2048x8192, .f32⟩ : BufTy).Contents (Elt F) → (⟨S4x2048x8192, .f32⟩ : BufTy).Contents (Elt F) → (⟨S4x2048x8192, .f32⟩ : BufTy).Contents (Elt F)),
    unary main_c_19 main_call9_v3 ((sitofp .f32) : (⟨S_, .i32⟩ : BufTy).Contents (Elt F) → (⟨S_, .f32⟩ : BufTy).Contents (Elt F)),
    unary main_call9_v3 main_call9_v4 ((broadcastInDim S4x2048x8192 ![] bcast_S_S4x2048x8192) : (⟨S_, .f32⟩ : BufTy).Contents (Elt F) → (⟨S4x2048x8192, .f32⟩ : BufTy).Contents (Elt F)),
    binary main_call9_v4 main_call9_v2 main_v61 (minimumf : (⟨S4x2048x8192, .f32⟩ : BufTy).Contents (Elt F) → (⟨S4x2048x8192, .f32⟩ : BufTy).Contents (Elt F) → (⟨S4x2048x8192, .f32⟩ : BufTy).Contents (Elt F)),
    unary main_v57 main_v62 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v61 main_v62 main_v63 (Host.divf : (⟨S4x2048x8192, .f32⟩ : BufTy).Contents (Elt F) → (⟨S4x2048x8192, .f32⟩ : BufTy).Contents (Elt F) → (⟨S4x2048x8192, .f32⟩ : BufTy).Contents (Elt F)),
    binary main_v63 main_v51 main_v64 (subf : (⟨S4x2048x8192, .f32⟩ : BufTy).Contents (Elt F) → (⟨S4x2048x8192, .f32⟩ : BufTy).Contents (Elt F) → (⟨S4x2048x8192, .f32⟩ : BufTy).Contents (Elt F)),
    binary main_v51 main_v64 main_v65 (addf : (⟨S4x2048x8192, .f32⟩ : BufTy).Contents (Elt F) → (⟨S4x2048x8192, .f32⟩ : BufTy).Contents (Elt F) → (⟨S4x2048x8192, .f32⟩ : BufTy).Contents (Elt F)) ]

abbrev E1 : List (HloOp τ sig (Elt F)) :=
  [ unary main_arg2 main_v66 (Host.absf : (⟨S2048x8192, .f32⟩ : BufTy).Contents (Elt F) → (⟨S2048x8192, .f32⟩ : BufTy).Contents (Elt F)),
    nullary main_cst_20 (constant S_ .f32 0x00000000#32),
    binary main_v66 main_cst_20 main_v67 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_21 (constant S_ .f32 0x4B800000#32),
    binary main_v67 main_cst_21 main_v68 (Host.divf : (⟨S_, .f32⟩ : BufTy).Contents (Elt F) → (⟨S_, .f32⟩ : BufTy).Contents (Elt F) → (⟨S_, .f32⟩ : BufTy).Contents (Elt F)),
    nullary main_cst_22 (constant S_ .f32 0x3727C5AC#32),
    unary main_cst_22 main_call10_v0 (id : (⟨S_, .f32⟩ : BufTy).Contents (Elt F) → (⟨S_, .f32⟩ : BufTy).Contents (Elt F)),
    binary main_call10_v0 main_v68 main_v69 (maximumf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v69 main_v70 (Host.divf : (⟨S_, .f32⟩ : BufTy).Contents (Elt F) → (⟨S_, .f32⟩ : BufTy).Contents (Elt F) → (⟨S_, .f32⟩ : BufTy).Contents (Elt F)) ]

abbrev E2 : List (HloOp τ sig (Elt F)) :=
  [ unary main_v70 main_v71 (broadcastInDim S2048x8192 ![] bcast_S_S2048x8192 : (⟨S_, .f32⟩ : BufTy).Contents (Elt F) → (⟨S2048x8192, .f32⟩ : BufTy).Contents (Elt F)),
    binary main_arg2 main_v71 main_v72 (mulf : (⟨S2048x8192, .f32⟩ : BufTy).Contents (Elt F) → (⟨S2048x8192, .f32⟩ : BufTy).Contents (Elt F) → (⟨S2048x8192, .f32⟩ : BufTy).Contents (Elt F)),
    unary main_v72 main_v73 (Host.roundeven : (⟨S2048x8192, .f32⟩ : BufTy).Contents (Elt F) → (⟨S2048x8192, .f32⟩ : BufTy).Contents (Elt F)),
    nullary main_c_24 (constantI S_ 32 4294967295#32),
    nullary main_c_25 (constantI S_ 32 1#32),
    unary main_c_24 main_call12_v0 ((sitofp .f32) : (⟨S_, .i32⟩ : BufTy).Contents (Elt F) → (⟨S_, .f32⟩ : BufTy).Contents (Elt F)),
    unary main_call12_v0 main_call12_v1 ((broadcastInDim S2048x8192 ![] bcast_S_S2048x8192) : (⟨S_, .f32⟩ : BufTy).Contents (Elt F) → (⟨S2048x8192, .f32⟩ : BufTy).Contents (Elt F)),
    binary main_call12_v1 main_v73 main_call12_v2 (maximumf : (⟨S2048x8192, .f32⟩ : BufTy).Contents (Elt F) → (⟨S2048x8192, .f32⟩ : BufTy).Contents (Elt F) → (⟨S2048x8192, .f32⟩ : BufTy).Contents (Elt F)),
    unary main_c_25 main_call12_v3 ((sitofp .f32) : (⟨S_, .i32⟩ : BufTy).Contents (Elt F) → (⟨S_, .f32⟩ : BufTy).Contents (Elt F)),
    unary main_call12_v3 main_call12_v4 ((broadcastInDim S2048x8192 ![] bcast_S_S2048x8192) : (⟨S_, .f32⟩ : BufTy).Contents (Elt F) → (⟨S2048x8192, .f32⟩ : BufTy).Contents (Elt F)),
    binary main_call12_v4 main_call12_v2 main_v74 (minimumf : (⟨S2048x8192, .f32⟩ : BufTy).Contents (Elt F) → (⟨S2048x8192, .f32⟩ : BufTy).Contents (Elt F) → (⟨S2048x8192, .f32⟩ : BufTy).Contents (Elt F)),
    unary main_v70 main_v75 (broadcastInDim S2048x8192 ![] bcast_S_S2048x8192 : (⟨S_, .f32⟩ : BufTy).Contents (Elt F) → (⟨S2048x8192, .f32⟩ : BufTy).Contents (Elt F)),
    binary main_v74 main_v75 main_v76 (Host.divf : (⟨S2048x8192, .f32⟩ : BufTy).Contents (Elt F) → (⟨S2048x8192, .f32⟩ : BufTy).Contents (Elt F) → (⟨S2048x8192, .f32⟩ : BufTy).Contents (Elt F)),
    binary main_v76 main_arg2 main_v77 (subf : (⟨S2048x8192, .f32⟩ : BufTy).Contents (Elt F) → (⟨S2048x8192, .f32⟩ : BufTy).Contents (Elt F) → (⟨S2048x8192, .f32⟩ : BufTy).Contents (Elt F)),
    binary main_arg2 main_v77 main_v78 (addf : (⟨S2048x8192, .f32⟩ : BufTy).Contents (Elt F) → (⟨S2048x8192, .f32⟩ : BufTy).Contents (Elt F) → (⟨S2048x8192, .f32⟩ : BufTy).Contents (Elt F)) ]

abbrev Fz : List (HloOp τ sig (Elt F)) :=
  [ binary main_v65 main_v78 main_v79 ((fun l r => Host.dotGeneral dot_S4x2048x8192_S2048x8192_S4x2048x2048_2_1_01_0_n_n none l r) : (⟨S4x2048x8192, .f32⟩ : BufTy).Contents (Elt F) → (⟨S2048x8192, .f32⟩ : BufTy).Contents (Elt F) → (⟨S4x2048x2048, .f32⟩ : BufTy).Contents (Elt F)) ]

set_option maxRecDepth 8192 in
set_option maxHeartbeats 4000000 in
theorem ops_split : (ops : List (HloOp τ sig (Elt F))) = A1 (F := F) ++ (A2 (F := F) ++ (A3 (F := F) ++ (B1 (F := F) ++ (B2 (F := F) ++ (C (F := F) ++ (D1 (F := F) ++ (D2 (F := F) ++ (D3 (F := F) ++ (E1 (F := F) ++ (E2 (F := F) ++ (Fz (F := F)))))))))))) := rfl

/-- The contents after two stretches run one after the other: the second from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ### One stretch at a time, from any contents

Each lemma starts from ANY contents `W` of the device's buffers in which the buffers the stretch reads hold the
stages named, and says which stage the stretch's last buffer then holds and that the buffers later stretches read
are left as they were. -/

set_option maxRecDepth 65536 in
set_option maxHeartbeats 4000000 in
/-- The input rows are normalised. -/
theorem sliceA1 (W : Valuation τ sig (Elt F))   :
    after (A1 (F := F)) W (Proc.devRef .tc main_v9) = val_main_v9 (F := F) (W (Proc.devRef .tc main_arg0))
    ∧ after (A1 (F := F)) W (Proc.devRef .tc main_arg1) = W (Proc.devRef .tc main_arg1)
    ∧ after (A1 (F := F)) W (Proc.devRef .tc main_arg2) = W (Proc.devRef .tc main_arg2) := by
  refine ⟨?_, ?_, ?_⟩
  · after_results_simp
    rfl
  · after_results_simp
  · after_results_simp

set_option maxRecDepth 65536 in
set_option maxHeartbeats 4000000 in
/-- The normalised rows give their scales. -/
theorem sliceA2 (W : Valuation τ sig (Elt F)) (x0 : (⟨S4x2048x2048, .f32⟩ : BufTy).Contents (Elt F)) (h9 : W (Proc.devRef .tc main_v9) = val_main_v9 (F := F) x0) :
    after (A2 (F := F)) W (Proc.devRef .tc main_v15) = val_main_v15 (F := F) x0
    ∧ after (A2 (F := F)) W (Proc.devRef .tc main_v9) = W (Proc.devRef .tc main_v9)
    ∧ after (A2 (F := F)) W (Proc.devRef .tc main_arg1) = W (Proc.devRef .tc main_arg1)
    ∧ after (A2 (F := F)) W (Proc.devRef .tc main_arg2) = W (Proc.devRef .tc main_arg2) := by
  refine ⟨?_, ?_, ?_, ?_⟩
  · after_results_simp
    rw [h9]
    rfl
  · after_results_simp
  · after_results_simp
  · after_results_simp

set_option maxRecDepth 65536 in
set_option maxHeartbeats 4000000 in
/-- The normalised rows and their scales give the quantised rows. -/
theorem sliceA3 (W : Valuation τ sig (Elt F)) (x0 : (⟨S4x2048x2048, .f32⟩ : BufTy).Contents (Elt F)) (h9 : W (Proc.devRef .tc main_v9) = val_main_v9 (F := F) x0) (h15 : W (Proc.devRef .tc main_v15) = val_main_v15 (F := F) x0) :
    after (A3 (F := F)) W (Proc.devRef .tc main_v23) = val_main_v23 (F := F) x0
    ∧ after (A3 (F := F)) W (Proc.devRef .tc main_arg1) = W (Proc.devRef .tc main_arg1)
    ∧ after (A3 (F := F)) W (Proc.devRef .tc main_arg2) = W (Proc.devRef .tc main_arg2) := by
  refine ⟨?_, ?_, ?_⟩
  · after_results_simp
    rw [h9, h15]
    rfl
  · after_results_simp
  · after_results_simp

set_option maxRecDepth 65536 in
set_option maxHeartbeats 4000000 in
/-- The gate weights give their scale. -/
theorem sliceB1 (W : Valuation τ sig (Elt F)) (x1 : (⟨S16384x2048, .f32⟩ : BufTy).Contents (Elt F)) (h1 : W (Proc.devRef .tc main_arg1) = x1) :
    after (B1 (F := F)) W (Proc.devRef .tc main_v28) = val_main_v28 (F := F) x1
    ∧ after (B1 (F := F)) W (Proc.devRef .tc main_v23) = W (Proc.devRef .tc main_v23)
    ∧ after (B1 (F := F)) W (Proc.devRef .tc main_arg1) = W (Proc.devRef .tc main_arg1)
    ∧ after (B1 (F := F)) W (Proc.devRef .tc main_arg2) = W (Proc.devRef .tc main_arg2) := by
  refine ⟨?_, ?_, ?_, ?_⟩
  · after_results_simp
    rw [h1]
    rfl
  · after_results_simp
  · after_results_simp
  · after_results_simp

set_option maxRecDepth 65536 in
set_option maxHeartbeats 4000000 in
/-- The gate weights and their scale give the quantised gate weights. -/
theorem sliceB2 (W : Valuation τ sig (Elt F)) (x1 : (⟨S16384x2048, .f32⟩ : BufTy).Contents (Elt F)) (h1 : W (Proc.devRef .tc main_arg1) = x1) (h28 : W (Proc.devRef .tc main_v28) = val_main_v28 (F := F) x1) :
    after (B2 (F := F)) W (Proc.devRef .tc main_v36) = val_main_v36 (F := F) x1
    ∧ after (B2 (F := F)) W (Proc.devRef .tc main_v23) = W (Proc.devRef .tc main_v23)
    ∧ after (B2 (F := F)) W (Proc.devRef .tc main_arg2) = W (Proc.devRef .tc main_arg2) := by
  refine ⟨?_, ?_, ?_⟩
  · after_results_simp
    rw [h1, h28]
    rfl
  · after_results_simp
  · after_results_simp

set_option maxRecDepth 65536 in
set_option maxHeartbeats 4000000 in
/-- The first contraction, its two halves and the gating give the hidden rows. -/
theorem sliceC (W : Valuation τ sig (Elt F)) (x0 : (⟨S4x2048x2048, .f32⟩ : BufTy).Contents (Elt F)) (x1 : (⟨S16384x2048, .f32⟩ : BufTy).Contents (Elt F)) (h23 : W (Proc.devRef .tc main_v23) = val_main_v23 (F := F) x0) (h36 : W (Proc.devRef .tc main_v36) = val_main_v36 (F := F) x1) :
    after (C (F := F)) W (Proc.devRef .tc main_v41) = val_main_v41 (F := F) x0 x1
    ∧ after (C (F := F)) W (Proc.devRef .tc main_arg2) = W (Proc.devRef .tc main_arg2) := by
  refine ⟨?_, ?_⟩
  · after_results_simp
    rw [h23, h36]
    rfl
  · after_results_simp

set_option maxRecDepth 65536 in
set_option maxHeartbeats 4000000 in
/-- The hidden rows are normalised. -/
theorem sliceD1 (W : Valuation τ sig (Elt F)) (x0 : (⟨S4x2048x2048, .f32⟩ : BufTy).Contents (Elt F)) (x1 : (⟨S16384x2048, .f32⟩ : BufTy).Contents (Elt F)) (h41 : W (Proc.devRef .tc main_v41) = val_main_v41 (F := F) x0 x1) :
    after (D1 (F := F)) W (Proc.devRef .tc main_v51) = val_main_v51 (F := F) x0 x1
    ∧ after (D1 (F := F)) W (Proc.devRef .tc main_arg2) = W (Proc.devRef .tc main_arg2) := by
  refine ⟨?_, ?_⟩
  · after_results_simp
    rw [h41]
    rfl
  · after_results_simp

set_option maxRecDepth 65536 in
set_option maxHeartbeats 4000000 in
/-- The normalised hidden rows give their scales. -/
theorem sliceD2 (W : Valuation τ sig (Elt F)) (x0 : (⟨S4x2048x2048, .f32⟩ : BufTy).Contents (Elt F)) (x1 : (⟨S16384x2048, .f32⟩ : BufTy).Contents (Elt F)) (h51 : W (Proc.devRef .tc main_v51) = val_main_v51 (F := F) x0 x1) :
    after (D2 (F := F)) W (Proc.devRef .tc main_v57) = val_main_v57 (F := F) x0 x1
    ∧ after (D2 (F := F)) W (Proc.devRef .tc main_v51) = W (Proc.devRef .tc main_v51)
    ∧ after (D2 (F := F)) W (Proc.devRef .tc main_arg2) = W (Proc.devRef .tc main_arg2) := by
  refine ⟨?_, ?_, ?_⟩
  · after_results_simp
    rw [h51]
    rfl
  · after_results_simp
  · after_results_simp

set_option maxRecDepth 65536 in
set_option maxHeartbeats 4000000 in
/-- The normalised hidden rows and their scales give the quantised hidden rows. -/
theorem sliceD3 (W : Valuation τ sig (Elt F)) (x0 : (⟨S4x2048x2048, .f32⟩ : BufTy).Contents (Elt F)) (x1 : (⟨S16384x2048, .f32⟩ : BufTy).Contents (Elt F)) (h51 : W (Proc.devRef .tc main_v51) = val_main_v51 (F := F) x0 x1) (h57 : W (Proc.devRef .tc main_v57) = val_main_v57 (F := F) x0 x1) :
    after (D3 (F := F)) W (Proc.devRef .tc main_v65) = val_main_v65 (F := F) x0 x1
    ∧ after (D3 (F := F)) W (Proc.devRef .tc main_arg2) = W (Proc.devRef .tc main_arg2) := by
  refine ⟨?_, ?_⟩
  · after_results_simp
    rw [h51, h57]
    rfl
  · after_results_simp

set_option maxRecDepth 65536 in
set_option maxHeartbeats 4000000 in
/-- The down weights give their scale. -/
theorem sliceE1 (W : Valuation τ sig (Elt F)) (x2 : (⟨S2048x8192, .f32⟩ : BufTy).Contents (Elt F)) (h2 : W (Proc.devRef .tc main_arg2) = x2) :
    after (E1 (F := F)) W (Proc.devRef .tc main_v70) = val_main_v70 (F := F) x2
    ∧ after (E1 (F := F)) W (Proc.devRef .tc main_v65) = W (Proc.devRef .tc main_v65)
    ∧ after (E1 (F := F)) W (Proc.devRef .tc main_arg2) = W (Proc.devRef .tc main_arg2) := by
  refine ⟨?_, ?_, ?_⟩
  · after_results_simp
    rw [h2]
    rfl
  · after_results_simp
  · after_results_simp

set_option maxRecDepth 65536 in
set_option maxHeartbeats 4000000 in
/-- The down weights and their scale give the quantised down weights. -/
theorem sliceE2 (W : Valuation τ sig (Elt F)) (x2 : (⟨S2048x8192, .f32⟩ : BufTy).Contents (Elt F)) (h2 : W (Proc.devRef .tc main_arg2) = x2) (h70 : W (Proc.devRef .tc main_v70) = val_main_v70 (F := F) x2) :
    after (E2 (F := F)) W (Proc.devRef .tc main_v78) = val_main_v78 (F := F) x2
    ∧ after (E2 (F := F)) W (Proc.devRef .tc main_v65) = W (Proc.devRef .tc main_v65) := by
  refine ⟨?_, ?_⟩
  · after_results_simp
    rw [h2, h70]
    rfl
  · after_results_simp

set_option maxRecDepth 65536 in
set_option maxHeartbeats 4000000 in
/-- The second contraction gives the result. -/
theorem sliceFz (W : Valuation τ sig (Elt F)) (x0 : (⟨S4x2048x2048, .f32⟩ : BufTy).Contents (Elt F)) (x1 : (⟨S16384x2048, .f32⟩ : BufTy).Contents (Elt F)) (x2 : (⟨S2048x8192, .f32⟩ : BufTy).Contents (Elt F)) (h65 : W (Proc.devRef .tc main_v65) = val_main_v65 (F := F) x0 x1) (h78 : W (Proc.devRef .tc main_v78) = val_main_v78 (F := F) x2) :
    after (Fz (F := F)) W (Proc.devRef .tc main_v79) = val_main_v79 (F := F) x0 x1 x2 := by
  after_results_simp
  rw [h65, h78]
  rfl

/-! ### The whole line -/

set_option maxRecDepth 65536 in
set_option maxHeartbeats 4000000 in
/-- After all 142 operations the result buffer holds the last stage of the argument buffers' contents. -/
theorem after_v79 (V : Valuation τ sig (Elt F)) :
    after (ops (F := F)) V (Proc.devRef .tc main_v79)
      = val_main_v79 (F := F) (V (Proc.devRef .tc main_arg0)) (V (Proc.devRef .tc main_arg1)) (V (Proc.devRef .tc main_arg2)) := by
  rw [ops_split]
  simp only [after_append]
  obtain ⟨a9, a1, a2⟩ := sliceA1 V
  obtain ⟨b15, b9, b1, b2⟩ := sliceA2 _ _ a9
  obtain ⟨c23, c1, c2⟩ := sliceA3 _ _ (b9.trans a9) b15
  obtain ⟨d28, d23, d1, d2⟩ := sliceB1 _ _ (c1.trans (b1.trans a1))
  obtain ⟨e36, e23, e2⟩ := sliceB2 _ _ (d1.trans (c1.trans (b1.trans a1))) d28
  obtain ⟨f41, f2⟩ := sliceC _ _ _ (e23.trans (d23.trans c23)) e36
  obtain ⟨g51, g2⟩ := sliceD1 _ _ _ f41
  obtain ⟨h57, h51, h2⟩ := sliceD2 _ _ _ g51
  obtain ⟨i65, i2⟩ := sliceD3 _ _ _ (h51.trans g51) h57
  have arg2 := i2.trans (h2.trans (g2.trans (f2.trans (e2.trans (d2.trans (c2.trans (b2.trans a2)))))))
  obtain ⟨j70, j65, j2⟩ := sliceE1 _ _ arg2
  obtain ⟨k78, k65⟩ := sliceE2 _ _ (j2.trans arg2) j70
  exact sliceFz _ _ _ _ (k65.trans (j65.trans i65)) k78

set_option maxRecDepth 65536 in
set_option maxHeartbeats 4000000 in
/-- No operation writes an argument buffer. -/
theorem after_args (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  refine ⟨?_, ?_, ?_⟩ <;> after_results_simp

set_option maxRecDepth 8192 in
set_option maxHeartbeats 56800000 in
/-- On every device, from any memory with zero counters: every weakly fair execution of the reference's @main
    terminates with the result buffer at the last stage of the argument buffers' launch contents and the argument
    buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = val_main_v79 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v79).trans (after_v79 (launchContents m c)),
      (h c main_arg0).trans (after_args (launchContents m c)).1,
      (h c main_arg1).trans (after_args (launchContents m c)).2.1,
      (h c main_arg2).trans (after_args (launchContents m c)).2.2⟩)
    (run_seq scopedRefs_eq scopedSems_eq defs main (fun _ => ops) main_eq (fun _ => ops_sub) m ρ)

/-- The same at the extended reals. -/
theorem run_val (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v79) = Cert.ReferenceIdeal.ReadP.val_main_v79 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

end Cert.RefSide

end
-- ==== Proof.Claims.lean ====
/-
  The five claims.

  The three frames: each kernel program's run with the result dropped (the word-level program and the idealized one are
  one text read at two float instances, and the run is proved once for any instance); the reference's run with the
  result dropped. The idealization rewrote nothing, so it is vacuously preserved. At the extended reals both programs end
  with the same array: the kernel's result buffer, read back through its two launches and the host's operations around
  them, and the reference's result, read one operation at a time, are the same function of the three arguments — the
  reference's detours y + (q − y) collapse because finite inputs keep every y a real.
-/
import proofs.«143887_j14474039787742_1_alg».proof.Defs
import proofs.«143887_j14474039787742_1_alg».proof.Proof.KbRun
import proofs.«143887_j14474039787742_1_alg».proof.Proof.KiFinal
import proofs.«143887_j14474039787742_1_alg».proof.Proof.KiBridge
import proofs.«143887_j14474039787742_1_alg».proof.Proof.FinInputs
import proofs.«143887_j14474039787742_1_alg».proof.Proof.RefEq
import proofs.«143887_j14474039787742_1_alg».proof.Proof.RefRunH
import proofs.«143887_j14474039787742_1_alg».proof.Proof.Gen.Kernel
import proofs.«143887_j14474039787742_1_alg».proof.Proof.Gen.KernelIdeal
import proofs.«143887_j14474039787742_1_alg».proof.Proof.Gen.ReferenceIdeal
import proofs.«143887_j14474039787742_1_alg».proof.Proof.Gen.Pre_finite_inputs

noncomputable section

namespace Cert.Proof.Claims

open Idealize.ShloMosaic Idealize.ShloMosaic.TcCoe Idealize.SL.Sem

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem frame_ri : Cert.frame_ReferenceIdeal :=
  fun m ρ _ => (θ_run Cert.ReferenceIdeal.defs _ _).mono (fun _ h c => (h c).2) (Cert.RefSide.run_val m ρ)

theorem preserves : Cert.preserves_Kernel_KernelIdeal := trivial

/-- The kernel's result buffer after the run is the specification of the three arguments. -/
theorem kernel_result (m : (ℓ : Loc Cert.KernelIdeal.nD Cert.KernelIdeal.τ Cert.KernelIdeal.sig) → Buf (Elt Ideal) ℓ)
    (c : Dev Cert.KernelIdeal.nD) :
    Cert.KernelIdeal.Gen.V16 m (Cert.KernelIdeal.Hand.outs m) c (Proc.devRef .tc Cert.KernelIdeal.main_v27)
      = fun i => Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (i 0) (i 1) (i 2) :=
  (Cert.KernelIdeal.Hand.V16_v27_eq m c).trans (Cert.KernelSide.kernel_G_fun _ _ _)

theorem algebraic :
    Cert.algebraic_KernelIdeal_ReferenceIdeal := by
  intro m ρ m' ρ' hpre hagree
  refine ⟨fun c => fun i => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2), ?_, ?_⟩
  · exact (θ_run Cert.KernelIdeal.defs _ _).mono (fun r h c => ⟨(h c).1.trans (kernel_result m c), (h c).2⟩)
      (Cert.KernelIdeal.Hand.run_main (F := Ideal) m ρ)
  · refine (θ_run Cert.ReferenceIdeal.defs _ _).mono (fun r h c => ⟨?_, (h c).2⟩) (Cert.RefSide.run_val m' ρ')
    obtain ⟨hx, hg, hd⟩ := Cert.KernelSide.finite_of_pre _ _ _ (hpre c)
    rw [(h c).1, (hagree c).1, (hagree c).2.1, (hagree c).2.2]
    exact Cert.RefSide.ref_eq_fun _ _ _ hx hg hd

end Cert.Proof.Claims

end
-- ==== Proof.lean ====
/-
  The certificate: a two-layer MLP with absmean-ternary weights and per-row absmax-int8 activations — a token row is
  RMS-normalised and quantised, contracted with the quantised gate weights into a gate half and a value half,
  gate · logistic(gate) · value is normalised and quantised again and contracted with the quantised down weights — computed
  by a kernel in two launches (the host quantising both weight matrices first) and by a plain reference that spells
  each quantisation as a straight-through detour. The claims are proved in Proof/Claims.lean over: the launches run point
  by point (Proof/KiR0, KiR1, KiD0, KiD1, KiS0, KiRun, and their word-level twins Kb…), each launch's result as one
  function of its inputs (Proof/KiVal0, KiVal1 over Proof/Pay0, Pay1), the host's weight quantisation
  (Proof/HostW, HostWMain, KiHost), the common specification (Proof/Spec.lean) met from the kernel's side
  (Proof/KiBridge.lean) and from the reference's (Proof/Ref….lean), and finiteness of the inputs read out of the
  precondition (Proof/FinInputs.lean).
-/
import proofs.«143887_j14474039787742_1_alg».proof.Defs
import proofs.«143887_j14474039787742_1_alg».proof.Proof.Claims
import proofs.«143887_j14474039787742_1_alg».proof.Proof.Gen.Kernel
import proofs.«143887_j14474039787742_1_alg».proof.Proof.Gen.KernelIdeal
import proofs.«143887_j14474039787742_1_alg».proof.Proof.Gen.ReferenceIdeal
import proofs.«143887_j14474039787742_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k,
    Claims.frame_ki,
    Claims.frame_ri,
    Claims.preserves,
    Claims.algebraic⟩

end Cert.Proof

end
